-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 90
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128, .f32⟩
  | .hbm, ⟨32, _⟩ => ⟨S1x128, .f32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S100000x128, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_v44_2 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_26 : BitVec 32 := 0#32
  let v43 : BitVec 1 := Scalar.cmpi .ne v42 c0_i32_26
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_26 : BitVec 32 := 0#32
  let v44 : BitVec 1 := Scalar.cmpi .ne v43 c0_i32_26
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v44_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v44_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_c_6 : Ref sig .tc := ⟨.hbm, 76, rfl⟩
abbrev main_v50 : Ref sig .tc := ⟨.hbm, 77, rfl⟩
abbrev main_v51 : Ref sig .tc := ⟨.hbm, 78, rfl⟩
abbrev main_c_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Mlp0Runs.lean ====
import proofs.«158753_j48954037240335_1_alg».proof.Proof.Gen.Kernel.Launch
import proofs.«158753_j48954037240335_1_alg».proof.Proof.Gen.Kernel.Skeleton
import proofs.«158753_j48954037240335_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The two-layer perceptron kernel with column statistics of pipeline 0: the windows' blocks as the region finds them,
    the body's two branch conditions decided over the twenty grid points (the first point resets the two accumulators, the
    last one copies them out), where the two statistics windows are idle, and the scratch accumulators as memrefs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The first branch's condition (the grid coordinate is 0), from the coordinates. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)
/-- The second branch's condition (the grid coordinate is 19). -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the statistics window 7 is idle and not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Away from the last point the statistics window 8 is idle and not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-- One staging buffer of each output window, through which its contents are stated. -/
abbrev VO0_6 : View sig .tc .vmem S5000x128 .f32 := (Memref.whole cc0_stg6_0 : Memref sig .tc .vmem S5000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- Each window's current staging memref at point t, as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two scratch accumulators: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two accumulators as memrefs owned at some contents, beside the other scoped buffers. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.Mlp0A.lean ====
import proofs.«158753_j48954037240335_1_alg».proof.Proof.K.Mlp0Runs

/-! The perceptron-and-statistics kernel of pipeline 0 run on whole staging memrefs at a point of case A
    (the first point: the accumulators are reset, then added to): the pieces each written buffer ends with are the witness the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    haveI : Fact (cond0_0 i) := ⟨hc0⟩
    haveI : Fact (¬cond0_1 i) := ⟨hc1⟩
    simp only [cc0__mlp_stats_kernel_eq_skeleton]; unfold cc0__mlp_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.Kernel.Hand

end
-- ==== Proof.K.Mlp0B.lean ====
import proofs.«158753_j48954037240335_1_alg».proof.Proof.K.Mlp0Runs

/-! The perceptron-and-statistics kernel of pipeline 0 run on whole staging memrefs at a point of case B
    (a middle point: the accumulators are added to): the pieces each written buffer ends with are the witness the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    haveI : Fact (¬cond0_0 i) := ⟨hc0⟩
    haveI : Fact (¬cond0_1 i) := ⟨hc1⟩
    simp only [cc0__mlp_stats_kernel_eq_skeleton]; unfold cc0__mlp_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.Kernel.Hand

end
-- ==== Proof.K.Mlp0C.lean ====
import proofs.«158753_j48954037240335_1_alg».proof.Proof.K.Mlp0Runs

/-! The perceptron-and-statistics kernel of pipeline 0 run on whole staging memrefs at a point of case C
    (the last point: the accumulators are added to and copied out): the pieces each written buffer ends with are the witness the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    haveI : Fact (¬cond0_0 i) := ⟨hc0⟩
    haveI : Fact (cond0_1 i) := ⟨hc1⟩
    simp only [cc0__mlp_stats_kernel_eq_skeleton]; unfold cc0__mlp_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Hand

end
-- ==== Proof.K.Mlp0.lean ====
import proofs.«158753_j48954037240335_1_alg».proof.Proof.K.Mlp0A
import proofs.«158753_j48954037240335_1_alg».proof.Proof.K.Mlp0B
import proofs.«158753_j48954037240335_1_alg».proof.Proof.K.Mlp0C

/-! The perceptron-and-statistics kernel of pipeline 0: what each written buffer holds after each grid point (by recursion
    on the point: the two accumulators carry from one point to the next), the invariant that carries them, the pipeline's
    proof data and the body obligation, for any contents V the region is entered with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for buffer 6 tile it, so they cover it. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y
/-- What case A leaves in buffer 6: its pieces read back. -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A's pieces for buffer s0 tile it, so they cover it. -/
theorem cover0_A_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What case A leaves in buffer s0: its pieces read back. -/
def out0_A_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A's pieces for buffer s1 tile it, so they cover it. -/
theorem cover0_A_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What case A leaves in buffer s1: its pieces read back. -/
def out0_A_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case B's pieces for buffer 6 tile it, so they cover it. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y
/-- What case B leaves in buffer 6: its pieces read back. -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case B's pieces for buffer s0 tile it, so they cover it. -/
theorem cover0_B_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case B leaves in buffer s0: its pieces read back. -/
def out0_B_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for buffer s1 tile it, so they cover it. -/
theorem cover0_B_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case B leaves in buffer s1: its pieces read back. -/
def out0_B_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for buffer 6 tile it, so they cover it. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y
/-- What case C leaves in buffer 6: its pieces read back. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for buffer 7 tile it, so they cover it. -/
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case C leaves in buffer 7: its pieces read back. -/
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for buffer 8 tile it, so they cover it. -/
theorem cover0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case C leaves in buffer 8: its pieces read back. -/
def out0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for buffer s0 tile it, so they cover it. -/
theorem cover0_C_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What case C leaves in buffer s0: its pieces read back. -/
def out0_C_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for buffer s1 tile it, so they cover it. -/
theorem cover0_C_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What case C leaves in buffer s1: its pieces read back. -/
def out0_C_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- A placeholder for a statistics window's buffer at a point where it is idle (nothing consults it). -/
def idle0_7 : Vec F S1x128 .f32 := VO0_7.read (Elt F) VO0_7.junk
def idle0_8 : Vec F S1x128 .f32 := VO0_8.read (Elt F) VO0_8.junk

/-- What one point leaves: the row block of z, the two statistics windows' buffers, the two accumulators. -/
abbrev Outs0 : Type := Vec F S5000x128 .f32 × Vec F S1x128 .f32 × Vec F S1x128 .f32 × Vec F S1x128 .f32 × Vec F S1x128 .f32

/-- THE ACCUMULATION: what the output buffers and the two accumulators hold after the body at position n — at the first
    point the reset accumulators plus the block's column sums, afterwards the previous point's plus this block's. -/
def outsAt0 (c : Dev nD) : (n : ℕ) → n < cfg0.N → Outs0 (F := F)
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), idle0_7, idle0_8, out0_A_s0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_s1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : (n + 1) % 20 = 19 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, idle0_7, idle0_8, out0_B_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_B_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 20 = 0) (h1 : ¬t.val % 20 = 19) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), idle0_7, idle0_8, out0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (by exfalso; have hN : n + 1 < 20 := lt_of_lt_of_eq hn (show cfg0.N = 20 from N_0); (try dsimp only at h0); omega)

theorem outsAt0_B (c : Dev nD) (t : Fin cfg0.N) (h0 : ¬t.val % 20 = 0) (h1 : ¬t.val % 20 = 19) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle0_7, idle0_8, out0_B_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 20 = 0) (h1 : t.val % 20 = 19) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position n: before the first point the class's (every scoped buffer at anything, the
    generator register); afterwards the two accumulators at what the point before left, the other scoped buffers at
    anything, the generator register. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point: the inputs' memrefs hold their blocks; the closed forms of the two conditions say which case the
    point is in; the invariant hands the body the two accumulators at what the point before left (at anything at the
    first point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 20 = 0
  · have h1 : ¬t.val % 20 = 19 := by omega
    have hz : t.val = 0 := by omega
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_A V c t h0 h1]
    unfold out0_A_6 out0_A_s0 out0_A_s1; (try dsimp only)
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cover0_A_s0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (cover0_A_s1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · have hz : t.val ≠ 0 := by omega
    by_cases h1 : t.val % 20 = 19
    · rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold out0_C_6 out0_C_7 out0_C_8 out0_C_s0 out0_C_s1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cover0_C_s0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover0_C_s1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 out0_B_s0 out0_B_s1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cover0_B_s0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover0_B_s1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega), PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.K.Bn1.lean ====
import proofs.«158753_j48954037240335_1_alg».proof.Proof.Gen.Kernel.Launch
import proofs.«158753_j48954037240335_1_alg».proof.Proof.Gen.Kernel.Skeleton
import proofs.«158753_j48954037240335_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The affine-and-clamp kernel of pipeline 1 (one 5000 × 128 row block per grid point, the scale and the shift
    rows fetched once): what its body leaves in the output block, the body's triple, and the pipeline's proof data,
    at any float instance and for any contents V the region is entered with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rb1 : Rect S5000x128 := Rect.unit (s := S5000x128) ![0, 0] S5000x128.size inb_S5000x128_S5000x128_0_0
abbrev rv1 : Rect S1x128 := Rect.unit (s := S1x128) ![0, 0] S1x128.size inb_S1x128_S1x128_0_0

/-- The output block after the body: its one store, of the payload of the three loaded blocks. -/
def out1_3 (x0 : Vec F S5000x128 .f32) (x1 : Vec F S1x128 .f32) (x2 : Vec F S1x128 .f32) : Vec F S5000x128 .f32 :=
  View.canon [⟨rb1, k1_pay1 (View.ld x0 rb1) (View.ld x1 rv1) (View.ld x2 rv1)⟩]

/-- The one store covers the block. -/
theorem cover1_3 (p0 : Vec F S5000x128 .f32) (y : S5000x128.Idx) :
    ∃ pc ∈ ([⟨rb1, p0⟩] : List (View.Piece (Elt F) S5000x128 .f32)), y ∈ pc.1.set :=
  View.cover_of_tiled [⟨rb1, p0⟩] S5000x128.size (by rfl) y

set_option maxHeartbeats 1000000 in
/-- The body on whole staging memrefs: the inputs are left as found, the output block ends at out1_3 of them. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_relu_kernel i arg1 harg1 arg2 harg2 arg3 harg3 arg4 harg4) K := by
  simp only [cc1__bn_relu_kernel_eq_skeleton]; unfold cc1__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

/-- The proof data of pipeline 1 on core c: the arrays as the region finds them; after the body each input's
    buffer at its block and the output's at out1_3 of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Mlp2Runs.lean ====
import proofs.«158753_j48954037240335_1_alg».proof.Proof.Gen.Kernel.Launch
import proofs.«158753_j48954037240335_1_alg».proof.Proof.Gen.Kernel.Skeleton
import proofs.«158753_j48954037240335_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The two-layer perceptron kernel with column statistics of pipeline 2: the windows' blocks as the region finds them,
    the body's two branch conditions decided over the twenty grid points (the first point resets the two accumulators, the
    last one copies them out), where the two statistics windows are idle, and the scratch accumulators as memrefs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The first branch's condition (the grid coordinate is 0), from the coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)
/-- The second branch's condition (the grid coordinate is 19). -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the statistics window 7 is idle and not written back; at the last point it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel
/-- Away from the last point the statistics window 8 is idle and not written back; at the last point it is live. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel

/-- One staging buffer of each output window, through which its contents are stated. -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
/-- Each window's current staging memref at point t, as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two scratch accumulators: whole scoped buffers of the kernel's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two accumulators as memrefs owned at some contents, beside the other scoped buffers. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.K.Mlp2A.lean ====
import proofs.«158753_j48954037240335_1_alg».proof.Proof.K.Mlp2Runs

/-! The perceptron-and-statistics kernel of pipeline 2 run on whole staging memrefs at a point of case A
    (the first point: the accumulators are reset, then added to): the pieces each written buffer ends with are the witness the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    haveI : Fact (cond2_0 i) := ⟨hc0⟩
    haveI : Fact (¬cond2_1 i) := ⟨hc1⟩
    simp only [cc2__mlp_stats_kernel_eq_skeleton]; unfold cc2__mlp_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.Kernel.Hand

end
-- ==== Proof.K.Mlp2B.lean ====
import proofs.«158753_j48954037240335_1_alg».proof.Proof.K.Mlp2Runs

/-! The perceptron-and-statistics kernel of pipeline 2 run on whole staging memrefs at a point of case B
    (a middle point: the accumulators are added to): the pieces each written buffer ends with are the witness the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    haveI : Fact (¬cond2_0 i) := ⟨hc0⟩
    haveI : Fact (¬cond2_1 i) := ⟨hc1⟩
    simp only [cc2__mlp_stats_kernel_eq_skeleton]; unfold cc2__mlp_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.Kernel.Hand

end
-- ==== Proof.K.Mlp2C.lean ====
import proofs.«158753_j48954037240335_1_alg».proof.Proof.K.Mlp2Runs

/-! The perceptron-and-statistics kernel of pipeline 2 run on whole staging memrefs at a point of case C
    (the last point: the accumulators are added to and copied out): the pieces each written buffer ends with are the witness the run finds. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    haveI : Fact (¬cond2_0 i) := ⟨hc0⟩
    haveI : Fact (cond2_1 i) := ⟨hc1⟩
    simp only [cc2__mlp_stats_kernel_eq_skeleton]; unfold cc2__mlp_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Hand

end
-- ==== Proof.K.Mlp2.lean ====
import proofs.«158753_j48954037240335_1_alg».proof.Proof.K.Mlp2A
import proofs.«158753_j48954037240335_1_alg».proof.Proof.K.Mlp2B
import proofs.«158753_j48954037240335_1_alg».proof.Proof.K.Mlp2C

/-! The perceptron-and-statistics kernel of pipeline 2: what each written buffer holds after each grid point (by recursion
    on the point: the two accumulators carry from one point to the next), the invariant that carries them, the pipeline's
    proof data and the body obligation, for any contents V the region is entered with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for buffer 6 tile it, so they cover it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y
/-- What case A leaves in buffer 6: its pieces read back. -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A's pieces for buffer s0 tile it, so they cover it. -/
theorem cover2_A_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What case A leaves in buffer s0: its pieces read back. -/
def out2_A_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A's pieces for buffer s1 tile it, so they cover it. -/
theorem cover2_A_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What case A leaves in buffer s1: its pieces read back. -/
def out2_A_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case B's pieces for buffer 6 tile it, so they cover it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y
/-- What case B leaves in buffer 6: its pieces read back. -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case B's pieces for buffer s0 tile it, so they cover it. -/
theorem cover2_B_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case B leaves in buffer s0: its pieces read back. -/
def out2_B_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for buffer s1 tile it, so they cover it. -/
theorem cover2_B_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case B leaves in buffer s1: its pieces read back. -/
def out2_B_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for buffer 6 tile it, so they cover it. -/
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y
/-- What case C leaves in buffer 6: its pieces read back. -/
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for buffer 7 tile it, so they cover it. -/
theorem cover2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case C leaves in buffer 7: its pieces read back. -/
def out2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for buffer 8 tile it, so they cover it. -/
theorem cover2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case C leaves in buffer 8: its pieces read back. -/
def out2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for buffer s0 tile it, so they cover it. -/
theorem cover2_C_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What case C leaves in buffer s0: its pieces read back. -/
def out2_C_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for buffer s1 tile it, so they cover it. -/
theorem cover2_C_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What case C leaves in buffer s1: its pieces read back. -/
def out2_C_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- A placeholder for a statistics window's buffer at a point where it is idle (nothing consults it). -/
def idle2_7 : Vec F S1x128 .f32 := VO2_7.read (Elt F) VO2_7.junk
def idle2_8 : Vec F S1x128 .f32 := VO2_8.read (Elt F) VO2_8.junk

/-- What one point leaves: the row block of z, the two statistics windows' buffers, the two accumulators. -/
abbrev Outs2 : Type := Vec F S5000x128 .f32 × Vec F S1x128 .f32 × Vec F S1x128 .f32 × Vec F S1x128 .f32 × Vec F S1x128 .f32

/-- THE ACCUMULATION: what the output buffers and the two accumulators hold after the body at position n — at the first
    point the reset accumulators plus the block's column sums, afterwards the previous point's plus this block's. -/
def outsAt2 (c : Dev nD) : (n : ℕ) → n < cfg2.N → Outs2 (F := F)
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), idle2_7, idle2_8, out2_A_s0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_s1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : (n + 1) % 20 = 19 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, idle2_7, idle2_8, out2_B_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 20 = 0) (h1 : ¬t.val % 20 = 19) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), idle2_7, idle2_8, out2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (by exfalso; have hN : n + 1 < 20 := lt_of_lt_of_eq hn (show cfg2.N = 20 from N_2); (try dsimp only at h0); omega)

theorem outsAt2_B (c : Dev nD) (t : Fin cfg2.N) (h0 : ¬t.val % 20 = 0) (h1 : ¬t.val % 20 = 19) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, idle2_7, idle2_8, out2_B_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 20 = 0) (h1 : t.val % 20 = 19) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position n: before the first point the class's (every scoped buffer at anything, the
    generator register); afterwards the two accumulators at what the point before left, the other scoped buffers at
    anything, the generator register. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
/-- The body at any point: the inputs' memrefs hold their blocks; the closed forms of the two conditions say which case the
    point is in; the invariant hands the body the two accumulators at what the point before left (at anything at the
    first point) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h0 : t.val % 20 = 0
  · have h1 : ¬t.val % 20 = 19 := by omega
    have hz : t.val = 0 := by omega
    rw [Dat.leavesExact_idle (dat2 V c) 7 t (idleAt2_7 t (fun h => h1 ((hcond2_1 t).mp h))) (noFlush2_7 t (fun h => h1 ((hcond2_1 t).mp h)))]
    rw [Dat.leavesExact_idle (dat2 V c) 8 t (idleAt2_8 t (fun h => h1 ((hcond2_1 t).mp h))) (noFlush2_8 t (fun h => h1 ((hcond2_1 t).mp h)))]
    rw [outsAt2_A V c t h0 h1]
    unfold out2_A_6 out2_A_s0 out2_A_s1; (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cover2_A_s0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (cover2_A_s1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · have hz : t.val ≠ 0 := by omega
    by_cases h1 : t.val % 20 = 19
    · rw [show (dat2 V c).leavesExact 7 t = owns (c : Thread nD τ) (ms2_7 t) fullShare ((dat2 V c).after 7 t) from by
        unfold Dat.leavesExact; rw [liveAt2_7 t ((hcond2_1 t).mpr h1)], after2_7]
      rw [show (dat2 V c).leavesExact 8 t = owns (c : Thread nD τ) (ms2_8 t) fullShare ((dat2 V c).after 8 t) from by
        unfold Dat.leavesExact; rw [liveAt2_8 t ((hcond2_1 t).mpr h1)], after2_8]
      rw [outsAt2_C V c t h0 h1]
      unfold out2_C_6 out2_C_7 out2_C_8 out2_C_s0 out2_C_s1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cover2_C_s0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover2_C_s1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_B V c t h0 h1]
      unfold out2_B_6 out2_B_s0 out2_B_s1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cover2_B_s0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover2_B_s1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _
/-- After the last point the invariant gives the class's back: the accumulators' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.K.Bn3.lean ====
import proofs.«158753_j48954037240335_1_alg».proof.Proof.Gen.Kernel.Launch
import proofs.«158753_j48954037240335_1_alg».proof.Proof.Gen.Kernel.Skeleton
import proofs.«158753_j48954037240335_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The affine-and-clamp kernel of pipeline 3 (one 5000 × 128 row block per grid point, the scale and the shift
    rows fetched once): what its body leaves in the output block, the body's triple, and the pipeline's proof data,
    at any float instance and for any contents V the region is entered with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, its
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, its
    block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, its
    block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev rb3 : Rect S5000x128 := Rect.unit (s := S5000x128) ![0, 0] S5000x128.size inb_S5000x128_S5000x128_0_0
abbrev rv3 : Rect S1x128 := Rect.unit (s := S1x128) ![0, 0] S1x128.size inb_S1x128_S1x128_0_0

/-- The output block after the body: its one store, of the payload of the three loaded blocks. -/
def out3_3 (x0 : Vec F S5000x128 .f32) (x1 : Vec F S1x128 .f32) (x2 : Vec F S1x128 .f32) : Vec F S5000x128 .f32 :=
  View.canon [⟨rb3, k3_pay1 (View.ld x0 rb3) (View.ld x1 rv3) (View.ld x2 rv3)⟩]

/-- The one store covers the block. -/
theorem cover3_3 (p0 : Vec F S5000x128 .f32) (y : S5000x128.Idx) :
    ∃ pc ∈ ([⟨rb3, p0⟩] : List (View.Piece (Elt F) S5000x128 .f32)), y ∈ pc.1.set :=
  View.cover_of_tiled [⟨rb3, p0⟩] S5000x128.size (by rfl) y

set_option maxHeartbeats 1000000 in
/-- The body on whole staging memrefs: the inputs are left as found, the output block ends at out3_3 of them. -/
theorem sound_kernel3 (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bn_relu_kernel i arg1 harg1 arg2 harg2 arg3 harg3 arg4 harg4) K := by
  simp only [cc3__bn_relu_kernel_eq_skeleton]; unfold cc3__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_3 _)

/-- The proof data of pipeline 3 on core c: the arrays as the region finds them; after the body each input's
    buffer at its block and the output's at out3_3 of the input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
import proofs.«158753_j48954037240335_1_alg».proof.Proof.K.Mlp0
import proofs.«158753_j48954037240335_1_alg».proof.Proof.K.Bn1
import proofs.«158753_j48954037240335_1_alg».proof.Proof.K.Mlp2
import proofs.«158753_j48954037240335_1_alg».proof.Proof.K.Bn3
import proofs.«158753_j48954037240335_1_alg».proof.Proof.Gen.Kernel.Regions

/-! The whole program as eight segments — four stretches of host operations and the four kernel regions between them —
    run from the launch to the return: the contents of every unscoped buffer at each segment boundary as a fold through the
    program, and the run ending with every unscoped buffer at the last boundary's contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output of region 0 leaves the region as it entered: an input window's array is never written,
    any other buffer bypasses the region. -/
theorem W2_keep (c : Dev nD) (b : Ref sig .tc) (hb : b ∉ ([main_v16_0, main_v16_1, main_v16_2] : List (Ref sig .tc))) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      revert hb; revert w; decide
    rw [W2_arr]
    exact ((dat0 (V1 m ρ) c).arrAt_in w hw _).trans (A_eq0 (V1 m ρ) c w)
  · exact W2_of_ne m ρ c b (fun w e => h ⟨w, e⟩)
/-- A buffer the host stretch 0 does not write is as before it. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is no output of region 1 leaves the region as it entered: an input window's array is never written,
    any other buffer bypasses the region. -/
theorem W4_keep (c : Dev nD) (b : Ref sig .tc) (hb : b ∉ ([main_v31] : List (Ref sig .tc))) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      revert hb; revert w; decide
    rw [W4_arr]
    exact ((dat1 (V3 m ρ) c).arrAt_in w hw _).trans (A_eq1 (V3 m ρ) c w)
  · exact W4_of_ne m ρ c b (fun w e => h ⟨w, e⟩)
/-- A buffer the host stretch 1 does not write is as before it. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- After the host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is no output of region 2 leaves the region as it entered: an input window's array is never written,
    any other buffer bypasses the region. -/
theorem W6_keep (c : Dev nD) (b : Ref sig .tc) (hb : b ∉ ([main_v44_0, main_v44_1, main_v44_2] : List (Ref sig .tc))) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      revert hb; revert w; decide
    rw [W6_arr]
    exact ((dat2 (V5 m ρ) c).arrAt_in w hw _).trans (A_eq2 (V5 m ρ) c w)
  · exact W6_of_ne m ρ c b (fun w e => h ⟨w, e⟩)
/-- A buffer the host stretch 2 does not write is as before it. -/
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

/-- After the host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer that is no output of region 3 leaves the region as it entered: an input window's array is never written,
    any other buffer bypasses the region. -/
theorem W8_keep (c : Dev nD) (b : Ref sig .tc) (hb : b ∉ ([main_v59] : List (Ref sig .tc))) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      revert hb; revert w; decide
    rw [W8_arr]
    exact ((dat3 (V7 m ρ) c).arrAt_in w hw _).trans (A_eq3 (V7 m ρ) c w)
  · exact W8_of_ne m ρ c b (fun w e => h ⟨w, e⟩)
/-- A buffer the host stretch 3 does not write is as before it. -/
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

/-- A buffer no host stretch writes and no region outputs ends as launched. -/
theorem W8_launch (c : Dev nD) (r : Ref sig .tc) (h0 : r ∉ hostOps0_W) (h1 : r ∉ ([main_v16_0, main_v16_1, main_v16_2] : List (Ref sig .tc))) (h2 : r ∉ hostOps1_W) (h3 : r ∉ ([main_v31] : List (Ref sig .tc)))
    (h4 : r ∉ hostOps2_W) (h5 : r ∉ ([main_v44_0, main_v44_1, main_v44_2] : List (Ref sig .tc))) (h6 : r ∉ hostOps3_W) (h7 : r ∉ ([main_v59] : List (Ref sig .tc))) :
    W8 m ρ c (Proc.devRef .tc r) = m ((c : Thread nD τ).loc r) :=
  (W8_keep m ρ c r h7).trans <| (W7_keep m ρ c r h6).trans <| (W6_keep m ρ c r h5).trans <| (W5_keep m ρ c r h4).trans <|
    (W4_keep m ρ c r h3).trans <| (W3_keep m ρ c r h2).trans <| (W2_keep m ρ c r h1).trans <| (W1_keep m ρ c r h0).trans rfl

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      refine (show iprop(StableHlo.held (c : Thread nD τ) (Pipeline.ucRefs τ sig) (W8 m ρ c) ∗ R c) ⊢ iprop(Tₙ m ρ c ∗ ∃ W, owes (c : Thread nD τ) (0 : CellTallies nD τ sig Unit) W) from ?_)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.K.Frame.lean ====
import proofs.«158753_j48954037240335_1_alg».proof.Proof.K.Run

/-! The frame of the program: it runs to the end from any memory, nothing faulting, and each of its fourteen argument arrays
    ends as launched — no host operation writes an argument and no region has one among its outputs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
    (h c _ (mem_uc main_arg0 (by decide))).trans (W8_launch m ρ c main_arg0 (by decide) (by decide) (by decide) (by decide) (by decide) (by decide) (by decide) (by decide)),
    (h c _ (mem_uc main_arg1 (by decide))).trans (W8_launch m ρ c main_arg1 (by decide) (by decide) (by decide) (by decide) (by decide) (by decide) (by decide) (by decide)),
    (h c _ (mem_uc main_arg2 (by decide))).trans (W8_launch m ρ c main_arg2 (by decide) (by decide) (by decide) (by decide) (by decide) (by decide) (by decide) (by decide)),
    (h c _ (mem_uc main_arg3 (by decide))).trans (W8_launch m ρ c main_arg3 (by decide) (by decide) (by decide) (by decide) (by decide) (by decide) (by decide) (by decide)),
    (h c _ (mem_uc main_arg4 (by decide))).trans (W8_launch m ρ c main_arg4 (by decide) (by decide) (by decide) (by decide) (by decide) (by decide) (by decide) (by decide)),
    (h c _ (mem_uc main_arg5 (by decide))).trans (W8_launch m ρ c main_arg5 (by decide) (by decide) (by decide) (by decide) (by decide) (by decide) (by decide) (by decide)),
    (h c _ (mem_uc main_arg6 (by decide))).trans (W8_launch m ρ c main_arg6 (by decide) (by decide) (by decide) (by decide) (by decide) (by decide) (by decide) (by decide)),
    (h c _ (mem_uc main_arg7 (by decide))).trans (W8_launch m ρ c main_arg7 (by decide) (by decide) (by decide) (by decide) (by decide) (by decide) (by decide) (by decide)),
    (h c _ (mem_uc main_arg8 (by decide))).trans (W8_launch m ρ c main_arg8 (by decide) (by decide) (by decide) (by decide) (by decide) (by decide) (by decide) (by decide)),
    (h c _ (mem_uc main_arg9 (by decide))).trans (W8_launch m ρ c main_arg9 (by decide) (by decide) (by decide) (by decide) (by decide) (by decide) (by decide) (by decide)),
    (h c _ (mem_uc main_arg10 (by decide))).trans (W8_launch m ρ c main_arg10 (by decide) (by decide) (by decide) (by decide) (by decide) (by decide) (by decide) (by decide)),
    (h c _ (mem_uc main_arg11 (by decide))).trans (W8_launch m ρ c main_arg11 (by decide) (by decide) (by decide) (by decide) (by decide) (by decide) (by decide) (by decide)),
    (h c _ (mem_uc main_arg12 (by decide))).trans (W8_launch m ρ c main_arg12 (by decide) (by decide) (by decide) (by decide) (by decide) (by decide) (by decide) (by decide)),
    (h c _ (mem_uc main_arg13 (by decide))).trans (W8_launch m ρ c main_arg13 (by decide) (by decide) (by decide) (by decide) (by decide) (by decide) (by decide) (by decide))⟩)
    (run_all m ρ)

end Cert.Kernel.Hand

end
-- ==== Proof.KI.Mlp0Runs.lean ====
import proofs.«158753_j48954037240335_1_alg».proof.Proof.Gen.KernelIdeal.Launch
import proofs.«158753_j48954037240335_1_alg».proof.Proof.Gen.KernelIdeal.Skeleton
import proofs.«158753_j48954037240335_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The two-layer perceptron kernel with column statistics of pipeline 0: the windows' blocks as the region finds them,
    the body's two branch conditions decided over the twenty grid points (the first point resets the two accumulators, the
    last one copies them out), where the two statistics windows are idle, and the scratch accumulators as memrefs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The first branch's condition (the grid coordinate is 0), from the coordinates. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)
/-- The second branch's condition (the grid coordinate is 19). -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the statistics window 7 is idle and not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Away from the last point the statistics window 8 is idle and not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-- One staging buffer of each output window, through which its contents are stated. -/
abbrev VO0_6 : View sig .tc .vmem S5000x128 .f32 := (Memref.whole cc0_stg6_0 : Memref sig .tc .vmem S5000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- Each window's current staging memref at point t, as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two scratch accumulators: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two accumulators as memrefs owned at some contents, beside the other scoped buffers. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.Mlp0A.lean ====
import proofs.«158753_j48954037240335_1_alg».proof.Proof.KI.Mlp0Runs

/-! The perceptron-and-statistics kernel of pipeline 0 run on whole staging memrefs at a point of case A
    (the first point: the accumulators are reset, then added to): the pieces each written buffer ends with are the witness the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    haveI : Fact (cond0_0 i) := ⟨hc0⟩
    haveI : Fact (¬cond0_1 i) := ⟨hc1⟩
    simp only [cc0__mlp_stats_kernel_eq_skeleton]; unfold cc0__mlp_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.KernelIdeal.Hand

end
-- ==== Proof.KI.Mlp0B.lean ====
import proofs.«158753_j48954037240335_1_alg».proof.Proof.KI.Mlp0Runs

/-! The perceptron-and-statistics kernel of pipeline 0 run on whole staging memrefs at a point of case B
    (a middle point: the accumulators are added to): the pieces each written buffer ends with are the witness the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    haveI : Fact (¬cond0_0 i) := ⟨hc0⟩
    haveI : Fact (¬cond0_1 i) := ⟨hc1⟩
    simp only [cc0__mlp_stats_kernel_eq_skeleton]; unfold cc0__mlp_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.KernelIdeal.Hand

end
-- ==== Proof.KI.Mlp0C.lean ====
import proofs.«158753_j48954037240335_1_alg».proof.Proof.KI.Mlp0Runs

/-! The perceptron-and-statistics kernel of pipeline 0 run on whole staging memrefs at a point of case C
    (the last point: the accumulators are added to and copied out): the pieces each written buffer ends with are the witness the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    haveI : Fact (¬cond0_0 i) := ⟨hc0⟩
    haveI : Fact (cond0_1 i) := ⟨hc1⟩
    simp only [cc0__mlp_stats_kernel_eq_skeleton]; unfold cc0__mlp_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Hand

end
-- ==== Proof.KI.Mlp0.lean ====
import proofs.«158753_j48954037240335_1_alg».proof.Proof.KI.Mlp0A
import proofs.«158753_j48954037240335_1_alg».proof.Proof.KI.Mlp0B
import proofs.«158753_j48954037240335_1_alg».proof.Proof.KI.Mlp0C

/-! The perceptron-and-statistics kernel of pipeline 0: what each written buffer holds after each grid point (by recursion
    on the point: the two accumulators carry from one point to the next), the invariant that carries them, the pipeline's
    proof data and the body obligation, for any contents V the region is entered with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for buffer 6 tile it, so they cover it. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y
/-- What case A leaves in buffer 6: its pieces read back. -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A's pieces for buffer s0 tile it, so they cover it. -/
theorem cover0_A_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What case A leaves in buffer s0: its pieces read back. -/
def out0_A_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A's pieces for buffer s1 tile it, so they cover it. -/
theorem cover0_A_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What case A leaves in buffer s1: its pieces read back. -/
def out0_A_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case B's pieces for buffer 6 tile it, so they cover it. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y
/-- What case B leaves in buffer 6: its pieces read back. -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case B's pieces for buffer s0 tile it, so they cover it. -/
theorem cover0_B_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case B leaves in buffer s0: its pieces read back. -/
def out0_B_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for buffer s1 tile it, so they cover it. -/
theorem cover0_B_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case B leaves in buffer s1: its pieces read back. -/
def out0_B_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for buffer 6 tile it, so they cover it. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y
/-- What case C leaves in buffer 6: its pieces read back. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for buffer 7 tile it, so they cover it. -/
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case C leaves in buffer 7: its pieces read back. -/
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for buffer 8 tile it, so they cover it. -/
theorem cover0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case C leaves in buffer 8: its pieces read back. -/
def out0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for buffer s0 tile it, so they cover it. -/
theorem cover0_C_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What case C leaves in buffer s0: its pieces read back. -/
def out0_C_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for buffer s1 tile it, so they cover it. -/
theorem cover0_C_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What case C leaves in buffer s1: its pieces read back. -/
def out0_C_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- A placeholder for a statistics window's buffer at a point where it is idle (nothing consults it). -/
def idle0_7 : Vec F S1x128 .f32 := VO0_7.read (Elt F) VO0_7.junk
def idle0_8 : Vec F S1x128 .f32 := VO0_8.read (Elt F) VO0_8.junk

/-- What one point leaves: the row block of z, the two statistics windows' buffers, the two accumulators. -/
abbrev Outs0 : Type := Vec F S5000x128 .f32 × Vec F S1x128 .f32 × Vec F S1x128 .f32 × Vec F S1x128 .f32 × Vec F S1x128 .f32

/-- THE ACCUMULATION: what the output buffers and the two accumulators hold after the body at position n — at the first
    point the reset accumulators plus the block's column sums, afterwards the previous point's plus this block's. -/
def outsAt0 (c : Dev nD) : (n : ℕ) → n < cfg0.N → Outs0 (F := F)
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), idle0_7, idle0_8, out0_A_s0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_s1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : (n + 1) % 20 = 19 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, idle0_7, idle0_8, out0_B_s0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_B_s1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => (by have hN : n + 1 < 20 := lt_of_lt_of_eq hn (show cfg0.N = 20 from N_0); have := (hcond0_0 ⟨n + 1, hn⟩).mp h; (try dsimp only at this); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 20 = 0) (h1 : ¬t.val % 20 = 19) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), idle0_7, idle0_8, out0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (by exfalso; have hN : n + 1 < 20 := lt_of_lt_of_eq hn (show cfg0.N = 20 from N_0); (try dsimp only at h0); omega)

theorem outsAt0_B (c : Dev nD) (t : Fin cfg0.N) (h0 : ¬t.val % 20 = 0) (h1 : ¬t.val % 20 = 19) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle0_7, idle0_8, out0_B_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 20 = 0) (h1 : t.val % 20 = 19) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position n: before the first point the class's (every scoped buffer at anything, the
    generator register); afterwards the two accumulators at what the point before left, the other scoped buffers at
    anything, the generator register. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
/-- The body at any point: the inputs' memrefs hold their blocks; the closed forms of the two conditions say which case the
    point is in; the invariant hands the body the two accumulators at what the point before left (at anything at the
    first point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 20 = 0
  · have h1 : ¬t.val % 20 = 19 := by omega
    have hz : t.val = 0 := by omega
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_A V c t h0 h1]
    unfold out0_A_6 out0_A_s0 out0_A_s1; (try dsimp only)
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cover0_A_s0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (cover0_A_s1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · have hz : t.val ≠ 0 := by omega
    by_cases h1 : t.val % 20 = 19
    · rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold out0_C_6 out0_C_7 out0_C_8 out0_C_s0 out0_C_s1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cover0_C_s0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover0_C_s1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 out0_B_s0 out0_B_s1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cover0_B_s0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover0_B_s1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega), PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KI.Bn1.lean ====
import proofs.«158753_j48954037240335_1_alg».proof.Proof.Gen.KernelIdeal.Launch
import proofs.«158753_j48954037240335_1_alg».proof.Proof.Gen.KernelIdeal.Skeleton
import proofs.«158753_j48954037240335_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The affine-and-clamp kernel of pipeline 1 (one 5000 × 128 row block per grid point, the scale and the shift
    rows fetched once): what its body leaves in the output block, the body's triple, and the pipeline's proof data,
    at any float instance and for any contents V the region is entered with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rb1 : Rect S5000x128 := Rect.unit (s := S5000x128) ![0, 0] S5000x128.size inb_S5000x128_S5000x128_0_0
abbrev rv1 : Rect S1x128 := Rect.unit (s := S1x128) ![0, 0] S1x128.size inb_S1x128_S1x128_0_0

/-- The output block after the body: its one store, of the payload of the three loaded blocks. -/
def out1_3 (x0 : Vec F S5000x128 .f32) (x1 : Vec F S1x128 .f32) (x2 : Vec F S1x128 .f32) : Vec F S5000x128 .f32 :=
  View.canon [⟨rb1, k1_pay1 (View.ld x0 rb1) (View.ld x1 rv1) (View.ld x2 rv1)⟩]

/-- The one store covers the block. -/
theorem cover1_3 (p0 : Vec F S5000x128 .f32) (y : S5000x128.Idx) :
    ∃ pc ∈ ([⟨rb1, p0⟩] : List (View.Piece (Elt F) S5000x128 .f32)), y ∈ pc.1.set :=
  View.cover_of_tiled [⟨rb1, p0⟩] S5000x128.size (by rfl) y

set_option maxHeartbeats 1000000 in
/-- The body on whole staging memrefs: the inputs are left as found, the output block ends at out1_3 of them. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_relu_kernel i arg1 harg1 arg2 harg2 arg3 harg3 arg4 harg4) K := by
  simp only [cc1__bn_relu_kernel_eq_skeleton]; unfold cc1__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

/-- The proof data of pipeline 1 on core c: the arrays as the region finds them; after the body each input's
    buffer at its block and the output's at out1_3 of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Mlp2Runs.lean ====
import proofs.«158753_j48954037240335_1_alg».proof.Proof.Gen.KernelIdeal.Launch
import proofs.«158753_j48954037240335_1_alg».proof.Proof.Gen.KernelIdeal.Skeleton
import proofs.«158753_j48954037240335_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The two-layer perceptron kernel with column statistics of pipeline 2: the windows' blocks as the region finds them,
    the body's two branch conditions decided over the twenty grid points (the first point resets the two accumulators, the
    last one copies them out), where the two statistics windows are idle, and the scratch accumulators as memrefs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The first branch's condition (the grid coordinate is 0), from the coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)
/-- The second branch's condition (the grid coordinate is 19). -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Away from the last point the statistics window 7 is idle and not written back; at the last point it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel
/-- Away from the last point the statistics window 8 is idle and not written back; at the last point it is live. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8 : ∀ t : Fin cfg2.N, cond2_1 (grid2.coords t) → cfg2.idle 8 (grid2.coords t) = false := by decide +kernel

/-- One staging buffer of each output window, through which its contents are stated. -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
/-- Each window's current staging memref at point t, as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two scratch accumulators: whole scoped buffers of the kernel's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two accumulators as memrefs owned at some contents, beside the other scoped buffers. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.Mlp2A.lean ====
import proofs.«158753_j48954037240335_1_alg».proof.Proof.KI.Mlp2Runs

/-! The perceptron-and-statistics kernel of pipeline 2 run on whole staging memrefs at a point of case A
    (the first point: the accumulators are reset, then added to): the pieces each written buffer ends with are the witness the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    haveI : Fact (cond2_0 i) := ⟨hc0⟩
    haveI : Fact (¬cond2_1 i) := ⟨hc1⟩
    simp only [cc2__mlp_stats_kernel_eq_skeleton]; unfold cc2__mlp_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.KernelIdeal.Hand

end
-- ==== Proof.KI.Mlp2B.lean ====
import proofs.«158753_j48954037240335_1_alg».proof.Proof.KI.Mlp2Runs

/-! The perceptron-and-statistics kernel of pipeline 2 run on whole staging memrefs at a point of case B
    (a middle point: the accumulators are added to): the pieces each written buffer ends with are the witness the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    haveI : Fact (¬cond2_0 i) := ⟨hc0⟩
    haveI : Fact (¬cond2_1 i) := ⟨hc1⟩
    simp only [cc2__mlp_stats_kernel_eq_skeleton]; unfold cc2__mlp_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; iexact H11

end Cert.KernelIdeal.Hand

end
-- ==== Proof.KI.Mlp2C.lean ====
import proofs.«158753_j48954037240335_1_alg».proof.Proof.KI.Mlp2Runs

/-! The perceptron-and-statistics kernel of pipeline 2 run on whole staging memrefs at a point of case C
    (the last point: the accumulators are added to and copied out): the pieces each written buffer ends with are the witness the run finds. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    haveI : Fact (¬cond2_0 i) := ⟨hc0⟩
    haveI : Fact (cond2_1 i) := ⟨hc1⟩
    simp only [cc2__mlp_stats_kernel_eq_skeleton]; unfold cc2__mlp_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Hand

end
-- ==== Proof.KI.Mlp2.lean ====
import proofs.«158753_j48954037240335_1_alg».proof.Proof.KI.Mlp2A
import proofs.«158753_j48954037240335_1_alg».proof.Proof.KI.Mlp2B
import proofs.«158753_j48954037240335_1_alg».proof.Proof.KI.Mlp2C

/-! The perceptron-and-statistics kernel of pipeline 2: what each written buffer holds after each grid point (by recursion
    on the point: the two accumulators carry from one point to the next), the invariant that carries them, the pipeline's
    proof data and the body obligation, for any contents V the region is entered with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for buffer 6 tile it, so they cover it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y
/-- What case A leaves in buffer 6: its pieces read back. -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A's pieces for buffer s0 tile it, so they cover it. -/
theorem cover2_A_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What case A leaves in buffer s0: its pieces read back. -/
def out2_A_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A's pieces for buffer s1 tile it, so they cover it. -/
theorem cover2_A_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What case A leaves in buffer s1: its pieces read back. -/
def out2_A_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case B's pieces for buffer 6 tile it, so they cover it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y
/-- What case B leaves in buffer 6: its pieces read back. -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case B's pieces for buffer s0 tile it, so they cover it. -/
theorem cover2_B_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case B leaves in buffer s0: its pieces read back. -/
def out2_B_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for buffer s1 tile it, so they cover it. -/
theorem cover2_B_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case B leaves in buffer s1: its pieces read back. -/
def out2_B_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for buffer 6 tile it, so they cover it. -/
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y
/-- What case C leaves in buffer 6: its pieces read back. -/
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for buffer 7 tile it, so they cover it. -/
theorem cover2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case C leaves in buffer 7: its pieces read back. -/
def out2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for buffer 8 tile it, so they cover it. -/
theorem cover2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case C leaves in buffer 8: its pieces read back. -/
def out2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for buffer s0 tile it, so they cover it. -/
theorem cover2_C_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What case C leaves in buffer s0: its pieces read back. -/
def out2_C_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for buffer s1 tile it, so they cover it. -/
theorem cover2_C_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What case C leaves in buffer s1: its pieces read back. -/
def out2_C_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- A placeholder for a statistics window's buffer at a point where it is idle (nothing consults it). -/
def idle2_7 : Vec F S1x128 .f32 := VO2_7.read (Elt F) VO2_7.junk
def idle2_8 : Vec F S1x128 .f32 := VO2_8.read (Elt F) VO2_8.junk

/-- What one point leaves: the row block of z, the two statistics windows' buffers, the two accumulators. -/
abbrev Outs2 : Type := Vec F S5000x128 .f32 × Vec F S1x128 .f32 × Vec F S1x128 .f32 × Vec F S1x128 .f32 × Vec F S1x128 .f32

/-- THE ACCUMULATION: what the output buffers and the two accumulators hold after the body at position n — at the first
    point the reset accumulators plus the block's column sums, afterwards the previous point's plus this block's. -/
def outsAt2 (c : Dev nD) : (n : ℕ) → n < cfg2.N → Outs2 (F := F)
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), idle2_7, idle2_8, out2_A_s0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_s1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : (n + 1) % 20 = 19 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, idle2_7, idle2_8, out2_B_s0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_s1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => (by have hN : n + 1 < 20 := lt_of_lt_of_eq hn (show cfg2.N = 20 from N_2); have := (hcond2_0 ⟨n + 1, hn⟩).mp h; (try dsimp only at this); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 20 = 0) (h1 : ¬t.val % 20 = 19) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), idle2_7, idle2_8, out2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (by exfalso; have hN : n + 1 < 20 := lt_of_lt_of_eq hn (show cfg2.N = 20 from N_2); (try dsimp only at h0); omega)

theorem outsAt2_B (c : Dev nD) (t : Fin cfg2.N) (h0 : ¬t.val % 20 = 0) (h1 : ¬t.val % 20 = 19) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, idle2_7, idle2_8, out2_B_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 20 = 0) (h1 : t.val % 20 = 19) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position n: before the first point the class's (every scoped buffer at anything, the
    generator register); afterwards the two accumulators at what the point before left, the other scoped buffers at
    anything, the generator register. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
/-- The body at any point: the inputs' memrefs hold their blocks; the closed forms of the two conditions say which case the
    point is in; the invariant hands the body the two accumulators at what the point before left (at anything at the
    first point) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h0 : t.val % 20 = 0
  · have h1 : ¬t.val % 20 = 19 := by omega
    have hz : t.val = 0 := by omega
    rw [Dat.leavesExact_idle (dat2 V c) 7 t (idleAt2_7 t (fun h => h1 ((hcond2_1 t).mp h))) (noFlush2_7 t (fun h => h1 ((hcond2_1 t).mp h)))]
    rw [Dat.leavesExact_idle (dat2 V c) 8 t (idleAt2_8 t (fun h => h1 ((hcond2_1 t).mp h))) (noFlush2_8 t (fun h => h1 ((hcond2_1 t).mp h)))]
    rw [outsAt2_A V c t h0 h1]
    unfold out2_A_6 out2_A_s0 out2_A_s1; (try dsimp only)
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cover2_A_s0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (cover2_A_s1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · have hz : t.val ≠ 0 := by omega
    by_cases h1 : t.val % 20 = 19
    · rw [show (dat2 V c).leavesExact 7 t = owns (c : Thread nD τ) (ms2_7 t) fullShare ((dat2 V c).after 7 t) from by
        unfold Dat.leavesExact; rw [liveAt2_7 t ((hcond2_1 t).mpr h1)], after2_7]
      rw [show (dat2 V c).leavesExact 8 t = owns (c : Thread nD τ) (ms2_8 t) fullShare ((dat2 V c).after 8 t) from by
        unfold Dat.leavesExact; rw [liveAt2_8 t ((hcond2_1 t).mpr h1)], after2_8]
      rw [outsAt2_C V c t h0 h1]
      unfold out2_C_6 out2_C_7 out2_C_8 out2_C_s0 out2_C_s1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cover2_C_s0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover2_C_s1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_B V c t h0 h1]
      unfold out2_B_6 out2_B_s0 out2_B_s1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cover2_B_s0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover2_B_s1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _
/-- After the last point the invariant gives the class's back: the accumulators' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KI.Bn3.lean ====
import proofs.«158753_j48954037240335_1_alg».proof.Proof.Gen.KernelIdeal.Launch
import proofs.«158753_j48954037240335_1_alg».proof.Proof.Gen.KernelIdeal.Skeleton
import proofs.«158753_j48954037240335_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The affine-and-clamp kernel of pipeline 3 (one 5000 × 128 row block per grid point, the scale and the shift
    rows fetched once): what its body leaves in the output block, the body's triple, and the pipeline's proof data,
    at any float instance and for any contents V the region is entered with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, its
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, its
    block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, its
    block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev rb3 : Rect S5000x128 := Rect.unit (s := S5000x128) ![0, 0] S5000x128.size inb_S5000x128_S5000x128_0_0
abbrev rv3 : Rect S1x128 := Rect.unit (s := S1x128) ![0, 0] S1x128.size inb_S1x128_S1x128_0_0

/-- The output block after the body: its one store, of the payload of the three loaded blocks. -/
def out3_3 (x0 : Vec F S5000x128 .f32) (x1 : Vec F S1x128 .f32) (x2 : Vec F S1x128 .f32) : Vec F S5000x128 .f32 :=
  View.canon [⟨rb3, k3_pay1 (View.ld x0 rb3) (View.ld x1 rv3) (View.ld x2 rv3)⟩]

/-- The one store covers the block. -/
theorem cover3_3 (p0 : Vec F S5000x128 .f32) (y : S5000x128.Idx) :
    ∃ pc ∈ ([⟨rb3, p0⟩] : List (View.Piece (Elt F) S5000x128 .f32)), y ∈ pc.1.set :=
  View.cover_of_tiled [⟨rb3, p0⟩] S5000x128.size (by rfl) y

set_option maxHeartbeats 1000000 in
/-- The body on whole staging memrefs: the inputs are left as found, the output block ends at out3_3 of them. -/
theorem sound_kernel3 (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bn_relu_kernel i arg1 harg1 arg2 harg2 arg3 harg3 arg4 harg4) K := by
  simp only [cc3__bn_relu_kernel_eq_skeleton]; unfold cc3__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_3 _)

/-- The proof data of pipeline 3 on core c: the arrays as the region finds them; after the body each input's
    buffer at its block and the output's at out3_3 of the input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«158753_j48954037240335_1_alg».proof.Proof.KI.Mlp0
import proofs.«158753_j48954037240335_1_alg».proof.Proof.KI.Bn1
import proofs.«158753_j48954037240335_1_alg».proof.Proof.KI.Mlp2
import proofs.«158753_j48954037240335_1_alg».proof.Proof.KI.Bn3
import proofs.«158753_j48954037240335_1_alg».proof.Proof.Gen.KernelIdeal.Regions

/-! The whole program as eight segments — four stretches of host operations and the four kernel regions between them —
    run from the launch to the return: the contents of every unscoped buffer at each segment boundary as a fold through the
    program, and the run ending with every unscoped buffer at the last boundary's contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output of region 0 leaves the region as it entered: an input window's array is never written,
    any other buffer bypasses the region. -/
theorem W2_keep (c : Dev nD) (b : Ref sig .tc) (hb : b ∉ ([main_v16_0, main_v16_1, main_v16_2] : List (Ref sig .tc))) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      revert hb; revert w; decide
    rw [W2_arr]
    exact ((dat0 (V1 m ρ) c).arrAt_in w hw _).trans (A_eq0 (V1 m ρ) c w)
  · exact W2_of_ne m ρ c b (fun w e => h ⟨w, e⟩)
/-- A buffer the host stretch 0 does not write is as before it. -/
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is no output of region 1 leaves the region as it entered: an input window's array is never written,
    any other buffer bypasses the region. -/
theorem W4_keep (c : Dev nD) (b : Ref sig .tc) (hb : b ∉ ([main_v31] : List (Ref sig .tc))) :
    W4 m ρ c (Proc.devRef .tc b) = W3 m ρ c (Proc.devRef .tc b) := by
  by_cases h : ∃ w, Pipeline.arrRef spec1 w = b
  · obtain ⟨w, rfl⟩ := h
    have hw : (cfg1.win w).isOut = false := by
      revert hb; revert w; decide
    rw [W4_arr]
    exact ((dat1 (V3 m ρ) c).arrAt_in w hw _).trans (A_eq1 (V3 m ρ) c w)
  · exact W4_of_ne m ρ c b (fun w e => h ⟨w, e⟩)
/-- A buffer the host stretch 1 does not write is as before it. -/
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h

/-- After the host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is no output of region 2 leaves the region as it entered: an input window's array is never written,
    any other buffer bypasses the region. -/
theorem W6_keep (c : Dev nD) (b : Ref sig .tc) (hb : b ∉ ([main_v44_0, main_v44_1, main_v44_2] : List (Ref sig .tc))) :
    W6 m ρ c (Proc.devRef .tc b) = W5 m ρ c (Proc.devRef .tc b) := by
  by_cases h : ∃ w, Pipeline.arrRef spec2 w = b
  · obtain ⟨w, rfl⟩ := h
    have hw : (cfg2.win w).isOut = false := by
      revert hb; revert w; decide
    rw [W6_arr]
    exact ((dat2 (V5 m ρ) c).arrAt_in w hw _).trans (A_eq2 (V5 m ρ) c w)
  · exact W6_of_ne m ρ c b (fun w e => h ⟨w, e⟩)
/-- A buffer the host stretch 2 does not write is as before it. -/
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

/-- After the host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer that is no output of region 3 leaves the region as it entered: an input window's array is never written,
    any other buffer bypasses the region. -/
theorem W8_keep (c : Dev nD) (b : Ref sig .tc) (hb : b ∉ ([main_v59] : List (Ref sig .tc))) :
    W8 m ρ c (Proc.devRef .tc b) = W7 m ρ c (Proc.devRef .tc b) := by
  by_cases h : ∃ w, Pipeline.arrRef spec3 w = b
  · obtain ⟨w, rfl⟩ := h
    have hw : (cfg3.win w).isOut = false := by
      revert hb; revert w; decide
    rw [W8_arr]
    exact ((dat3 (V7 m ρ) c).arrAt_in w hw _).trans (A_eq3 (V7 m ρ) c w)
  · exact W8_of_ne m ρ c b (fun w e => h ⟨w, e⟩)
/-- A buffer the host stretch 3 does not write is as before it. -/
theorem W7_keep (c : Dev nD) (r : Ref sig .tc) (h : r ∉ hostOps3_W) : W7 m ρ c (Proc.devRef .tc r) = W6 m ρ c (Proc.devRef .tc r) :=
  StableHlo.after_of_writes_sub hostOps3 _ hostOps3_writes h

/-- A buffer no host stretch writes and no region outputs ends as launched. -/
theorem W8_launch (c : Dev nD) (r : Ref sig .tc) (h0 : r ∉ hostOps0_W) (h1 : r ∉ ([main_v16_0, main_v16_1, main_v16_2] : List (Ref sig .tc))) (h2 : r ∉ hostOps1_W) (h3 : r ∉ ([main_v31] : List (Ref sig .tc)))
    (h4 : r ∉ hostOps2_W) (h5 : r ∉ ([main_v44_0, main_v44_1, main_v44_2] : List (Ref sig .tc))) (h6 : r ∉ hostOps3_W) (h7 : r ∉ ([main_v59] : List (Ref sig .tc))) :
    W8 m ρ c (Proc.devRef .tc r) = m ((c : Thread nD τ).loc r) :=
  (W8_keep m ρ c r h7).trans <| (W7_keep m ρ c r h6).trans <| (W6_keep m ρ c r h5).trans <| (W5_keep m ρ c r h4).trans <|
    (W4_keep m ρ c r h3).trans <| (W3_keep m ρ c r h2).trans <| (W2_keep m ρ c r h1).trans <| (W1_keep m ρ c r h0).trans rfl

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      refine (show iprop(StableHlo.held (c : Thread nD τ) (Pipeline.ucRefs τ sig) (W8 m ρ c) ∗ R c) ⊢ iprop(Tₙ m ρ c ∗ ∃ W, owes (c : Thread nD τ) (0 : CellTallies nD τ sig Unit) W) from ?_)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.Frame.lean ====
import proofs.«158753_j48954037240335_1_alg».proof.Proof.KI.Run

/-! The frame of the program: it runs to the end from any memory, nothing faulting, and each of its fourteen argument arrays
    ends as launched — no host operation writes an argument and no region has one among its outputs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
    (h c _ (mem_uc main_arg0 (by decide))).trans (W8_launch m ρ c main_arg0 (by decide) (by decide) (by decide) (by decide) (by decide) (by decide) (by decide) (by decide)),
    (h c _ (mem_uc main_arg1 (by decide))).trans (W8_launch m ρ c main_arg1 (by decide) (by decide) (by decide) (by decide) (by decide) (by decide) (by decide) (by decide)),
    (h c _ (mem_uc main_arg2 (by decide))).trans (W8_launch m ρ c main_arg2 (by decide) (by decide) (by decide) (by decide) (by decide) (by decide) (by decide) (by decide)),
    (h c _ (mem_uc main_arg3 (by decide))).trans (W8_launch m ρ c main_arg3 (by decide) (by decide) (by decide) (by decide) (by decide) (by decide) (by decide) (by decide)),
    (h c _ (mem_uc main_arg4 (by decide))).trans (W8_launch m ρ c main_arg4 (by decide) (by decide) (by decide) (by decide) (by decide) (by decide) (by decide) (by decide)),
    (h c _ (mem_uc main_arg5 (by decide))).trans (W8_launch m ρ c main_arg5 (by decide) (by decide) (by decide) (by decide) (by decide) (by decide) (by decide) (by decide)),
    (h c _ (mem_uc main_arg6 (by decide))).trans (W8_launch m ρ c main_arg6 (by decide) (by decide) (by decide) (by decide) (by decide) (by decide) (by decide) (by decide)),
    (h c _ (mem_uc main_arg7 (by decide))).trans (W8_launch m ρ c main_arg7 (by decide) (by decide) (by decide) (by decide) (by decide) (by decide) (by decide) (by decide)),
    (h c _ (mem_uc main_arg8 (by decide))).trans (W8_launch m ρ c main_arg8 (by decide) (by decide) (by decide) (by decide) (by decide) (by decide) (by decide) (by decide)),
    (h c _ (mem_uc main_arg9 (by decide))).trans (W8_launch m ρ c main_arg9 (by decide) (by decide) (by decide) (by decide) (by decide) (by decide) (by decide) (by decide)),
    (h c _ (mem_uc main_arg10 (by decide))).trans (W8_launch m ρ c main_arg10 (by decide) (by decide) (by decide) (by decide) (by decide) (by decide) (by decide) (by decide)),
    (h c _ (mem_uc main_arg11 (by decide))).trans (W8_launch m ρ c main_arg11 (by decide) (by decide) (by decide) (by decide) (by decide) (by decide) (by decide) (by decide)),
    (h c _ (mem_uc main_arg12 (by decide))).trans (W8_launch m ρ c main_arg12 (by decide) (by decide) (by decide) (by decide) (by decide) (by decide) (by decide) (by decide)),
    (h c _ (mem_uc main_arg13 (by decide))).trans (W8_launch m ρ c main_arg13 (by decide) (by decide) (by decide) (by decide) (by decide) (by decide) (by decide) (by decide))⟩)
    (run_all m ρ)

end Cert.KernelIdeal.Hand

end
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.LibBatchNorm.lean ====
import Idealize.ShloMosaic.PureOps.Ideal
import proofs.«158753_j48954037240335_1_alg».proof.Proof.LibEReal

/-! Batch normalisation over the rows of an R × C matrix of extended reals, in two arrangements, and their
    equality on real (finite) entries. No program is imported.

    bnFolded: the statistics are the column sum and the column sum of squares; variance = E[z²] − (E z)²; the
    normalisation is folded into one multiply-add per entry, z * scale + shift with scale = γ · rsqrt(var + ε)
    and shift = β − mean · scale; then the maximum with 0.
    bnDirect: mean = E z, variance = E[(z − mean)²], entry (z − mean) · rsqrt(var + ε) · γ + β; then the maximum with 0.
    Over the reals both are max ((z − μ)/√(σ² + ε) · γ + β) 0. -/

noncomputable section

open Idealize.ShloMosaic

namespace Cert.Spec

def bnFolded {R C : ℕ} (n eps : EReal) (z : Fin R → Fin C → EReal) (gamma beta : Fin C → EReal) :
    Fin R → Fin C → EReal := fun p q =>
  let mean := Ideal.div (∑ r, z r q) n
  let var := Ideal.div (∑ r, z r q * z r q) n - mean * mean
  let scale := gamma q * Ideal.rsqrt (var + eps)
  let shift := beta q - mean * scale
  max (z p q * scale + shift) 0

def bnDirect {R C : ℕ} (n eps : EReal) (z : Fin R → Fin C → EReal) (gamma beta : Fin C → EReal) :
    Fin R → Fin C → EReal := fun p q =>
  let mean := Ideal.div (∑ r, z r q) n
  let var := Ideal.div (∑ r, (z r q - mean) * (z r q - mean)) n
  max ((z p q - mean) * Ideal.rsqrt (var + eps) * gamma q + beta q) 0

/-! ## Auxiliary facts over the reals -/

/-- The rectifier of a real number, taken in the extended reals, is the real rectifier. -/
private theorem max_coe_zero (a : ℝ) : max (a : EReal) 0 = ((max a 0 : ℝ) : EReal) := by
  rcases le_total a 0 with h | h
  · rw [max_eq_right h, max_eq_right (EReal.coe_nonpos.mpr h), EReal.coe_zero]
  · rw [max_eq_left h, max_eq_left (EReal.coe_nonneg.mpr h)]

/-- A number of rows that is not zero is positive. -/
private theorem rows_pos {R : ℕ} {N : ℝ} (hN : (R : ℝ) = N) (hN0 : N ≠ 0) : 0 < N := by
  subst hN
  exact lt_of_le_of_ne (Nat.cast_nonneg R) (Ne.symm hN0)

/-- The mean of the squared deviations from any centre is nonnegative. -/
private theorem meanSqDev_nonneg {R : ℕ} (g : Fin R → ℝ) (m : ℝ) {N : ℝ} (hN : 0 < N) :
    0 ≤ (∑ r, (g r - m) * (g r - m)) * (1 / N) :=
  mul_nonneg (Finset.sum_nonneg fun r _ => mul_self_nonneg _) (one_div_pos.mpr hN).le

/-- The variance of a column, taken as the mean of the squared deviations, plus a positive ε is positive. -/
private theorem varDirect_pos {R C : ℕ} {N e : ℝ} (hN : (R : ℝ) = N) (hN0 : N ≠ 0) (he : 0 < e)
    (zr : Fin R → Fin C → ℝ) (q : Fin C) :
    0 < (∑ r, (zr r q - (∑ r, zr r q) * (1 / N)) * (zr r q - (∑ r, zr r q) * (1 / N))) * (1 / N) + e :=
  add_pos_of_nonneg_of_pos (meanSqDev_nonneg (fun r => zr r q) _ (rows_pos hN hN0)) he

/-- The two variances of a column agree: mean of squares minus squared mean = mean of squared deviations. -/
private theorem var_col {R C : ℕ} {N : ℝ} (hN : (R : ℝ) = N) (hN0 : N ≠ 0) (zr : Fin R → Fin C → ℝ) (q : Fin C) :
    (∑ r, zr r q * zr r q) * (1 / N) - ((∑ r, zr r q) * (1 / N)) * ((∑ r, zr r q) * (1 / N))
      = (∑ r, (zr r q - (∑ r, zr r q) * (1 / N)) * (zr r q - (∑ r, zr r q) * (1 / N))) * (1 / N) :=
  var_real (fun r => zr r q) N hN0 (by rw [Fintype.card_fin]; exact hN)

/-! ## The two arrangements on real entries, as real numbers -/

/-- The direct arrangement on real entries: max ((z − μ) · (√(σ² + ε))⁻¹ · γ + β) 0 with μ the column mean and
    σ² the mean of the squared deviations. -/
private theorem bnDirect_coe {R C : ℕ} {N e : ℝ} (hN : (R : ℝ) = N) (hN0 : N ≠ 0) (he : 0 < e)
    (zr : Fin R → Fin C → ℝ) (gr br : Fin C → ℝ) (p : Fin R) (q : Fin C) :
    bnDirect (N : EReal) (e : EReal) (fun p q => (zr p q : EReal)) (fun q => (gr q : EReal))
        (fun q => (br q : EReal)) p q
      = ((max ((zr p q - (∑ r, zr r q) * (1 / N))
            * (Real.sqrt ((∑ r, (zr r q - (∑ r, zr r q) * (1 / N)) * (zr r q - (∑ r, zr r q) * (1 / N))) * (1 / N)
                + e))⁻¹
            * gr q + br q) 0 : ℝ) : EReal) := by
  have hpos := varDirect_pos hN hN0 he zr q
  unfold bnDirect
  simp only [← coe_sum, div_real _ hN0, ← EReal.coe_mul, ← EReal.coe_sub, ← EReal.coe_add]
  rw [rsqrt_pos hpos]
  simp only [← EReal.coe_mul, ← EReal.coe_add]
  exact max_coe_zero _

/-- The folded arrangement on real entries: max (z · s + (β − μ · s)) 0 with s = γ · (√(v + ε))⁻¹ and v the mean of
    the squares minus the squared mean. -/
private theorem bnFolded_coe {R C : ℕ} {N e : ℝ} (hN : (R : ℝ) = N) (hN0 : N ≠ 0) (he : 0 < e)
    (zr : Fin R → Fin C → ℝ) (gr br : Fin C → ℝ) (p : Fin R) (q : Fin C) :
    bnFolded (N : EReal) (e : EReal) (fun p q => (zr p q : EReal)) (fun q => (gr q : EReal))
        (fun q => (br q : EReal)) p q
      = ((max (zr p q
              * (gr q * (Real.sqrt ((∑ r, zr r q * zr r q) * (1 / N)
                  - ((∑ r, zr r q) * (1 / N)) * ((∑ r, zr r q) * (1 / N)) + e))⁻¹)
            + (br q - (∑ r, zr r q) * (1 / N)
              * (gr q * (Real.sqrt ((∑ r, zr r q * zr r q) * (1 / N)
                  - ((∑ r, zr r q) * (1 / N)) * ((∑ r, zr r q) * (1 / N)) + e))⁻¹))) 0 : ℝ) : EReal) := by
  have hpos : 0 < (∑ r, zr r q * zr r q) * (1 / N)
      - ((∑ r, zr r q) * (1 / N)) * ((∑ r, zr r q) * (1 / N)) + e := by
    rw [var_col hN hN0]
    exact varDirect_pos hN hN0 he zr q
  unfold bnFolded
  simp only [← coe_sum, div_real _ hN0, ← EReal.coe_mul, ← EReal.coe_sub, ← EReal.coe_add]
  rw [rsqrt_pos hpos]
  simp only [← EReal.coe_mul, ← EReal.coe_sub, ← EReal.coe_add]
  exact max_coe_zero _

/-! ## The two theorems -/

theorem bnDirect_isReal {R C : ℕ} {N e : ℝ} (hN : (R : ℝ) = N) (hN0 : N ≠ 0) (he : 0 < e)
    (z : Fin R → Fin C → EReal) (gamma beta : Fin C → EReal)
    (hz : ∀ p q, IsReal (z p q)) (hg : ∀ q, IsReal (gamma q)) (hb : ∀ q, IsReal (beta q)) (p : Fin R) (q : Fin C) :
    IsReal (bnDirect (N : EReal) (e : EReal) z gamma beta p q) := by
  choose zr hzr using hz
  choose gr hgr using hg
  choose br hbr using hb
  obtain rfl : z = fun p q => (zr p q : EReal) := funext fun p => funext fun q => hzr p q
  obtain rfl : gamma = fun q => (gr q : EReal) := funext hgr
  obtain rfl : beta = fun q => (br q : EReal) := funext hbr
  rw [bnDirect_coe hN hN0 he]
  exact IsReal.coe _

theorem bnFolded_eq_bnDirect {R C : ℕ} {N e : ℝ} (hN : (R : ℝ) = N) (hN0 : N ≠ 0) (he : 0 < e)
    (z : Fin R → Fin C → EReal) (gamma beta : Fin C → EReal)
    (hz : ∀ p q, IsReal (z p q)) (hg : ∀ q, IsReal (gamma q)) (hb : ∀ q, IsReal (beta q)) :
    bnFolded (N : EReal) (e : EReal) z gamma beta = bnDirect (N : EReal) (e : EReal) z gamma beta := by
  choose zr hzr using hz
  choose gr hgr using hg
  choose br hbr using hb
  obtain rfl : z = fun p q => (zr p q : EReal) := funext fun p => funext fun q => hzr p q
  obtain rfl : gamma = fun q => (gr q : EReal) := funext hgr
  obtain rfl : beta = fun q => (br q : EReal) := funext hbr
  funext p q
  rw [bnFolded_coe hN hN0 he, bnDirect_coe hN hN0 he, var_col hN hN0]
  -- z · (γ · s) + (β − μ · (γ · s)) = (z − μ) · s · γ + β
  refine congrArg (fun t : ℝ => ((max t 0 : ℝ) : EReal)) ?_
  ring

end Cert.Spec

end
-- ==== Proof.GinSpec.lean ====
import Idealize.ShloMosaic.PureOps.Ideal
import proofs.«158753_j48954037240335_1_alg».proof.Proof.LibEReal
import proofs.«158753_j48954037240335_1_alg».proof.Proof.LibBatchNorm

/-! One graph-isomorphism layer on extended reals, as one function of its arguments, in the two arrangements of its
    batch normalisation. No program is imported.

    h = x + agg (the node's own features plus the sum over its in-neighbours), a two-layer perceptron
    z = max (h · W₁ + b₁) 0 · W₂ + b₂ row by row, then batch normalisation over the rows and a clamp at 0. -/

noncomputable section

open Idealize.ShloMosaic

namespace Cert.Spec

/-- An R × C matrix of extended reals. -/
abbrev Mat (R C : ℕ) := Fin R → Fin C → EReal

/-- The perceptron: row p, column q of max (h · W₁ + b₁) 0 · W₂ + b₂. -/
def mlp {R : ℕ} (h : Mat R 128) (w1 : Mat 128 128) (b1 : Fin 128 → EReal) (w2 : Mat 128 128) (b2 : Fin 128 → EReal) : Mat R 128 :=
  fun p q => (∑ k : Fin 128, max ((∑ j : Fin 128, h p j * w1 j k) + b1 k) 0 * w2 k q) + b2 q

theorem mlp_isReal {R : ℕ} (h : Mat R 128) (w1 : Mat 128 128) (b1 : Fin 128 → EReal) (w2 : Mat 128 128) (b2 : Fin 128 → EReal)
    (hh : ∀ p q, IsReal (h p q)) (hw1 : ∀ j k, IsReal (w1 j k)) (hb1 : ∀ k, IsReal (b1 k)) (hw2 : ∀ k q, IsReal (w2 k q))
    (hb2 : ∀ q, IsReal (b2 q)) (p : Fin R) (q : Fin 128) : IsReal (mlp h w1 b1 w2 b2 p q) :=
  IsReal.add (IsReal.sum _ _ fun k => IsReal.mul (IsReal.max_zero (IsReal.add (IsReal.sum _ _ fun j => IsReal.mul (hh p j) (hw1 j k)) (hb1 k))) (hw2 k q)) (hb2 q)

/-- The layer with the normalisation stated directly (mean, mean squared deviation). -/
def layerDirect {R : ℕ} (n eps : EReal) (x agg : Mat R 128) (w1 : Mat 128 128) (b1 : Fin 128 → EReal) (w2 : Mat 128 128)
    (b2 gamma beta : Fin 128 → EReal) : Mat R 128 :=
  bnDirect n eps (mlp (fun p q => x p q + agg p q) w1 b1 w2 b2) gamma beta

/-- The layer with the normalisation folded into a scale and a shift per column (variance as E[z²] − (E z)²). -/
def layerFolded {R : ℕ} (n eps : EReal) (x agg : Mat R 128) (w1 : Mat 128 128) (b1 : Fin 128 → EReal) (w2 : Mat 128 128)
    (b2 gamma beta : Fin 128 → EReal) : Mat R 128 :=
  bnFolded n eps (mlp (fun p q => x p q + agg p q) w1 b1 w2 b2) gamma beta

end Cert.Spec

end
-- ==== Proof.KV.Host.lean ====
import proofs.«158753_j48954037240335_1_alg».proof.Proof.Gen.KernelIdeal.Launch
import proofs.«158753_j48954037240335_1_alg».proof.Proof.LibBatchNorm
import proofs.«158753_j48954037240335_1_alg».proof.Proof.GinSpec
import Idealize.ShloMosaic.Lib.StableHlo.Run
import Idealize.ShloMosaic.Lib.ValueIdx
import Idealize.ShloMosaic.Lib.ValueLayout
import Idealize.ShloMosaic.PureOps.Ideal.Laws

/-! The host operations between the kernel regions, on the extended reals: the neighbour aggregation (a gather of the
    source rows scattered-and-added into the destination rows), the bias rows, and the per-column scale and shift of the
    folded batch normalisation computed from the column sum and the column sum of squares. Each stretch is read over an
    arbitrary valuation of the buffers it starts from. -/

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

/-- The edge list's source row and destination row, as index vectors. -/
def srcIdx (ei : IVec S2x1600000 32) : IVec S1600000 32 :=
  shapeCast S1600000 (extractStridedSlice S1x1600000 ![0, 0] ei slices_S2x1600000_S1x1600000_0_0) shapeCasts_S1x1600000_S1600000
def dstIdx (ei : IVec S2x1600000 32) : IVec S1600000 32 :=
  shapeCast S1600000 (extractStridedSlice S1x1600000 ![1, 0] ei slices_S2x1600000_S1x1600000_1_0) shapeCasts_S1x1600000_S1600000

/-- The neighbour sum: the rows of x at the (wrapped) source indices, added into the rows at the destination indices. -/
def aggK (x : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A 128-vector as a 1 × 128 row. -/
def row (g : FVec Ideal S128 .f32) : FVec Ideal S1x128 .f32 := shapeCast S1x128 g shapeCasts_S128_S1x128
theorem row_apply (g : FVec Ideal S128 .f32) (u : Fin 1) (q : Fin 128) : row g (ix2 u q) = g (ix1 q) :=
  shapeCast_a_1a_apply g shapeCasts_S128_S1x128 u q

/-- A statistics row divided by the number of rows. -/
def meanOf (s : FVec Ideal S1x128 .f32) : FVec Ideal S1x128 .f32 :=
  Host.divf (F := Ideal) s (broadcastInDim S1x128 ![] bcast_S_S1x128 (constant (F := Ideal) S_ .f32 0x47C35000#32))
/-- The folded scale γ · rsqrt (E[z²] − (E z)² + ε) -/
def scaleOf (g : FVec Ideal S128 .f32) (s ss : FVec Ideal S1x128 .f32) : FVec Ideal S1x128 .f32 :=
  mulf (row g) (Host.rsqrt (F := Ideal) (addf (subf (meanOf ss) (mulf (meanOf s) (meanOf s)))
    (broadcastInDim S1x128 ![] bcast_S_S1x128 (constant (F := Ideal) S_ .f32 0x3727C5AC#32))))
/-- and the folded shift β − E z · scale. -/
def shiftOf (b g : FVec Ideal S128 .f32) (s ss : FVec Ideal S1x128 .f32) : FVec Ideal S1x128 .f32 :=
  subf (row b) (mulf (meanOf s) (scaleOf g s ss))

theorem meanOf_apply (s : FVec Ideal S1x128 .f32) (i : S1x128.Idx) :
    meanOf s i = Ideal.div (s i) (Ideal.ofBits .f32 0x47C35000#32) := rfl
theorem scaleOf_apply (g : FVec Ideal S128 .f32) (s ss : FVec Ideal S1x128 .f32) (u : Fin 1) (q : Fin 128) :
    scaleOf g s ss (ix2 u q) = g (ix1 q) * Ideal.rsqrt ((Ideal.div (ss (ix2 u q)) (Ideal.ofBits .f32 0x47C35000#32)
      - Ideal.div (s (ix2 u q)) (Ideal.ofBits .f32 0x47C35000#32) * Ideal.div (s (ix2 u q)) (Ideal.ofBits .f32 0x47C35000#32))
      + Ideal.ofBits .f32 0x3727C5AC#32) := by
  unfold scaleOf
  rw [mulf_apply, row_apply]
  rfl
theorem shiftOf_apply (b g : FVec Ideal S128 .f32) (s ss : FVec Ideal S1x128 .f32) (u : Fin 1) (q : Fin 128) :
    shiftOf b g s ss (ix2 u q) = b (ix1 q) - Ideal.div (s (ix2 u q)) (Ideal.ofBits .f32 0x47C35000#32) * scaleOf g s ss (ix2 u q) := by
  unfold shiftOf
  rw [subf_apply, row_apply, mulf_apply]
  rfl

variable (W : Valuation τ sig (Elt Ideal))

set_option maxHeartbeats 4000000 in
theorem H0_v1 : StableHlo.after (hostOps0 (F := Ideal)) W (Proc.devRef .tc main_v1) = srcIdx (W (Proc.devRef .tc main_arg1)) := by
  after_results; rfl
set_option maxHeartbeats 4000000 in
theorem H0_v3 : StableHlo.after (hostOps0 (F := Ideal)) W (Proc.devRef .tc main_v3) = dstIdx (W (Proc.devRef .tc main_arg1)) := by
  after_results; rfl
set_option maxHeartbeats 4000000 in
theorem H0_v13 : StableHlo.after (hostOps0 (F := Ideal)) W (Proc.devRef .tc main_v13)
    = aggK (W (Proc.devRef .tc main_arg0)) (srcIdx (W (Proc.devRef .tc main_arg1))) (dstIdx (W (Proc.devRef .tc main_arg1))) := by
  after_results; rfl
set_option maxHeartbeats 4000000 in
theorem H0_v14 : StableHlo.after (hostOps0 (F := Ideal)) W (Proc.devRef .tc main_v14) = row (W (Proc.devRef .tc main_arg3)) := by
  after_results; rfl
set_option maxHeartbeats 4000000 in
theorem H0_v15 : StableHlo.after (hostOps0 (F := Ideal)) W (Proc.devRef .tc main_v15) = row (W (Proc.devRef .tc main_arg5)) := by
  after_results; rfl
set_option maxHeartbeats 4000000 in
theorem H1_v27 : StableHlo.after (hostOps1 (F := Ideal)) W (Proc.devRef .tc main_v27)
    = scaleOf (W (Proc.devRef .tc main_arg6)) (W (Proc.devRef .tc main_v16_1)) (W (Proc.devRef .tc main_v16_2)) := by
  after_results; rfl
set_option maxHeartbeats 4000000 in
theorem H1_v30 : StableHlo.after (hostOps1 (F := Ideal)) W (Proc.devRef .tc main_v30)
    = shiftOf (W (Proc.devRef .tc main_arg7)) (W (Proc.devRef .tc main_arg6)) (W (Proc.devRef .tc main_v16_1)) (W (Proc.devRef .tc main_v16_2)) := by
  after_results; rfl
set_option maxHeartbeats 4000000 in
theorem H2_v41 : StableHlo.after (hostOps2 (F := Ideal)) W (Proc.devRef .tc main_v41)
    = aggK (W (Proc.devRef .tc main_v31)) (W (Proc.devRef .tc main_v1)) (W (Proc.devRef .tc main_v3)) := by
  after_results; rfl
set_option maxHeartbeats 4000000 in
theorem H2_v42 : StableHlo.after (hostOps2 (F := Ideal)) W (Proc.devRef .tc main_v42) = row (W (Proc.devRef .tc main_arg9)) := by
  after_results; rfl
set_option maxHeartbeats 4000000 in
theorem H2_v43 : StableHlo.after (hostOps2 (F := Ideal)) W (Proc.devRef .tc main_v43) = row (W (Proc.devRef .tc main_arg11)) := by
  after_results; rfl
set_option maxHeartbeats 4000000 in
theorem H3_v55 : StableHlo.after (hostOps3 (F := Ideal)) W (Proc.devRef .tc main_v55)
    = scaleOf (W (Proc.devRef .tc main_arg12)) (W (Proc.devRef .tc main_v44_1)) (W (Proc.devRef .tc main_v44_2)) := by
  after_results; rfl
set_option maxHeartbeats 4000000 in
theorem H3_v58 : StableHlo.after (hostOps3 (F := Ideal)) W (Proc.devRef .tc main_v58)
    = shiftOf (W (Proc.devRef .tc main_arg13)) (W (Proc.devRef .tc main_arg12)) (W (Proc.devRef .tc main_v44_1)) (W (Proc.devRef .tc main_v44_2)) := by
  after_results; rfl

end Cert.KernelIdeal.Val

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KV.Pay0.lean ====
import proofs.«158753_j48954037240335_1_alg».proof.Proof.Gen.KernelIdeal.Skeleton
import proofs.«158753_j48954037240335_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

/-! The arithmetic of the perceptron-and-statistics kernel of pipeline 0, on the extended reals, index by index: the row
    block z = max ((x + a) · W₁ + b₁) 0 · W₂ + b₂, and the two accumulators, each its previous value plus the block's
    column sums (of z, and of z²). -/

set_option maxRecDepth 16384

noncomputable section

namespace Cert.KernelIdeal.Val

open Cert.KernelIdeal Cert.KernelIdeal.Gen
open Idealize.ShloMosaic Idealize.ShloMosaic.ValueIdx

/-- The sum of a 5000 × 128 block's column q. -/
def colsum (Z : S5000x128.Idx → EReal) (q : Fin 128) : EReal := ∑ r : Fin 5000, Z (ix2 r q)

/-- Row p of the perceptron on a block: the entry in column q. -/
def zrow (x a : S5000x128.Idx → EReal) (w1 : S128x128.Idx → EReal) (b1 : S1x128.Idx → EReal) (w2 : S128x128.Idx → EReal)
    (b2 : S1x128.Idx → EReal) (p : Fin 5000) (q : Fin 128) : EReal :=
  (∑ k : Fin 128, max ((∑ j : Fin 128, (x (ix2 p j) + a (ix2 p j)) * w1 (ix2 j k)) + b1 (ix2 (0 : Fin 1) k)) 0 * w2 (ix2 k q)) + b2 (ix2 (0 : Fin 1) q)

theorem lift_col (q : Fin 128) (k : Fin 5000) : reduces_S5000x128_S128.lift (ix1 q) k = ix2 k q :=
  funext fun a => Fin.ext (by match a with | ⟨0, _⟩ => rfl | ⟨1, _⟩ => rfl)

/-- The lane reduction over the rows of a block is the column sum. -/
theorem reduce_col (Z : FVec Ideal S5000x128 .f32) (q : Fin 128) :
    multiReduction .add [0] S128 Z 0x00000000#32 reduces_S5000x128_S128 (.inl rfl) rfl (ix1 q) = colsum Z q := by
  refine (Ideal.multiReduction_add_single Z 0x00000000#32 reduces_S5000x128_S128 (.inl rfl) rfl (ix1 q)).trans ?_
  unfold colsum
  exact Finset.sum_congr rfl fun k _ => congrArg Z (lift_col q k)

/-- The block product into the zero accumulator, entry (p, q). -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.LibMatmulPlain.matmul_zero_apply _ rfl rfl rfl rfl rfl rfl l r p q

theorem zero_f32 : (Scalar.ofBits (F := Ideal) .f32 0x00000000#32 : EReal) = 0 := Ideal.ofBits_zero_f32

theorem k0_z_apply (x a : Vec Ideal S5000x128 .f32) (w1 : Vec Ideal S128x128 .f32) (b1 : Vec Ideal S1x128 .f32) (w2 : Vec Ideal S128x128 .f32)
    (b2 : Vec Ideal S1x128 .f32) (p : Fin 5000) (q : Fin 128) :
    k0_pay4 (F := Ideal) x a w1 b1 w2 b2 (ix2 p q) = zrow x a w1 b1 w2 b2 p q := by
  unfold k0_pay4 zrow
  simp only [addf_apply, mm_apply, truncf_apply, maximumf_apply, broadcast_apply, broadcastTo_1b_ab_apply, shapeCast_self, zero_f32]

theorem k0_s_apply (x a : Vec Ideal S5000x128 .f32) (w1 : Vec Ideal S128x128 .f32) (b1 : Vec Ideal S1x128 .f32) (w2 : Vec Ideal S128x128 .f32)
    (b2 : Vec Ideal S1x128 .f32) (S : Vec Ideal S1x128 .f32) (u : Fin 1) (q : Fin 128) :
    k0_pay5 (F := Ideal) x a w1 b1 w2 b2 S (ix2 u q) = S (ix2 u q) + colsum (k0_pay4 (F := Ideal) x a w1 b1 w2 b2) q := by
  unfold k0_pay5
  simp only [shapeCast_self, addf_apply, shapeCast_a_1a_apply]
  exact congrArg (S (ix2 u q) + ·) (reduce_col _ q)

theorem k0_q_apply (Z : FVec Ideal S5000x128 .f32) (Q : Vec Ideal S1x128 .f32) (u : Fin 1) (q : Fin 128) :
    k0_pay1 (F := Ideal) Z Q (ix2 u q) = Q (ix2 u q) + colsum (fun i => Z i * Z i) q := by
  unfold k0_pay1
  simp only [shapeCast_self, addf_apply, shapeCast_a_1a_apply]
  exact congrArg (Q (ix2 u q) + ·) (reduce_col (mulf Z Z) q)

theorem k0_z0_apply (u : Fin 1) (q : Fin 128) : k0_pay2 (F := Ideal) (ix2 u q) = 0 := by
  unfold k0_pay2; simp only [shapeCast_self, broadcast_apply, zero_f32]
theorem k0_z1_apply (u : Fin 1) (q : Fin 128) : k0_pay3 (F := Ideal) (ix2 u q) = 0 := by
  unfold k0_pay3; simp only [shapeCast_self, broadcast_apply, zero_f32]

end Cert.KernelIdeal.Val

end
-- ==== Proof.LibAccum.lean ====
import Idealize.ShloMosaic.PureOps.Ideal

/-
  Sums taken block by block.

  A sum over `n * b` consecutive positions is the sum, over the `n` blocks of `b` consecutive positions, of each
  block's own sum. Only commutativity and associativity of addition are used, so the statement holds in every additive
  commutative monoid, and in particular on the extended reals, where addition is commutative and associative although
  it is not cancellative. A running total that starts from `0 + (block 0)` and then adds one block per step is, after
  the last block, the whole sum; adding a further term `c` to both keeps them equal.
-/

noncomputable section

namespace QLin

open scoped BigOperators

section General

variable {M : Type*} [AddCommMonoid M]

/-- Position `j` of block `k`, among `n` blocks of `b` positions each, is a position below `n * b`:
    `k * b + j < k * b + b = (k + 1) * b ≤ n * b`. -/
theorem block_lt {n b : ℕ} (k : Fin n) (j : Fin b) : k.val * b + j.val < n * b := by
  have hk : k.val + 1 ≤ n := k.isLt
  calc k.val * b + j.val < k.val * b + b := Nat.add_lt_add_left j.isLt _
    _ = (k.val + 1) * b := by rw [Nat.add_mul, Nat.one_mul]
    _ ≤ n * b := Nat.mul_le_mul_right b hk

/-- A sum over `n * b` positions is the sum, over the `n` blocks, of the sum over each block's `b` positions. -/
theorem sum_blocks (n b : ℕ) (f : Fin (n * b) → M) :
    ∑ i : Fin (n * b), f i = ∑ k : Fin n, ∑ j : Fin b, f ⟨k.val * b + j.val, block_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The running total of the blocks `g 0, g 1, …`: it starts at `0 + g 0` and adds one block per step. -/
def acc (g : ℕ → M) : ℕ → M
  | 0 => 0 + g 0
  | k + 1 => acc g k + g (k + 1)

theorem acc_zero (g : ℕ → M) : acc g 0 = 0 + g 0 := rfl

theorem acc_succ (g : ℕ → M) (k : ℕ) : acc g (k + 1) = acc g k + g (k + 1) := rfl

/-- After step `k` the running total is the sum of the blocks `0, …, k`. -/
theorem acc_eq_sum (g : ℕ → M) (k : ℕ) : acc g k = ∑ t ∈ Finset.range (k + 1), g t := by
  induction k with
  | zero => rw [acc_zero, zero_add, Finset.sum_range_one]
  | succ k ih => rw [acc_succ, ih, Finset.sum_range_succ _ (k + 1)]

/-- A family of `n` blocks as a sequence, continued by `0` past the last block. -/
def ext {n : ℕ} (g : Fin n → M) (t : ℕ) : M := if h : t < n then g ⟨t, h⟩ else 0

theorem ext_val {n : ℕ} (g : Fin n → M) (k : Fin n) : ext g k.val = g k := dif_pos k.isLt

/-- The running total of `n + 1` blocks, after the last one, is the sum of all the blocks. -/
theorem acc_ext_last {n : ℕ} (g : Fin (n + 1) → M) : acc (ext g) n = ∑ k : Fin (n + 1), g k := by
  rw [acc_eq_sum, Finset.sum_range]
  exact Finset.sum_congr rfl fun k _ => ext_val g k

end General

/-- The inner product of block `k` of `a` and `b`: positions `512 k, …, 512 k + 511` of the 4096. -/
def blk (a b : Fin 4096 → EReal) (k : Fin 8) : EReal :=
  ∑ j : Fin 512, a ⟨k.val * 512 + j.val, block_lt (n := 8) (b := 512) k j⟩
    * b ⟨k.val * 512 + j.val, block_lt (n := 8) (b := 512) k j⟩

/-- The eight block inner products add up to the whole inner product. -/
theorem sum_blk (a b : Fin 4096 → EReal) : ∑ k : Fin 8, blk a b k = ∑ i : Fin 4096, a i * b i :=
  (sum_blocks 8 512 (fun i : Fin (8 * 512) => a i * b i)).symm

/-- Accumulating the eight block inner products one at a time from `0 + (block 0)`, then adding `c`, gives the whole
    inner product plus `c`. -/
theorem acc_blk (a b : Fin 4096 → EReal) (c : EReal) :
    acc (ext (blk a b)) 7 + c = (∑ i : Fin 4096, a i * b i) + c := by
  rw [acc_ext_last (n := 7) (blk a b), sum_blk]

/-- The same with the eight steps written out. -/
theorem acc_blk_unrolled (a b : Fin 4096 → EReal) (c : EReal) :
    (0 : EReal) + blk a b 0 + blk a b 1 + blk a b 2 + blk a b 3 + blk a b 4 + blk a b 5 + blk a b 6 + blk a b 7 + c
      = (∑ i : Fin 4096, a i * b i) + c := by
  rw [← sum_blk a b, Fin.sum_univ_eight, zero_add]

/-- The cleared accumulator `0` plus the eight block inner products summed over `s = 0, …, 7` (the block number written
    `s % 8`, which is `s` itself below 8), then plus `c`, is the whole inner product plus `c`. -/
theorem acc_range (a b : Fin 4096 → EReal) (c : EReal) :
    (0 + ∑ s ∈ Finset.range 8, ∑ k : Fin 512,
        a ⟨(s % 8) * 512 + k.val, by omega⟩ * b ⟨(s % 8) * 512 + k.val, by omega⟩) + c
      = (∑ i : Fin 4096, a i * b i) + c := by
  rw [zero_add, Finset.sum_range, ← sum_blk a b]
  refine congrArg (· + c) (Finset.sum_congr rfl fun s _ => ?_)
  unfold blk
  refine Finset.sum_congr rfl fun k _ => ?_
  have hs : s.val % 8 = s.val := Nat.mod_eq_of_lt s.isLt
  have e : (⟨(s.val % 8) * 512 + k.val, by omega⟩ : Fin 4096)
      = ⟨s.val * 512 + k.val, block_lt (n := 8) (b := 512) s k⟩ :=
    Fin.ext (by show (s.val % 8) * 512 + k.val = s.val * 512 + k.val; rw [hs])
  rw [e]

end QLin

end
-- ==== Proof.KV.MlpVal0.lean ====
import proofs.«158753_j48954037240335_1_alg».proof.Proof.KI.Mlp0
import proofs.«158753_j48954037240335_1_alg».proof.Proof.KV.Pay0
import proofs.«158753_j48954037240335_1_alg».proof.Proof.LibAccum
import Idealize.ShloMosaic.Lib.Pipeline.Value

/-! The perceptron-and-statistics kernel of pipeline 0, what its buffers hold point by point: the row block written at
    point t is the perceptron of the point's input blocks, and after point n each accumulator holds the running total
    0 + (block 0's column sums) + … + (block n's column sums). -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)

theorem hzm0 : (![0, 0] : Fin 2 → Nat) = fun _ => 0 := funext fun a => by fin_cases a <;> rfl

section Pieces
variable {F : FTy → Type} [FloatOps F]

theorem piece0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_A_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    out0_A_s0 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x0 x1 x2 x3 x4 x5 (k0_pay2 (F := F)) := by
  unfold out0_A_s0
  rw [View.read_writes_eq_canon _ _ _ (cover0_A_s0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_A_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    out0_A_s1 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay4 x0 x1 x2 x3 x4 x5) (k0_pay3 (F := F)) := by
  unfold out0_A_s1
  rw [View.read_writes_eq_canon _ _ _ (cover0_A_s1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_B_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_B_s0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold out0_B_s0
  rw [View.read_writes_eq_canon _ _ _ (cover0_B_s0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_B_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_B_s1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold out0_B_s1
  rw [View.read_writes_eq_canon _ _ _ (cover0_B_s1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x3 x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_C_s0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_s0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold out0_C_s0
  rw [View.read_writes_eq_canon _ _ _ (cover0_C_s0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

theorem piece0_C_s1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_s1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold out0_C_s1
  rw [View.read_writes_eq_canon _ _ _ (cover0_C_s1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C; dsimp only; sl_unfold_words
  simp only [View.canon_cons_unit_zero (S := S1x128) hzm0, View.canon_cons_unit_zero (S := S5000x128) hzm0, View.canon_unit_zero (S := S1x128) hzm0, View.canon_unit_zero (S := S5000x128) hzm0, View.readCov_unit_zero (S := S1x128) _ hzm0, View.readAt_eq_ld, harg1.read_unread, harg2.read_unread, harg3.read_unread, harg4.read_unread, harg5.read_unread, harg6.read_unread, harg10.read_unread, harg11.read_unread, View.ld_unit_zero (S := S5000x128) hzm0, View.ld_unit_zero (S := S128x128) hzm0, View.ld_unit_zero (S := S1x128) hzm0]

end Pieces

variable (V : (c : Dev nD) → (b : Ref sig .tc) → Buf (Elt Ideal) ((c : Thread nD τ).loc b))

/-- The row block of z that point t computes from its input blocks. -/
def Zt0 (c : Dev nD) (t : Fin cfg0.N) : FVec Ideal S5000x128 .f32 := k0_pay4 (F := Ideal) (iblk0 V c 0 t) (iblk0 V c 1 t) (iblk0 V c 2 t) (iblk0 V c 3 t) (iblk0 V c 4 t) (iblk0 V c 5 t)

theorem outs0_z (c : Dev nD) (t : Fin cfg0.N) : (outsAt0 V c t.val t.isLt).1 = Zt0 V c t := by
  unfold Zt0
  have hN : t.val < 20 := lt_of_lt_of_eq t.isLt (show cfg0.N = 20 from N_0)
  by_cases h0 : t.val % 20 = 0
  · have h1 : ¬t.val % 20 = 19 := by omega
    refine (congrArg Prod.fst (outsAt0_A V c t h0 h1)).trans ?_
    dsimp only
    exact piece0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  · by_cases h1 : t.val % 20 = 19
    · refine (congrArg Prod.fst (outsAt0_C V c t h0 h1)).trans ?_
      dsimp only
      exact piece0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · refine (congrArg Prod.fst (outsAt0_B V c t h0 h1)).trans ?_
      dsimp only
      exact piece0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At a point of each case the sum accumulator ends at what the point found plus the block's column sums. -/
theorem step0_s_A (c : Dev nD) (t : Fin cfg0.N) (h0 : t.val % 20 = 0) (h1 : ¬t.val % 20 = 19) (u : Fin 1) (q : Fin 128) :
    (outsAt0 V c t.val t.isLt).2.2.2.1 (ix2 u q) = 0 + (fun t : Fin cfg0.N => colsum (Zt0 V c t) q) t := by
  rw [outsAt0_A V c t h0 h1]
  refine (congrFun (piece0_A_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) (ix2 u q)).trans ?_
  rw [k0_s_apply, k0_z0_apply]
  rfl
theorem step0_s_B (c : Dev nD) (t : Fin cfg0.N) (h0 : ¬t.val % 20 = 0) (h1 : ¬t.val % 20 = 19) (u : Fin 1) (q : Fin 128) :
    (outsAt0 V c t.val t.isLt).2.2.2.1 (ix2 u q) = (outsAt0 V c (t.val - 1) (Nat.lt_of_le_of_lt (Nat.sub_le _ _) t.isLt)).2.2.2.1 (ix2 u q) + (fun t : Fin cfg0.N => colsum (Zt0 V c t) q) t := by
  rw [outsAt0_B V c t h0 h1]
  refine (congrFun (piece0_B_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 u q)).trans ?_
  rw [k0_s_apply]
  rfl
theorem step0_s_C (c : Dev nD) (t : Fin cfg0.N) (h0 : ¬t.val % 20 = 0) (h1 : t.val % 20 = 19) (u : Fin 1) (q : Fin 128) :
    (outsAt0 V c t.val t.isLt).2.2.2.1 (ix2 u q) = (outsAt0 V c (t.val - 1) (Nat.lt_of_le_of_lt (Nat.sub_le _ _) t.isLt)).2.2.2.1 (ix2 u q) + (fun t : Fin cfg0.N => colsum (Zt0 V c t) q) t := by
  rw [outsAt0_C V c t h0 h1]
  refine (congrFun (piece0_C_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 u q)).trans ?_
  rw [k0_s_apply]
  rfl
/-- After point n the sum accumulator holds the running total of the blocks' column sums. -/
theorem outs0_s (c : Dev nD) : ∀ (n : ℕ) (hn : n < cfg0.N) (u : Fin 1) (q : Fin 128),
    (outsAt0 V c n hn).2.2.2.1 (ix2 u q) = QLin.acc (QLin.ext (fun t : Fin cfg0.N => colsum (Zt0 V c t) q)) n := by
  intro n
  induction n with
  | zero =>
    intro hn u q
    rw [QLin.acc_zero, show QLin.ext (fun t : Fin cfg0.N => colsum (Zt0 V c t) q) 0 = (fun t : Fin cfg0.N => colsum (Zt0 V c t) q) ⟨0, hn⟩ from QLin.ext_val (fun t : Fin cfg0.N => colsum (Zt0 V c t) q) ⟨0, hn⟩]
    exact step0_s_A V c ⟨0, hn⟩ (Nat.zero_mod _) (by show ¬0 % 20 = 19; decide) u q
  | succ n ih =>
    intro hn u q
    have hN : n + 1 < 20 := lt_of_lt_of_eq hn (show cfg0.N = 20 from N_0)
    have h0 : ¬(n + 1) % 20 = 0 := by omega
    rw [QLin.acc_succ, ← ih (Nat.lt_of_succ_lt hn) u q, show QLin.ext (fun t : Fin cfg0.N => colsum (Zt0 V c t) q) (n + 1) = (fun t : Fin cfg0.N => colsum (Zt0 V c t) q) ⟨n + 1, hn⟩ from QLin.ext_val (fun t : Fin cfg0.N => colsum (Zt0 V c t) q) ⟨n + 1, hn⟩]
    by_cases h1 : (n + 1) % 20 = 19
    · exact step0_s_C V c ⟨n + 1, hn⟩ h0 h1 u q
    · exact step0_s_B V c ⟨n + 1, hn⟩ h0 h1 u q

/-- At a point of each case the sum-of-squares accumulator ends at what the point found plus the block's column sums. -/
theorem step0_q_A (c : Dev nD) (t : Fin cfg0.N) (h0 : t.val % 20 = 0) (h1 : ¬t.val % 20 = 19) (u : Fin 1) (q : Fin 128) :
    (outsAt0 V c t.val t.isLt).2.2.2.2 (ix2 u q) = 0 + (fun t : Fin cfg0.N => colsum (fun i => Zt0 V c t i * Zt0 V c t i) q) t := by
  rw [outsAt0_A V c t h0 h1]
  refine (congrFun (piece0_A_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) (ix2 u q)).trans ?_
  rw [k0_q_apply, k0_z1_apply]
  rfl
theorem step0_q_B (c : Dev nD) (t : Fin cfg0.N) (h0 : ¬t.val % 20 = 0) (h1 : ¬t.val % 20 = 19) (u : Fin 1) (q : Fin 128) :
    (outsAt0 V c t.val t.isLt).2.2.2.2 (ix2 u q) = (outsAt0 V c (t.val - 1) (Nat.lt_of_le_of_lt (Nat.sub_le _ _) t.isLt)).2.2.2.2 (ix2 u q) + (fun t : Fin cfg0.N => colsum (fun i => Zt0 V c t i * Zt0 V c t i) q) t := by
  rw [outsAt0_B V c t h0 h1]
  refine (congrFun (piece0_B_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 u q)).trans ?_
  rw [k0_q_apply]
  rfl
theorem step0_q_C (c : Dev nD) (t : Fin cfg0.N) (h0 : ¬t.val % 20 = 0) (h1 : t.val % 20 = 19) (u : Fin 1) (q : Fin 128) :
    (outsAt0 V c t.val t.isLt).2.2.2.2 (ix2 u q) = (outsAt0 V c (t.val - 1) (Nat.lt_of_le_of_lt (Nat.sub_le _ _) t.isLt)).2.2.2.2 (ix2 u q) + (fun t : Fin cfg0.N => colsum (fun i => Zt0 V c t i * Zt0 V c t i) q) t := by
  rw [outsAt0_C V c t h0 h1]
  refine (congrFun (piece0_C_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 u q)).trans ?_
  rw [k0_q_apply]
  rfl
/-- After point n the sum-of-squares accumulator holds the running total of the blocks' column sums. -/
theorem outs0_q (c : Dev nD) : ∀ (n : ℕ) (hn : n < cfg0.N) (u : Fin 1) (q : Fin 128),
    (outsAt0 V c n hn).2.2.2.2 (ix2 u q) = QLin.acc (QLin.ext (fun t : Fin cfg0.N => colsum (fun i => Zt0 V c t i * Zt0 V c t i) q)) n := by
  intro n
  induction n with
  | zero =>
    intro hn u q
    rw [QLin.acc_zero, show QLin.ext (fun t : Fin cfg0.N => colsum (fun i => Zt0 V c t i * Zt0 V c t i) q) 0 = (fun t : Fin cfg0.N => colsum (fun i => Zt0 V c t i * Zt0 V c t i) q) ⟨0, hn⟩ from QLin.ext_val (fun t : Fin cfg0.N => colsum (fun i => Zt0 V c t i * Zt0 V c t i) q) ⟨0, hn⟩]
    exact step0_q_A V c ⟨0, hn⟩ (Nat.zero_mod _) (by show ¬0 % 20 = 19; decide) u q
  | succ n ih =>
    intro hn u q
    have hN : n + 1 < 20 := lt_of_lt_of_eq hn (show cfg0.N = 20 from N_0)
    have h0 : ¬(n + 1) % 20 = 0 := by omega
    rw [QLin.acc_succ, ← ih (Nat.lt_of_succ_lt hn) u q, show QLin.ext (fun t : Fin cfg0.N => colsum (fun i => Zt0 V c t i * Zt0 V c t i) q) (n + 1) = (fun t : Fin cfg0.N => colsum (fun i => Zt0 V c t i * Zt0 V c t i) q) ⟨n + 1, hn⟩ from QLin.ext_val (fun t : Fin cfg0.N => colsum (fun i => Zt0 V c t i * Zt0 V c t i) q) ⟨n + 1, hn⟩]
    by_cases h1 : (n + 1) % 20 = 19
    · exact step0_q_C V c ⟨n + 1, hn⟩ h0 h1 u q
    · exact step0_q_B V c ⟨n + 1, hn⟩ h0 h1 u q

end Cert.KernelIdeal.Val

end
-- ==== Proof.KV.MlpFin0.lean ====
import proofs.«158753_j48954037240335_1_alg».proof.Proof.KV.MlpVal0
import Idealize.ShloMosaic.Lib.ValueIdx

/-! The perceptron-and-statistics kernel of pipeline 0, its three output arrays after the region: z is the perceptron of
    x + a row by row (point t writes rows 5000 t … 5000 t + 4999); the two statistics rows, written back at the last point
    only, hold for each column the sum over all 100000 rows of z, and of z². -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- An array's contents as a function on its indices. -/
abbrev rdm {S : Shape} (f : S.Idx → EReal) : S.Idx → EReal := f
/-- Row p, column q of the perceptron of x + a over the whole array. -/
def zfull (x a : S100000x128.Idx → EReal) (w1 : S128x128.Idx → EReal) (b1 : S1x128.Idx → EReal) (w2 : S128x128.Idx → EReal)
    (b2 : S1x128.Idx → EReal) (p : Fin 100000) (q : Fin 128) : EReal :=
  (∑ k : Fin 128, max ((∑ j : Fin 128, (x (ix2 p j) + a (ix2 p j)) * w1 (ix2 j k)) + b1 (ix2 (0 : Fin 1) k)) 0 * w2 (ix2 k q)) + b2 (ix2 (0 : Fin 1) q)
abbrev rowOfM (i : S100000x128.Idx) : Fin 100000 := ⟨(i 0).val, idx2_lt0 i⟩
abbrev colOfM (i : S100000x128.Idx) : Fin 128 := ⟨(i 1).val, idx2_lt1 i⟩
abbrev colOfR (i : S1x128.Idx) : Fin 128 := ⟨(i 1).val, idx2_lt1 i⟩
/-- The z array as one function of the six arrays the kernel reads. -/
def GZ (x a : S100000x128.Idx → EReal) (w1 : S128x128.Idx → EReal) (b1 : S1x128.Idx → EReal) (w2 : S128x128.Idx → EReal)
    (b2 : S1x128.Idx → EReal) : S100000x128.Idx → EReal := fun i => zfull x a w1 b1 w2 b2 (rowOfM i) (colOfM i)
/-- A sum over twenty blocks of 5000 rows is the sum over the 100000 rows. -/
theorem sum_rows (f : Fin 100000 → EReal) :
    ∑ k : Fin 20, ∑ r : Fin 5000, f ⟨k.val * 5000 + r.val, QLin.block_lt k r⟩ = ∑ p : Fin 100000, f p :=
  (QLin.sum_blocks 20 5000 f).symm

theorem idx_factsM0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

def rowOfT0 (t : Fin cfg0.N) (p : Fin 5000) : Fin 100000 := ⟨t.val * 5000 + p.val, by
  have ht : t.val < 20 := lt_of_lt_of_eq t.isLt (show cfg0.N = 20 from N_0); have := p.isLt; omega⟩

theorem embM0_0 (t : Fin cfg0.N) (a : Fin 5000) (b : Fin 128) :
    ((cfg0.win 0).blk t).view.emb (ix2 a b) = ix2 (rowOfT0 t a) b := by
  obtain ⟨e00, e01, e10, e11, e20, e21, e30, e31, e40, e41, e50, e51, e60, e61, e70, e71, e80, e81⟩ := idx_factsM0 t
  funext ax; apply Fin.ext
  match ax with
  | ⟨0, _⟩ => show win0_0.index t (0 : Fin 2) * 5000 + 1 * a.val = t.val * 5000 + a.val; omega
  | ⟨1, _⟩ => show win0_0.index t (1 : Fin 2) * 128 + 1 * b.val = b.val; omega
theorem iblkM0_0 (c : Dev nD) (t : Fin cfg0.N) (a : Fin 5000) (b : Fin 128) :
    iblk0 V c 0 t (ix2 a b) = rdm (S := S100000x128) (V c main_arg0) (ix2 (rowOfT0 t a) b) := by
  show rdm (S := S100000x128) (V c main_arg0) (((cfg0.win 0).blk t).view.emb (ix2 a b)) = _
  rw [embM0_0]
theorem embM0_1 (t : Fin cfg0.N) (a : Fin 5000) (b : Fin 128) :
    ((cfg0.win 1).blk t).view.emb (ix2 a b) = ix2 (rowOfT0 t a) b := by
  obtain ⟨e00, e01, e10, e11, e20, e21, e30, e31, e40, e41, e50, e51, e60, e61, e70, e71, e80, e81⟩ := idx_factsM0 t
  funext ax; apply Fin.ext
  match ax with
  | ⟨0, _⟩ => show win0_1.index t (0 : Fin 2) * 5000 + 1 * a.val = t.val * 5000 + a.val; omega
  | ⟨1, _⟩ => show win0_1.index t (1 : Fin 2) * 128 + 1 * b.val = b.val; omega
theorem iblkM0_1 (c : Dev nD) (t : Fin cfg0.N) (a : Fin 5000) (b : Fin 128) :
    iblk0 V c 1 t (ix2 a b) = rdm (S := S100000x128) (V c main_v13) (ix2 (rowOfT0 t a) b) := by
  show rdm (S := S100000x128) (V c main_v13) (((cfg0.win 1).blk t).view.emb (ix2 a b)) = _
  rw [embM0_1]
theorem embM0_2 (t : Fin cfg0.N) (a : Fin 128) (b : Fin 128) :
    ((cfg0.win 2).blk t).view.emb (ix2 a b) = ix2 a b := by
  obtain ⟨e00, e01, e10, e11, e20, e21, e30, e31, e40, e41, e50, e51, e60, e61, e70, e71, e80, e81⟩ := idx_factsM0 t
  funext ax; apply Fin.ext
  match ax with
  | ⟨0, _⟩ => show win0_2.index t (0 : Fin 2) * 128 + 1 * a.val = a.val; omega
  | ⟨1, _⟩ => show win0_2.index t (1 : Fin 2) * 128 + 1 * b.val = b.val; omega
theorem iblkM0_2 (c : Dev nD) (t : Fin cfg0.N) (a : Fin 128) (b : Fin 128) :
    iblk0 V c 2 t (ix2 a b) = rdm (S := S128x128) (V c main_arg2) (ix2 a b) := by
  show rdm (S := S128x128) (V c main_arg2) (((cfg0.win 2).blk t).view.emb (ix2 a b)) = _
  rw [embM0_2]
theorem embM0_3 (t : Fin cfg0.N) (a : Fin 1) (b : Fin 128) :
    ((cfg0.win 3).blk t).view.emb (ix2 a b) = ix2 a b := by
  obtain ⟨e00, e01, e10, e11, e20, e21, e30, e31, e40, e41, e50, e51, e60, e61, e70, e71, e80, e81⟩ := idx_factsM0 t
  funext ax; apply Fin.ext
  match ax with
  | ⟨0, _⟩ => show win0_3.index t (0 : Fin 2) * 1 + 1 * a.val = a.val; omega
  | ⟨1, _⟩ => show win0_3.index t (1 : Fin 2) * 128 + 1 * b.val = b.val; omega
theorem iblkM0_3 (c : Dev nD) (t : Fin cfg0.N) (a : Fin 1) (b : Fin 128) :
    iblk0 V c 3 t (ix2 a b) = rdm (S := S1x128) (V c main_v14) (ix2 a b) := by
  show rdm (S := S1x128) (V c main_v14) (((cfg0.win 3).blk t).view.emb (ix2 a b)) = _
  rw [embM0_3]
theorem embM0_4 (t : Fin cfg0.N) (a : Fin 128) (b : Fin 128) :
    ((cfg0.win 4).blk t).view.emb (ix2 a b) = ix2 a b := by
  obtain ⟨e00, e01, e10, e11, e20, e21, e30, e31, e40, e41, e50, e51, e60, e61, e70, e71, e80, e81⟩ := idx_factsM0 t
  funext ax; apply Fin.ext
  match ax with
  | ⟨0, _⟩ => show win0_4.index t (0 : Fin 2) * 128 + 1 * a.val = a.val; omega
  | ⟨1, _⟩ => show win0_4.index t (1 : Fin 2) * 128 + 1 * b.val = b.val; omega
theorem iblkM0_4 (c : Dev nD) (t : Fin cfg0.N) (a : Fin 128) (b : Fin 128) :
    iblk0 V c 4 t (ix2 a b) = rdm (S := S128x128) (V c main_arg4) (ix2 a b) := by
  show rdm (S := S128x128) (V c main_arg4) (((cfg0.win 4).blk t).view.emb (ix2 a b)) = _
  rw [embM0_4]
theorem embM0_5 (t : Fin cfg0.N) (a : Fin 1) (b : Fin 128) :
    ((cfg0.win 5).blk t).view.emb (ix2 a b) = ix2 a b := by
  obtain ⟨e00, e01, e10, e11, e20, e21, e30, e31, e40, e41, e50, e51, e60, e61, e70, e71, e80, e81⟩ := idx_factsM0 t
  funext ax; apply Fin.ext
  match ax with
  | ⟨0, _⟩ => show win0_5.index t (0 : Fin 2) * 1 + 1 * a.val = a.val; omega
  | ⟨1, _⟩ => show win0_5.index t (1 : Fin 2) * 128 + 1 * b.val = b.val; omega
theorem iblkM0_5 (c : Dev nD) (t : Fin cfg0.N) (a : Fin 1) (b : Fin 128) :
    iblk0 V c 5 t (ix2 a b) = rdm (S := S1x128) (V c main_v15) (ix2 a b) := by
  show rdm (S := S1x128) (V c main_v15) (((cfg0.win 5).blk t).view.emb (ix2 a b)) = _
  rw [embM0_5]
theorem embM0_6 (t : Fin cfg0.N) (a : Fin 5000) (b : Fin 128) :
    ((cfg0.win 6).blk t).view.emb (ix2 a b) = ix2 (rowOfT0 t a) b := by
  obtain ⟨e00, e01, e10, e11, e20, e21, e30, e31, e40, e41, e50, e51, e60, e61, e70, e71, e80, e81⟩ := idx_factsM0 t
  funext ax; apply Fin.ext
  match ax with
  | ⟨0, _⟩ => show win0_6.index t (0 : Fin 2) * 5000 + 1 * a.val = t.val * 5000 + a.val; omega
  | ⟨1, _⟩ => show win0_6.index t (1 : Fin 2) * 128 + 1 * b.val = b.val; omega
theorem embM0_7 (t : Fin cfg0.N) (a : Fin 1) (b : Fin 128) :
    ((cfg0.win 7).blk t).view.emb (ix2 a b) = ix2 a b := by
  obtain ⟨e00, e01, e10, e11, e20, e21, e30, e31, e40, e41, e50, e51, e60, e61, e70, e71, e80, e81⟩ := idx_factsM0 t
  funext ax; apply Fin.ext
  match ax with
  | ⟨0, _⟩ => show win0_7.index t (0 : Fin 2) * 1 + 1 * a.val = a.val; omega
  | ⟨1, _⟩ => show win0_7.index t (1 : Fin 2) * 128 + 1 * b.val = b.val; omega
theorem embM0_8 (t : Fin cfg0.N) (a : Fin 1) (b : Fin 128) :
    ((cfg0.win 8).blk t).view.emb (ix2 a b) = ix2 a b := by
  obtain ⟨e00, e01, e10, e11, e20, e21, e30, e31, e40, e41, e50, e51, e60, e61, e70, e71, e80, e81⟩ := idx_factsM0 t
  funext ax; apply Fin.ext
  match ax with
  | ⟨0, _⟩ => show win0_8.index t (0 : Fin 2) * 1 + 1 * a.val = a.val; omega
  | ⟨1, _⟩ => show win0_8.index t (1 : Fin 2) * 128 + 1 * b.val = b.val; omega

/-- Entry (p, q) of the block point t computes is entry (5000 t + p, q) of the perceptron over the whole arrays. -/
theorem Zt0_apply (c : Dev nD) (t : Fin cfg0.N) (p : Fin 5000) (q : Fin 128) :
    Zt0 V c t (ix2 p q) = zfull (V c main_arg0) (V c main_v13) (V c main_arg2) (V c main_v14) (V c main_arg4) (V c main_v15) (rowOfT0 t p) q := by
  unfold Zt0
  rw [k0_z_apply]
  unfold zrow zfull
  simp only [iblkM0_0, iblkM0_1, iblkM0_2, iblkM0_3, iblkM0_4, iblkM0_5]

theorem flushed0_6_eq (c : Dev nD) (t : Fin cfg0.N) :
    (dat0 V c).flushed 6 t = ((cfg0.win 6).blk t).view.read (Elt Ideal) (GZ (V c main_arg0) (V c main_v13) (V c main_arg2) (V c main_v14) (V c main_arg4) (V c main_v15)) := by
  show (cfg0.win 6).cut (grid0.coords t) ((dat0 V c).after 6 t) = _
  rw [after0_6, outs0_z]
  funext j
  obtain ⟨p, q, rfl⟩ : ∃ (p : Fin 5000) (q : Fin 128), j = ix2 p q := ⟨j 0, j 1, eq_ix2 j⟩
  refine (Zt0_apply V c t p q).trans ?_
  show _ = GZ (V c main_arg0) (V c main_v13) (V c main_arg2) (V c main_v14) (V c main_arg4) (V c main_v15) (((cfg0.win 6).blk t).view.emb (ix2 p q))
  rw [embM0_6]
  rfl

theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16_0).slice (win0_6.rect t)).set ↔ _
  rw [View.set_slice_whole, Rect.mem_set_unit]
  exact Iff.rfl

theorem cover0_6 (i : S100000x128.Idx) : ∃ t : Fin cfg0.N, (cfg0.win 6).flush t = true ∧ i ∈ ((cfg0.win 6).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  obtain ⟨e00, e01, e10, e11, e20, e21, e30, e31, e40, e41, e50, e51, e60, e61, e70, e71, e80, e81⟩ := idx_factsM0 t
  have ht : t.val = (i 0).val / 5000 := rfl
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE z ARRAY after the region. -/
theorem final0_6 (c : Dev nD) : (dat0 V c).arrAt 6 cfg0.N = GZ (V c main_arg0) (V c main_v13) (V c main_arg2) (V c main_v14) (V c main_arg4) (V c main_v15) :=
  (dat0 V c).arrAt_eq_of_cover 6 _ (fun t _ => flushed0_6_eq V c t) (cover0_6)

/-- At the last point the statistics window 7's buffer receives the accumulator's final contents. -/
theorem last0_7 (c : Dev nD) (t : Fin cfg0.N) (h1 : t.val % 20 = 19) :
    (outsAt0 V c t.val t.isLt).2.1 = (outsAt0 V c t.val t.isLt).2.2.2.1 := by
  have hN : t.val < 20 := lt_of_lt_of_eq t.isLt (show cfg0.N = 20 from N_0)
  have h0 : ¬t.val % 20 = 0 := by omega
  rw [outsAt0_C V c t h0 h1]
  exact (piece0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans (piece0_C_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm
/-- The column totals: what window 7's one row ends holding. -/
def G0_7 (c : Dev nD) : S1x128.Idx → EReal := fun i => ∑ k : Fin cfg0.N, (fun t : Fin cfg0.N => colsum (Zt0 V c t) (colOfR i)) k
theorem flushed0_7_eq (c : Dev nD) (t : Fin cfg0.N) (hf : (cfg0.win 7).flush t = true) :
    (dat0 V c).flushed 7 t = ((cfg0.win 7).blk t).view.read (Elt Ideal) (G0_7 V c) := by
  have h1 : t.val % 20 = 19 := (flush0_7 t).mp hf
  have hN : t.val < 20 := lt_of_lt_of_eq t.isLt (show cfg0.N = 20 from N_0)
  have ht : t.val = 19 := by omega
  show (cfg0.win 7).cut (grid0.coords t) ((dat0 V c).after 7 t) = _
  rw [after0_7, last0_7 V c t h1]
  funext j
  obtain ⟨u, q, rfl⟩ : ∃ (u : Fin 1) (q : Fin 128), j = ix2 u q := ⟨j 0, j 1, eq_ix2 j⟩
  refine (outs0_s V c t.val t.isLt u q).trans ?_
  show _ = G0_7 V c (((cfg0.win 7).blk t).view.emb (ix2 u q))
  rw [embM0_7, ht]
  exact QLin.acc_ext_last (n := 19) (fun t : Fin cfg0.N => colsum (Zt0 V c t) q)
theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v16_1).slice (win0_7.rect t)).set ↔ _
  rw [View.set_slice_whole, Rect.mem_set_unit]
  exact Iff.rfl
theorem cover0_7 (i : S1x128.Idx) : ∃ t : Fin cfg0.N, (cfg0.win 7).flush t = true ∧ i ∈ ((cfg0.win 7).blk t).view.set := by
  have hi0 : (i 0).val < 1 := idx2_lt0 i
  have hi1 : (i 1).val < 128 := idx2_lt1 i
  have hN : cfg0.N = 20 := N_0
  let t : Fin cfg0.N := ⟨19, by rw [hN]; omega⟩
  obtain ⟨e00, e01, e10, e11, e20, e21, e30, e31, e40, e41, e50, e51, e60, e61, e70, e71, e80, e81⟩ := idx_factsM0 t
  refine ⟨t, (flush0_7 t).mpr rfl, ?_⟩
  rw [mem_blk0_7]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 128 ≤ (i 1).val ∧ (i 1).val < win0_7.index t (1 : Fin 2) * 128 + 128; omega
theorem final0_7 (c : Dev nD) : (dat0 V c).arrAt 7 cfg0.N = G0_7 V c :=
  (dat0 V c).arrAt_eq_of_cover 7 _ (fun t hf => flushed0_7_eq V c t hf) (cover0_7)

/-- At the last point the statistics window 8's buffer receives the accumulator's final contents. -/
theorem last0_8 (c : Dev nD) (t : Fin cfg0.N) (h1 : t.val % 20 = 19) :
    (outsAt0 V c t.val t.isLt).2.2.1 = (outsAt0 V c t.val t.isLt).2.2.2.2 := by
  have hN : t.val < 20 := lt_of_lt_of_eq t.isLt (show cfg0.N = 20 from N_0)
  have h0 : ¬t.val % 20 = 0 := by omega
  rw [outsAt0_C V c t h0 h1]
  exact (piece0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans (piece0_C_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm
/-- The column totals: what window 8's one row ends holding. -/
def G0_8 (c : Dev nD) : S1x128.Idx → EReal := fun i => ∑ k : Fin cfg0.N, (fun t : Fin cfg0.N => colsum (fun i => Zt0 V c t i * Zt0 V c t i) (colOfR i)) k
theorem flushed0_8_eq (c : Dev nD) (t : Fin cfg0.N) (hf : (cfg0.win 8).flush t = true) :
    (dat0 V c).flushed 8 t = ((cfg0.win 8).blk t).view.read (Elt Ideal) (G0_8 V c) := by
  have h1 : t.val % 20 = 19 := (flush0_8 t).mp hf
  have hN : t.val < 20 := lt_of_lt_of_eq t.isLt (show cfg0.N = 20 from N_0)
  have ht : t.val = 19 := by omega
  show (cfg0.win 8).cut (grid0.coords t) ((dat0 V c).after 8 t) = _
  rw [after0_8, last0_8 V c t h1]
  funext j
  obtain ⟨u, q, rfl⟩ : ∃ (u : Fin 1) (q : Fin 128), j = ix2 u q := ⟨j 0, j 1, eq_ix2 j⟩
  refine (outs0_q V c t.val t.isLt u q).trans ?_
  show _ = G0_8 V c (((cfg0.win 8).blk t).view.emb (ix2 u q))
  rw [embM0_8, ht]
  exact QLin.acc_ext_last (n := 19) (fun t : Fin cfg0.N => colsum (fun i => Zt0 V c t i * Zt0 V c t i) q)
theorem mem_blk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v16_2).slice (win0_8.rect t)).set ↔ _
  rw [View.set_slice_whole, Rect.mem_set_unit]
  exact Iff.rfl
theorem cover0_8 (i : S1x128.Idx) : ∃ t : Fin cfg0.N, (cfg0.win 8).flush t = true ∧ i ∈ ((cfg0.win 8).blk t).view.set := by
  have hi0 : (i 0).val < 1 := idx2_lt0 i
  have hi1 : (i 1).val < 128 := idx2_lt1 i
  have hN : cfg0.N = 20 := N_0
  let t : Fin cfg0.N := ⟨19, by rw [hN]; omega⟩
  obtain ⟨e00, e01, e10, e11, e20, e21, e30, e31, e40, e41, e50, e51, e60, e61, e70, e71, e80, e81⟩ := idx_factsM0 t
  refine ⟨t, (flush0_8 t).mpr rfl, ?_⟩
  rw [mem_blk0_8]
  intro a
  match a with
  | ⟨0, _⟩ => show win0_8.index t (0 : Fin 2) * 1 ≤ (i 0).val ∧ (i 0).val < win0_8.index t (0 : Fin 2) * 1 + 1; omega
  | ⟨1, _⟩ => show win0_8.index t (1 : Fin 2) * 128 ≤ (i 1).val ∧ (i 1).val < win0_8.index t (1 : Fin 2) * 128 + 128; omega
theorem final0_8 (c : Dev nD) : (dat0 V c).arrAt 8 cfg0.N = G0_8 V c :=
  (dat0 V c).arrAt_eq_of_cover 8 _ (fun t hf => flushed0_8_eq V c t hf) (cover0_8)

/-- The column totals over the twenty blocks are the sums over all rows of the z array. -/
theorem G0_7_apply (c : Dev nD) (u : Fin 1) (q : Fin 128) :
    G0_7 V c (ix2 u q) = ∑ p : Fin 100000, zfull (V c main_arg0) (V c main_v13) (V c main_arg2) (V c main_v14) (V c main_arg4) (V c main_v15) p q := by
  unfold G0_7 colsum
  simp only [Zt0_apply]
  exact sum_rows (fun p => zfull (V c main_arg0) (V c main_v13) (V c main_arg2) (V c main_v14) (V c main_arg4) (V c main_v15) p q)
theorem G0_8_apply (c : Dev nD) (u : Fin 1) (q : Fin 128) :
    G0_8 V c (ix2 u q) = ∑ p : Fin 100000, zfull (V c main_arg0) (V c main_v13) (V c main_arg2) (V c main_v14) (V c main_arg4) (V c main_v15) p q * zfull (V c main_arg0) (V c main_v13) (V c main_arg2) (V c main_v14) (V c main_arg4) (V c main_v15) p q := by
  unfold G0_8 colsum
  simp only [Zt0_apply]
  exact sum_rows (fun p => zfull (V c main_arg0) (V c main_v13) (V c main_arg2) (V c main_v14) (V c main_arg4) (V c main_v15) p q * zfull (V c main_arg0) (V c main_v13) (V c main_arg2) (V c main_v14) (V c main_arg4) (V c main_v15) p q)

end Cert.KernelIdeal.Val

end
-- ==== Proof.KV.Layer.lean ====
import proofs.«158753_j48954037240335_1_alg».proof.Proof.KV.Host
import proofs.«158753_j48954037240335_1_alg».proof.Proof.KV.MlpFin0

/-! One layer of the kernel's program as one function: the affine-and-clamp of the perceptron's array by the folded scale
    and shift computed from its column sums is the folded batch normalisation of the specification. -/

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

/-- The perceptron over the whole arrays, with the biases given as rows, is the specification's. -/
theorem zfull_eq_mlp (x a : S100000x128.Idx → EReal) (w1 : S128x128.Idx → EReal) (b1 : FVec Ideal S128 .f32) (w2 : S128x128.Idx → EReal)
    (b2 : FVec Ideal S128 .f32) (p : Fin 100000) (q : Fin 128) :
    zfull x a w1 (row b1) w2 (row b2) p q
      = Cert.Spec.mlp (fun p q => x (ix2 p q) + a (ix2 p q)) (fun j k => w1 (ix2 j k)) (fun k => b1 (ix1 k)) (fun k q => w2 (ix2 k q)) (fun q => b2 (ix1 q)) p q := by
  unfold zfull Cert.Spec.mlp
  simp only [row_apply]

/-- THE LAYER. -/
theorem layer_fold (x a : S100000x128.Idx → EReal) (w1 : S128x128.Idx → EReal) (b1 : FVec Ideal S128 .f32) (w2 : S128x128.Idx → EReal)
    (b2 g b : FVec Ideal S128 .f32) (S SS : FVec Ideal S1x128 .f32)
    (hS : ∀ (u : Fin 1) (q : Fin 128), S (ix2 u q) = ∑ p : Fin 100000, zfull x a w1 (row b1) w2 (row b2) p q)
    (hSS : ∀ (u : Fin 1) (q : Fin 128), SS (ix2 u q) = ∑ p : Fin 100000, zfull x a w1 (row b1) w2 (row b2) p q * zfull x a w1 (row b1) w2 (row b2) p q)
    (p : Fin 100000) (q : Fin 128) :
    max (GZ x a w1 (row b1) w2 (row b2) (ix2 p q) * scaleOf g S SS (ix2 (0 : Fin 1) q) + shiftOf b g S SS (ix2 (0 : Fin 1) q)) 0
      = Cert.Spec.layerFolded (Ideal.ofBits .f32 0x47C35000#32) (Ideal.ofBits .f32 0x3727C5AC#32) (fun p q => x (ix2 p q)) (fun p q => a (ix2 p q))
          (fun j k => w1 (ix2 j k)) (fun k => b1 (ix1 k)) (fun k q => w2 (ix2 k q)) (fun q => b2 (ix1 q)) (fun q => g (ix1 q)) (fun q => b (ix1 q)) p q := by
  have hG : GZ x a w1 (row b1) w2 (row b2) (ix2 p q) = zfull x a w1 (row b1) w2 (row b2) p q := rfl
  rw [hG, shiftOf_apply, scaleOf_apply, hS, hSS]
  simp only [zfull_eq_mlp]
  rfl

end Cert.KernelIdeal.Val

end
-- ==== Proof.KV.Pay2.lean ====
import proofs.«158753_j48954037240335_1_alg».proof.Proof.Gen.KernelIdeal.Skeleton
import proofs.«158753_j48954037240335_1_alg».proof.Proof.LibMatmulPlain
import proofs.«158753_j48954037240335_1_alg».proof.Proof.KV.Pay0
import Idealize.ShloMosaic.Lib.ValueIdx
import Idealize.ShloMosaic.Lib.ValueLayout
import Idealize.ShloMosaic.Lib.Pipeline.Value
import Idealize.ShloMosaic.PureOps.Ideal.Laws

/-! The arithmetic of the perceptron-and-statistics kernel of pipeline 2, on the extended reals, index by index: the row
    block z = max ((x + a) · W₁ + b₁) 0 · W₂ + b₂, and the two accumulators, each its previous value plus the block's
    column sums (of z, and of z²). -/

set_option maxRecDepth 16384

noncomputable section

namespace Cert.KernelIdeal.Val

open Cert.KernelIdeal Cert.KernelIdeal.Gen
open Idealize.ShloMosaic Idealize.ShloMosaic.ValueIdx

theorem k2_z_apply (x a : Vec Ideal S5000x128 .f32) (w1 : Vec Ideal S128x128 .f32) (b1 : Vec Ideal S1x128 .f32) (w2 : Vec Ideal S128x128 .f32)
    (b2 : Vec Ideal S1x128 .f32) (p : Fin 5000) (q : Fin 128) :
    k2_pay5 (F := Ideal) x a w1 b1 w2 b2 (ix2 p q) = zrow x a w1 b1 w2 b2 p q := by
  unfold k2_pay5 zrow
  simp only [addf_apply, mm_apply, truncf_apply, maximumf_apply, broadcast_apply, broadcastTo_1b_ab_apply, shapeCast_self, zero_f32]

theorem k2_s_apply (x a : Vec Ideal S5000x128 .f32) (w1 : Vec Ideal S128x128 .f32) (b1 : Vec Ideal S1x128 .f32) (w2 : Vec Ideal S128x128 .f32)
    (b2 : Vec Ideal S1x128 .f32) (S : Vec Ideal S1x128 .f32) (u : Fin 1) (q : Fin 128) :
    k2_pay1 (F := Ideal) (k2_pay6 (F := Ideal) x a w1 b1 w2 b2 S) (ix2 u q) = S (ix2 u q) + colsum (k2_pay5 (F := Ideal) x a w1 b1 w2 b2) q := by
  unfold k2_pay1 k2_pay6
  simp only [shapeCast_self, addf_apply, shapeCast_a_1a_apply]
  exact congrArg (S (ix2 u q) + ·) (reduce_col _ q)

theorem k2_q_apply (Z : FVec Ideal S5000x128 .f32) (Q : Vec Ideal S1x128 .f32) (u : Fin 1) (q : Fin 128) :
    k2_pay2 (F := Ideal) Z Q (ix2 u q) = Q (ix2 u q) + colsum (fun i => Z i * Z i) q := by
  unfold k2_pay2
  simp only [shapeCast_self, addf_apply, shapeCast_a_1a_apply]
  exact congrArg (Q (ix2 u q) + ·) (reduce_col (mulf Z Z) q)

theorem k2_z0_apply (u : Fin 1) (q : Fin 128) : k2_pay3 (F := Ideal) (ix2 u q) = 0 := by
  unfold k2_pay3; simp only [shapeCast_self, broadcast_apply, zero_f32]
theorem k2_z1_apply (u : Fin 1) (q : Fin 128) : k2_pay4 (F := Ideal) (ix2 u q) = 0 := by
  unfold k2_pay4; simp only [shapeCast_self, broadcast_apply, zero_f32]

end Cert.KernelIdeal.Val

end
-- ==== Proof.KV.MlpVal2.lean ====
import proofs.«158753_j48954037240335_1_alg».proof.Proof.KI.Mlp2
import proofs.«158753_j48954037240335_1_alg».proof.Proof.KV.Pay2
import proofs.«158753_j48954037240335_1_alg».proof.Proof.LibAccum
import Idealize.ShloMosaic.Lib.Pipeline.Value

/-! The perceptron-and-statistics kernel of pipeline 2, what its buffers hold point by point: the row block written at
    point t is the perceptron of the point's input blocks, and after point n each accumulator holds the running total
    0 + (block 0's column sums) + … + (block n's column sums). -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx Idealize.SL.Sem
open Idealize.ShloMosaic.Pipeline (Dat)

theorem hzm2 : (![0, 0] : Fin 2 → Nat) = fun _ => 0 := funext fun a => by fin_cases a <;> rfl

section Pieces
variable {F : FTy → Type} [FloatOps F]

theorem piece2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 arg10 harg10 arg11 harg11 hc0 hc1 x0 x1 x2 x3 x4 x5 = k2_pay5 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_A_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    out2_A_s0 c i arg1 harg1 arg2 harg2 arg3 harg3 arg4 harg4 arg5 harg5 arg6 harg6 arg7 harg7 arg8 harg8 arg9 harg9 arg10 harg10 arg11 harg11 hc0 hc1 x0 x1 x2 x3 x4 x5 = k2_pay1 (k2_pay6 x0 x1 x2 x3 x4 x5 (k2_pay3 (F := F))) := by
  unfold out2_A_s0
  rw [View.read_writes_eq_canon _ _ _ (cover2_A_s0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_A_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    out2_A_s1 c i arg1 harg1 arg2 harg2 arg3 harg3 arg4 harg4 arg5 harg5 arg6 harg6 arg7 harg7 arg8 harg8 arg9 harg9 arg10 harg10 arg11 harg11 hc0 hc1 x0 x1 x2 x3 x4 x5 = k2_pay2 (k2_pay5 x0 x1 x2 x3 x4 x5) (k2_pay4 (F := F)) := by
  unfold out2_A_s1
  rw [View.read_writes_eq_canon _ _ _ (cover2_A_s1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun2_A; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_B_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_B_s0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold out2_B_s0
  rw [View.read_writes_eq_canon _ _ _ (cover2_B_s0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_B_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_B_s1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold out2_B_s1
  rw [View.read_writes_eq_canon _ _ _ (cover2_B_s1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_B; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold out2_C_8
  rw [View.read_writes_eq_canon _ _ _ (cover2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_C_s0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_C_s0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x3 x4 x5 xs0) := by
  unfold out2_C_s0
  rw [View.read_writes_eq_canon _ _ _ (cover2_C_s0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

theorem piece2_C_s1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_C_s1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay5 x0 x1 x2 x3 x4 x5) xs1 := by
  unfold out2_C_s1
  rw [View.read_writes_eq_canon _ _ _ (cover2_C_s1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun2_C; dsimp only; sl_unfold_words
  simp only [View.canon_cons_unit_zero (S := S1x128) hzm2, View.canon_cons_unit_zero (S := S5000x128) hzm2, View.canon_unit_zero (S := S1x128) hzm2, View.canon_unit_zero (S := S5000x128) hzm2, View.readCov_unit_zero (S := S1x128) _ hzm2, View.readAt_eq_ld, harg1.read_unread, harg2.read_unread, harg3.read_unread, harg4.read_unread, harg5.read_unread, harg6.read_unread, harg10.read_unread, harg11.read_unread, View.ld_unit_zero (S := S5000x128) hzm2, View.ld_unit_zero (S := S128x128) hzm2, View.ld_unit_zero (S := S1x128) hzm2]

end Pieces

variable (V : (c : Dev nD) → (b : Ref sig .tc) → Buf (Elt Ideal) ((c : Thread nD τ).loc b))

/-- The row block of z that point t computes from its input blocks. -/
def Zt2 (c : Dev nD) (t : Fin cfg2.N) : FVec Ideal S5000x128 .f32 := k2_pay5 (F := Ideal) (iblk2 V c 0 t) (iblk2 V c 1 t) (iblk2 V c 2 t) (iblk2 V c 3 t) (iblk2 V c 4 t) (iblk2 V c 5 t)

theorem outs2_z (c : Dev nD) (t : Fin cfg2.N) : (outsAt2 V c t.val t.isLt).1 = Zt2 V c t := by
  unfold Zt2
  have hN : t.val < 20 := lt_of_lt_of_eq t.isLt (show cfg2.N = 20 from N_2)
  by_cases h0 : t.val % 20 = 0
  · have h1 : ¬t.val % 20 = 19 := by omega
    refine (congrArg Prod.fst (outsAt2_A V c t h0 h1)).trans ?_
    dsimp only
    exact piece2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)
  · by_cases h1 : t.val % 20 = 19
    · refine (congrArg Prod.fst (outsAt2_C V c t h0 h1)).trans ?_
      dsimp only
      exact piece2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
    · refine (congrArg Prod.fst (outsAt2_B V c t h0 h1)).trans ?_
      dsimp only
      exact piece2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-- At a point of each case the sum accumulator ends at what the point found plus the block's column sums. -/
theorem step2_s_A (c : Dev nD) (t : Fin cfg2.N) (h0 : t.val % 20 = 0) (h1 : ¬t.val % 20 = 19) (u : Fin 1) (q : Fin 128) :
    (outsAt2 V c t.val t.isLt).2.2.2.1 (ix2 u q) = 0 + (fun t : Fin cfg2.N => colsum (Zt2 V c t) q) t := by
  rw [outsAt2_A V c t h0 h1]
  refine (congrFun (piece2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) (ix2 u q)).trans ?_
  rw [k2_s_apply, k2_z0_apply]
  rfl
theorem step2_s_B (c : Dev nD) (t : Fin cfg2.N) (h0 : ¬t.val % 20 = 0) (h1 : ¬t.val % 20 = 19) (u : Fin 1) (q : Fin 128) :
    (outsAt2 V c t.val t.isLt).2.2.2.1 (ix2 u q) = (outsAt2 V c (t.val - 1) (Nat.lt_of_le_of_lt (Nat.sub_le _ _) t.isLt)).2.2.2.1 (ix2 u q) + (fun t : Fin cfg2.N => colsum (Zt2 V c t) q) t := by
  rw [outsAt2_B V c t h0 h1]
  refine (congrFun (piece2_B_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 u q)).trans ?_
  rw [k2_s_apply]
  rfl
theorem step2_s_C (c : Dev nD) (t : Fin cfg2.N) (h0 : ¬t.val % 20 = 0) (h1 : t.val % 20 = 19) (u : Fin 1) (q : Fin 128) :
    (outsAt2 V c t.val t.isLt).2.2.2.1 (ix2 u q) = (outsAt2 V c (t.val - 1) (Nat.lt_of_le_of_lt (Nat.sub_le _ _) t.isLt)).2.2.2.1 (ix2 u q) + (fun t : Fin cfg2.N => colsum (Zt2 V c t) q) t := by
  rw [outsAt2_C V c t h0 h1]
  refine (congrFun (piece2_C_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 u q)).trans ?_
  rw [k2_s_apply]
  rfl
/-- After point n the sum accumulator holds the running total of the blocks' column sums. -/
theorem outs2_s (c : Dev nD) : ∀ (n : ℕ) (hn : n < cfg2.N) (u : Fin 1) (q : Fin 128),
    (outsAt2 V c n hn).2.2.2.1 (ix2 u q) = QLin.acc (QLin.ext (fun t : Fin cfg2.N => colsum (Zt2 V c t) q)) n := by
  intro n
  induction n with
  | zero =>
    intro hn u q
    rw [QLin.acc_zero, show QLin.ext (fun t : Fin cfg2.N => colsum (Zt2 V c t) q) 0 = (fun t : Fin cfg2.N => colsum (Zt2 V c t) q) ⟨0, hn⟩ from QLin.ext_val (fun t : Fin cfg2.N => colsum (Zt2 V c t) q) ⟨0, hn⟩]
    exact step2_s_A V c ⟨0, hn⟩ (Nat.zero_mod _) (by show ¬0 % 20 = 19; decide) u q
  | succ n ih =>
    intro hn u q
    have hN : n + 1 < 20 := lt_of_lt_of_eq hn (show cfg2.N = 20 from N_2)
    have h0 : ¬(n + 1) % 20 = 0 := by omega
    rw [QLin.acc_succ, ← ih (Nat.lt_of_succ_lt hn) u q, show QLin.ext (fun t : Fin cfg2.N => colsum (Zt2 V c t) q) (n + 1) = (fun t : Fin cfg2.N => colsum (Zt2 V c t) q) ⟨n + 1, hn⟩ from QLin.ext_val (fun t : Fin cfg2.N => colsum (Zt2 V c t) q) ⟨n + 1, hn⟩]
    by_cases h1 : (n + 1) % 20 = 19
    · exact step2_s_C V c ⟨n + 1, hn⟩ h0 h1 u q
    · exact step2_s_B V c ⟨n + 1, hn⟩ h0 h1 u q

/-- At a point of each case the sum-of-squares accumulator ends at what the point found plus the block's column sums. -/
theorem step2_q_A (c : Dev nD) (t : Fin cfg2.N) (h0 : t.val % 20 = 0) (h1 : ¬t.val % 20 = 19) (u : Fin 1) (q : Fin 128) :
    (outsAt2 V c t.val t.isLt).2.2.2.2 (ix2 u q) = 0 + (fun t : Fin cfg2.N => colsum (fun i => Zt2 V c t i * Zt2 V c t i) q) t := by
  rw [outsAt2_A V c t h0 h1]
  refine (congrFun (piece2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) (ix2 u q)).trans ?_
  rw [k2_q_apply, k2_z1_apply]
  rfl
theorem step2_q_B (c : Dev nD) (t : Fin cfg2.N) (h0 : ¬t.val % 20 = 0) (h1 : ¬t.val % 20 = 19) (u : Fin 1) (q : Fin 128) :
    (outsAt2 V c t.val t.isLt).2.2.2.2 (ix2 u q) = (outsAt2 V c (t.val - 1) (Nat.lt_of_le_of_lt (Nat.sub_le _ _) t.isLt)).2.2.2.2 (ix2 u q) + (fun t : Fin cfg2.N => colsum (fun i => Zt2 V c t i * Zt2 V c t i) q) t := by
  rw [outsAt2_B V c t h0 h1]
  refine (congrFun (piece2_B_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 u q)).trans ?_
  rw [k2_q_apply]
  rfl
theorem step2_q_C (c : Dev nD) (t : Fin cfg2.N) (h0 : ¬t.val % 20 = 0) (h1 : t.val % 20 = 19) (u : Fin 1) (q : Fin 128) :
    (outsAt2 V c t.val t.isLt).2.2.2.2 (ix2 u q) = (outsAt2 V c (t.val - 1) (Nat.lt_of_le_of_lt (Nat.sub_le _ _) t.isLt)).2.2.2.2 (ix2 u q) + (fun t : Fin cfg2.N => colsum (fun i => Zt2 V c t i * Zt2 V c t i) q) t := by
  rw [outsAt2_C V c t h0 h1]
  refine (congrFun (piece2_C_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 u q)).trans ?_
  rw [k2_q_apply]
  rfl
/-- After point n the sum-of-squares accumulator holds the running total of the blocks' column sums. -/
theorem outs2_q (c : Dev nD) : ∀ (n : ℕ) (hn : n < cfg2.N) (u : Fin 1) (q : Fin 128),
    (outsAt2 V c n hn).2.2.2.2 (ix2 u q) = QLin.acc (QLin.ext (fun t : Fin cfg2.N => colsum (fun i => Zt2 V c t i * Zt2 V c t i) q)) n := by
  intro n
  induction n with
  | zero =>
    intro hn u q
    rw [QLin.acc_zero, show QLin.ext (fun t : Fin cfg2.N => colsum (fun i => Zt2 V c t i * Zt2 V c t i) q) 0 = (fun t : Fin cfg2.N => colsum (fun i => Zt2 V c t i * Zt2 V c t i) q) ⟨0, hn⟩ from QLin.ext_val (fun t : Fin cfg2.N => colsum (fun i => Zt2 V c t i * Zt2 V c t i) q) ⟨0, hn⟩]
    exact step2_q_A V c ⟨0, hn⟩ (Nat.zero_mod _) (by show ¬0 % 20 = 19; decide) u q
  | succ n ih =>
    intro hn u q
    have hN : n + 1 < 20 := lt_of_lt_of_eq hn (show cfg2.N = 20 from N_2)
    have h0 : ¬(n + 1) % 20 = 0 := by omega
    rw [QLin.acc_succ, ← ih (Nat.lt_of_succ_lt hn) u q, show QLin.ext (fun t : Fin cfg2.N => colsum (fun i => Zt2 V c t i * Zt2 V c t i) q) (n + 1) = (fun t : Fin cfg2.N => colsum (fun i => Zt2 V c t i * Zt2 V c t i) q) ⟨n + 1, hn⟩ from QLin.ext_val (fun t : Fin cfg2.N => colsum (fun i => Zt2 V c t i * Zt2 V c t i) q) ⟨n + 1, hn⟩]
    by_cases h1 : (n + 1) % 20 = 19
    · exact step2_q_C V c ⟨n + 1, hn⟩ h0 h1 u q
    · exact step2_q_B V c ⟨n + 1, hn⟩ h0 h1 u q

end Cert.KernelIdeal.Val

end
-- ==== Proof.KV.MlpFin2.lean ====
import proofs.«158753_j48954037240335_1_alg».proof.Proof.KV.MlpVal2
import proofs.«158753_j48954037240335_1_alg».proof.Proof.KV.MlpFin0
import Idealize.ShloMosaic.Lib.ValueIdx

/-! The perceptron-and-statistics kernel of pipeline 2, its three output arrays after the region: z is the perceptron of
    x + a row by row (point t writes rows 5000 t … 5000 t + 4999); the two statistics rows, written back at the last point
    only, hold for each column the sum over all 100000 rows of z, and of z². -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_factsM2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

def rowOfT2 (t : Fin cfg2.N) (p : Fin 5000) : Fin 100000 := ⟨t.val * 5000 + p.val, by
  have ht : t.val < 20 := lt_of_lt_of_eq t.isLt (show cfg2.N = 20 from N_2); have := p.isLt; omega⟩

theorem embM2_0 (t : Fin cfg2.N) (a : Fin 5000) (b : Fin 128) :
    ((cfg2.win 0).blk t).view.emb (ix2 a b) = ix2 (rowOfT2 t a) b := by
  obtain ⟨e00, e01, e10, e11, e20, e21, e30, e31, e40, e41, e50, e51, e60, e61, e70, e71, e80, e81⟩ := idx_factsM2 t
  funext ax; apply Fin.ext
  match ax with
  | ⟨0, _⟩ => show win2_0.index t (0 : Fin 2) * 5000 + 1 * a.val = t.val * 5000 + a.val; omega
  | ⟨1, _⟩ => show win2_0.index t (1 : Fin 2) * 128 + 1 * b.val = b.val; omega
theorem iblkM2_0 (c : Dev nD) (t : Fin cfg2.N) (a : Fin 5000) (b : Fin 128) :
    iblk2 V c 0 t (ix2 a b) = rdm (S := S100000x128) (V c main_v31) (ix2 (rowOfT2 t a) b) := by
  show rdm (S := S100000x128) (V c main_v31) (((cfg2.win 0).blk t).view.emb (ix2 a b)) = _
  rw [embM2_0]
theorem embM2_1 (t : Fin cfg2.N) (a : Fin 5000) (b : Fin 128) :
    ((cfg2.win 1).blk t).view.emb (ix2 a b) = ix2 (rowOfT2 t a) b := by
  obtain ⟨e00, e01, e10, e11, e20, e21, e30, e31, e40, e41, e50, e51, e60, e61, e70, e71, e80, e81⟩ := idx_factsM2 t
  funext ax; apply Fin.ext
  match ax with
  | ⟨0, _⟩ => show win2_1.index t (0 : Fin 2) * 5000 + 1 * a.val = t.val * 5000 + a.val; omega
  | ⟨1, _⟩ => show win2_1.index t (1 : Fin 2) * 128 + 1 * b.val = b.val; omega
theorem iblkM2_1 (c : Dev nD) (t : Fin cfg2.N) (a : Fin 5000) (b : Fin 128) :
    iblk2 V c 1 t (ix2 a b) = rdm (S := S100000x128) (V c main_v41) (ix2 (rowOfT2 t a) b) := by
  show rdm (S := S100000x128) (V c main_v41) (((cfg2.win 1).blk t).view.emb (ix2 a b)) = _
  rw [embM2_1]
theorem embM2_2 (t : Fin cfg2.N) (a : Fin 128) (b : Fin 128) :
    ((cfg2.win 2).blk t).view.emb (ix2 a b) = ix2 a b := by
  obtain ⟨e00, e01, e10, e11, e20, e21, e30, e31, e40, e41, e50, e51, e60, e61, e70, e71, e80, e81⟩ := idx_factsM2 t
  funext ax; apply Fin.ext
  match ax with
  | ⟨0, _⟩ => show win2_2.index t (0 : Fin 2) * 128 + 1 * a.val = a.val; omega
  | ⟨1, _⟩ => show win2_2.index t (1 : Fin 2) * 128 + 1 * b.val = b.val; omega
theorem iblkM2_2 (c : Dev nD) (t : Fin cfg2.N) (a : Fin 128) (b : Fin 128) :
    iblk2 V c 2 t (ix2 a b) = rdm (S := S128x128) (V c main_arg8) (ix2 a b) := by
  show rdm (S := S128x128) (V c main_arg8) (((cfg2.win 2).blk t).view.emb (ix2 a b)) = _
  rw [embM2_2]
theorem embM2_3 (t : Fin cfg2.N) (a : Fin 1) (b : Fin 128) :
    ((cfg2.win 3).blk t).view.emb (ix2 a b) = ix2 a b := by
  obtain ⟨e00, e01, e10, e11, e20, e21, e30, e31, e40, e41, e50, e51, e60, e61, e70, e71, e80, e81⟩ := idx_factsM2 t
  funext ax; apply Fin.ext
  match ax with
  | ⟨0, _⟩ => show win2_3.index t (0 : Fin 2) * 1 + 1 * a.val = a.val; omega
  | ⟨1, _⟩ => show win2_3.index t (1 : Fin 2) * 128 + 1 * b.val = b.val; omega
theorem iblkM2_3 (c : Dev nD) (t : Fin cfg2.N) (a : Fin 1) (b : Fin 128) :
    iblk2 V c 3 t (ix2 a b) = rdm (S := S1x128) (V c main_v42) (ix2 a b) := by
  show rdm (S := S1x128) (V c main_v42) (((cfg2.win 3).blk t).view.emb (ix2 a b)) = _
  rw [embM2_3]
theorem embM2_4 (t : Fin cfg2.N) (a : Fin 128) (b : Fin 128) :
    ((cfg2.win 4).blk t).view.emb (ix2 a b) = ix2 a b := by
  obtain ⟨e00, e01, e10, e11, e20, e21, e30, e31, e40, e41, e50, e51, e60, e61, e70, e71, e80, e81⟩ := idx_factsM2 t
  funext ax; apply Fin.ext
  match ax with
  | ⟨0, _⟩ => show win2_4.index t (0 : Fin 2) * 128 + 1 * a.val = a.val; omega
  | ⟨1, _⟩ => show win2_4.index t (1 : Fin 2) * 128 + 1 * b.val = b.val; omega
theorem iblkM2_4 (c : Dev nD) (t : Fin cfg2.N) (a : Fin 128) (b : Fin 128) :
    iblk2 V c 4 t (ix2 a b) = rdm (S := S128x128) (V c main_arg10) (ix2 a b) := by
  show rdm (S := S128x128) (V c main_arg10) (((cfg2.win 4).blk t).view.emb (ix2 a b)) = _
  rw [embM2_4]
theorem embM2_5 (t : Fin cfg2.N) (a : Fin 1) (b : Fin 128) :
    ((cfg2.win 5).blk t).view.emb (ix2 a b) = ix2 a b := by
  obtain ⟨e00, e01, e10, e11, e20, e21, e30, e31, e40, e41, e50, e51, e60, e61, e70, e71, e80, e81⟩ := idx_factsM2 t
  funext ax; apply Fin.ext
  match ax with
  | ⟨0, _⟩ => show win2_5.index t (0 : Fin 2) * 1 + 1 * a.val = a.val; omega
  | ⟨1, _⟩ => show win2_5.index t (1 : Fin 2) * 128 + 1 * b.val = b.val; omega
theorem iblkM2_5 (c : Dev nD) (t : Fin cfg2.N) (a : Fin 1) (b : Fin 128) :
    iblk2 V c 5 t (ix2 a b) = rdm (S := S1x128) (V c main_v43) (ix2 a b) := by
  show rdm (S := S1x128) (V c main_v43) (((cfg2.win 5).blk t).view.emb (ix2 a b)) = _
  rw [embM2_5]
theorem embM2_6 (t : Fin cfg2.N) (a : Fin 5000) (b : Fin 128) :
    ((cfg2.win 6).blk t).view.emb (ix2 a b) = ix2 (rowOfT2 t a) b := by
  obtain ⟨e00, e01, e10, e11, e20, e21, e30, e31, e40, e41, e50, e51, e60, e61, e70, e71, e80, e81⟩ := idx_factsM2 t
  funext ax; apply Fin.ext
  match ax with
  | ⟨0, _⟩ => show win2_6.index t (0 : Fin 2) * 5000 + 1 * a.val = t.val * 5000 + a.val; omega
  | ⟨1, _⟩ => show win2_6.index t (1 : Fin 2) * 128 + 1 * b.val = b.val; omega
theorem embM2_7 (t : Fin cfg2.N) (a : Fin 1) (b : Fin 128) :
    ((cfg2.win 7).blk t).view.emb (ix2 a b) = ix2 a b := by
  obtain ⟨e00, e01, e10, e11, e20, e21, e30, e31, e40, e41, e50, e51, e60, e61, e70, e71, e80, e81⟩ := idx_factsM2 t
  funext ax; apply Fin.ext
  match ax with
  | ⟨0, _⟩ => show win2_7.index t (0 : Fin 2) * 1 + 1 * a.val = a.val; omega
  | ⟨1, _⟩ => show win2_7.index t (1 : Fin 2) * 128 + 1 * b.val = b.val; omega
theorem embM2_8 (t : Fin cfg2.N) (a : Fin 1) (b : Fin 128) :
    ((cfg2.win 8).blk t).view.emb (ix2 a b) = ix2 a b := by
  obtain ⟨e00, e01, e10, e11, e20, e21, e30, e31, e40, e41, e50, e51, e60, e61, e70, e71, e80, e81⟩ := idx_factsM2 t
  funext ax; apply Fin.ext
  match ax with
  | ⟨0, _⟩ => show win2_8.index t (0 : Fin 2) * 1 + 1 * a.val = a.val; omega
  | ⟨1, _⟩ => show win2_8.index t (1 : Fin 2) * 128 + 1 * b.val = b.val; omega

/-- Entry (p, q) of the block point t computes is entry (5000 t + p, q) of the perceptron over the whole arrays. -/
theorem Zt2_apply (c : Dev nD) (t : Fin cfg2.N) (p : Fin 5000) (q : Fin 128) :
    Zt2 V c t (ix2 p q) = zfull (V c main_v31) (V c main_v41) (V c main_arg8) (V c main_v42) (V c main_arg10) (V c main_v43) (rowOfT2 t p) q := by
  unfold Zt2
  rw [k2_z_apply]
  unfold zrow zfull
  simp only [iblkM2_0, iblkM2_1, iblkM2_2, iblkM2_3, iblkM2_4, iblkM2_5]

theorem flushed2_6_eq (c : Dev nD) (t : Fin cfg2.N) :
    (dat2 V c).flushed 6 t = ((cfg2.win 6).blk t).view.read (Elt Ideal) (GZ (V c main_v31) (V c main_v41) (V c main_arg8) (V c main_v42) (V c main_arg10) (V c main_v43)) := by
  show (cfg2.win 6).cut (grid2.coords t) ((dat2 V c).after 6 t) = _
  rw [after2_6, outs2_z]
  funext j
  obtain ⟨p, q, rfl⟩ : ∃ (p : Fin 5000) (q : Fin 128), j = ix2 p q := ⟨j 0, j 1, eq_ix2 j⟩
  refine (Zt2_apply V c t p q).trans ?_
  show _ = GZ (V c main_v31) (V c main_v41) (V c main_arg8) (V c main_v42) (V c main_arg10) (V c main_v43) (((cfg2.win 6).blk t).view.emb (ix2 p q))
  rw [embM2_6]
  rfl

theorem mem_blk2_6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v44_0).slice (win2_6.rect t)).set ↔ _
  rw [View.set_slice_whole, Rect.mem_set_unit]
  exact Iff.rfl

theorem cover2_6 (i : S100000x128.Idx) : ∃ t : Fin cfg2.N, (cfg2.win 6).flush t = true ∧ i ∈ ((cfg2.win 6).blk t).view.set := by
  have hi0 : (i 0).val < 100000 := idx2_lt0 i
  have hi1 : (i 1).val < 128 := idx2_lt1 i
  have hN : cfg2.N = 20 := N_2
  let t : Fin cfg2.N := ⟨(i 0).val / 5000, by rw [hN]; omega⟩
  obtain ⟨e00, e01, e10, e11, e20, e21, e30, e31, e40, e41, e50, e51, e60, e61, e70, e71, e80, e81⟩ := idx_factsM2 t
  have ht : t.val = (i 0).val / 5000 := rfl
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- THE z ARRAY after the region. -/
theorem final2_6 (c : Dev nD) : (dat2 V c).arrAt 6 cfg2.N = GZ (V c main_v31) (V c main_v41) (V c main_arg8) (V c main_v42) (V c main_arg10) (V c main_v43) :=
  (dat2 V c).arrAt_eq_of_cover 6 _ (fun t _ => flushed2_6_eq V c t) (cover2_6)

/-- At the last point the statistics window 7's buffer receives the accumulator's final contents. -/
theorem last2_7 (c : Dev nD) (t : Fin cfg2.N) (h1 : t.val % 20 = 19) :
    (outsAt2 V c t.val t.isLt).2.1 = (outsAt2 V c t.val t.isLt).2.2.2.1 := by
  have hN : t.val < 20 := lt_of_lt_of_eq t.isLt (show cfg2.N = 20 from N_2)
  have h0 : ¬t.val % 20 = 0 := by omega
  rw [outsAt2_C V c t h0 h1]
  exact (piece2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans (piece2_C_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm
/-- The column totals: what window 7's one row ends holding. -/
def G2_7 (c : Dev nD) : S1x128.Idx → EReal := fun i => ∑ k : Fin cfg2.N, (fun t : Fin cfg2.N => colsum (Zt2 V c t) (colOfR i)) k
theorem flushed2_7_eq (c : Dev nD) (t : Fin cfg2.N) (hf : (cfg2.win 7).flush t = true) :
    (dat2 V c).flushed 7 t = ((cfg2.win 7).blk t).view.read (Elt Ideal) (G2_7 V c) := by
  have h1 : t.val % 20 = 19 := (flush2_7 t).mp hf
  have hN : t.val < 20 := lt_of_lt_of_eq t.isLt (show cfg2.N = 20 from N_2)
  have ht : t.val = 19 := by omega
  show (cfg2.win 7).cut (grid2.coords t) ((dat2 V c).after 7 t) = _
  rw [after2_7, last2_7 V c t h1]
  funext j
  obtain ⟨u, q, rfl⟩ : ∃ (u : Fin 1) (q : Fin 128), j = ix2 u q := ⟨j 0, j 1, eq_ix2 j⟩
  refine (outs2_s V c t.val t.isLt u q).trans ?_
  show _ = G2_7 V c (((cfg2.win 7).blk t).view.emb (ix2 u q))
  rw [embM2_7, ht]
  exact QLin.acc_ext_last (n := 19) (fun t : Fin cfg2.N => colsum (Zt2 V c t) q)
theorem mem_blk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v44_1).slice (win2_7.rect t)).set ↔ _
  rw [View.set_slice_whole, Rect.mem_set_unit]
  exact Iff.rfl
theorem cover2_7 (i : S1x128.Idx) : ∃ t : Fin cfg2.N, (cfg2.win 7).flush t = true ∧ i ∈ ((cfg2.win 7).blk t).view.set := by
  have hi0 : (i 0).val < 1 := idx2_lt0 i
  have hi1 : (i 1).val < 128 := idx2_lt1 i
  have hN : cfg2.N = 20 := N_2
  let t : Fin cfg2.N := ⟨19, by rw [hN]; omega⟩
  obtain ⟨e00, e01, e10, e11, e20, e21, e30, e31, e40, e41, e50, e51, e60, e61, e70, e71, e80, e81⟩ := idx_factsM2 t
  refine ⟨t, (flush2_7 t).mpr rfl, ?_⟩
  rw [mem_blk2_7]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 128 ≤ (i 1).val ∧ (i 1).val < win2_7.index t (1 : Fin 2) * 128 + 128; omega
theorem final2_7 (c : Dev nD) : (dat2 V c).arrAt 7 cfg2.N = G2_7 V c :=
  (dat2 V c).arrAt_eq_of_cover 7 _ (fun t hf => flushed2_7_eq V c t hf) (cover2_7)

/-- At the last point the statistics window 8's buffer receives the accumulator's final contents. -/
theorem last2_8 (c : Dev nD) (t : Fin cfg2.N) (h1 : t.val % 20 = 19) :
    (outsAt2 V c t.val t.isLt).2.2.1 = (outsAt2 V c t.val t.isLt).2.2.2.2 := by
  have hN : t.val < 20 := lt_of_lt_of_eq t.isLt (show cfg2.N = 20 from N_2)
  have h0 : ¬t.val % 20 = 0 := by omega
  rw [outsAt2_C V c t h0 h1]
  exact (piece2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans (piece2_C_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm
/-- The column totals: what window 8's one row ends holding. -/
def G2_8 (c : Dev nD) : S1x128.Idx → EReal := fun i => ∑ k : Fin cfg2.N, (fun t : Fin cfg2.N => colsum (fun i => Zt2 V c t i * Zt2 V c t i) (colOfR i)) k
theorem flushed2_8_eq (c : Dev nD) (t : Fin cfg2.N) (hf : (cfg2.win 8).flush t = true) :
    (dat2 V c).flushed 8 t = ((cfg2.win 8).blk t).view.read (Elt Ideal) (G2_8 V c) := by
  have h1 : t.val % 20 = 19 := (flush2_8 t).mp hf
  have hN : t.val < 20 := lt_of_lt_of_eq t.isLt (show cfg2.N = 20 from N_2)
  have ht : t.val = 19 := by omega
  show (cfg2.win 8).cut (grid2.coords t) ((dat2 V c).after 8 t) = _
  rw [after2_8, last2_8 V c t h1]
  funext j
  obtain ⟨u, q, rfl⟩ : ∃ (u : Fin 1) (q : Fin 128), j = ix2 u q := ⟨j 0, j 1, eq_ix2 j⟩
  refine (outs2_q V c t.val t.isLt u q).trans ?_
  show _ = G2_8 V c (((cfg2.win 8).blk t).view.emb (ix2 u q))
  rw [embM2_8, ht]
  exact QLin.acc_ext_last (n := 19) (fun t : Fin cfg2.N => colsum (fun i => Zt2 V c t i * Zt2 V c t i) q)
theorem mem_blk2_8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v44_2).slice (win2_8.rect t)).set ↔ _
  rw [View.set_slice_whole, Rect.mem_set_unit]
  exact Iff.rfl
theorem cover2_8 (i : S1x128.Idx) : ∃ t : Fin cfg2.N, (cfg2.win 8).flush t = true ∧ i ∈ ((cfg2.win 8).blk t).view.set := by
  have hi0 : (i 0).val < 1 := idx2_lt0 i
  have hi1 : (i 1).val < 128 := idx2_lt1 i
  have hN : cfg2.N = 20 := N_2
  let t : Fin cfg2.N := ⟨19, by rw [hN]; omega⟩
  obtain ⟨e00, e01, e10, e11, e20, e21, e30, e31, e40, e41, e50, e51, e60, e61, e70, e71, e80, e81⟩ := idx_factsM2 t
  refine ⟨t, (flush2_8 t).mpr rfl, ?_⟩
  rw [mem_blk2_8]
  intro a
  match a with
  | ⟨0, _⟩ => show win2_8.index t (0 : Fin 2) * 1 ≤ (i 0).val ∧ (i 0).val < win2_8.index t (0 : Fin 2) * 1 + 1; omega
  | ⟨1, _⟩ => show win2_8.index t (1 : Fin 2) * 128 ≤ (i 1).val ∧ (i 1).val < win2_8.index t (1 : Fin 2) * 128 + 128; omega
theorem final2_8 (c : Dev nD) : (dat2 V c).arrAt 8 cfg2.N = G2_8 V c :=
  (dat2 V c).arrAt_eq_of_cover 8 _ (fun t hf => flushed2_8_eq V c t hf) (cover2_8)

/-- The column totals over the twenty blocks are the sums over all rows of the z array. -/
theorem G2_7_apply (c : Dev nD) (u : Fin 1) (q : Fin 128) :
    G2_7 V c (ix2 u q) = ∑ p : Fin 100000, zfull (V c main_v31) (V c main_v41) (V c main_arg8) (V c main_v42) (V c main_arg10) (V c main_v43) p q := by
  unfold G2_7 colsum
  simp only [Zt2_apply]
  exact sum_rows (fun p => zfull (V c main_v31) (V c main_v41) (V c main_arg8) (V c main_v42) (V c main_arg10) (V c main_v43) p q)
theorem G2_8_apply (c : Dev nD) (u : Fin 1) (q : Fin 128) :
    G2_8 V c (ix2 u q) = ∑ p : Fin 100000, zfull (V c main_v31) (V c main_v41) (V c main_arg8) (V c main_v42) (V c main_arg10) (V c main_v43) p q * zfull (V c main_v31) (V c main_v41) (V c main_arg8) (V c main_v42) (V c main_arg10) (V c main_v43) p q := by
  unfold G2_8 colsum
  simp only [Zt2_apply]
  exact sum_rows (fun p => zfull (V c main_v31) (V c main_v41) (V c main_arg8) (V c main_v42) (V c main_arg10) (V c main_v43) p q * zfull (V c main_v31) (V c main_v41) (V c main_arg8) (V c main_v42) (V c main_arg10) (V c main_v43) p q)

end Cert.KernelIdeal.Val

end
-- ==== Proof.KV.BnVal1.lean ====
import proofs.«158753_j48954037240335_1_alg».proof.Proof.KI.Bn1
import Idealize.ShloMosaic.Lib.ValueIdx
import Idealize.ShloMosaic.Lib.ValueLayout
import Idealize.ShloMosaic.Lib.Pipeline.Value
import Idealize.ShloMosaic.PureOps.Ideal.Laws

/-! The affine-and-clamp kernel of pipeline 1 on the extended reals: its output array after the region is, entry by
    entry, max (z · scale + shift) 0 with the scale and the shift read at the entry's column. Point t writes rows
    5000 t … 5000 t + 4999, and the twenty blocks cover the array. -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- An array's contents as a function on its indices. -/
abbrev rd1 {S : Shape} (f : S.Idx → EReal) : S.Idx → EReal := f

/-- The column of an entry of the 100000 × 128 array, as a literal-size coordinate. -/
abbrev colOf1 (i : S100000x128.Idx) : Fin 128 := ⟨(i 1).val, idx2_lt1 i⟩

/-- What the output array ends holding, as one function of the three arrays the kernel reads. -/
def G1 (z : S100000x128.Idx → EReal) (s h : S1x128.Idx → EReal) : S100000x128.Idx → EReal :=
  fun i => max (z i * s (ix2 (0 : Fin 1) (colOf1 i)) + h (ix2 (0 : Fin 1) (colOf1 i))) 0

theorem bn_zero1 : (Scalar.ofBits (F := Ideal) .f32 0x00000000#32 : EReal) = 0 := Ideal.ofBits_zero_f32

/-- The body's payload, entry (p, q) of the block. -/
theorem pay1_apply (x : Vec Ideal S5000x128 .f32) (s h : Vec Ideal S1x128 .f32) (p : Fin 5000) (q : Fin 128) :
    k1_pay1 (F := Ideal) x s h (ix2 p q) = max (x (ix2 p q) * s (ix2 (0 : Fin 1) q) + h (ix2 (0 : Fin 1) q)) 0 := by
  unfold k1_pay1
  simp only [maximumf_apply, addf_apply, mulf_apply, broadcast_apply, broadcastTo_1b_ab_apply, shapeCast_self, bn_zero1]

/-- The printed index maps over the grid: the row windows move with the point, the two row vectors stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 5000 t + p of the array. -/
def rowOf1 (t : Fin cfg1.N) (p : Fin 5000) : Fin 100000 := ⟨t.val * 5000 + p.val, by
  have ht : t.val < 20 := lt_of_lt_of_eq t.isLt (show cfg1.N = 20 from N_1); have := p.isLt; omega⟩

theorem emb1_0 (t : Fin cfg1.N) (p : Fin 5000) (q : Fin 128) :
    ((cfg1.win 0).blk t).view.emb (ix2 p q) = ix2 (rowOf1 t p) q := by
  obtain ⟨e0, e1, e2, e3, e4, e5, e6, e7⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega
theorem emb1_3 (t : Fin cfg1.N) (p : Fin 5000) (q : Fin 128) :
    ((cfg1.win 3).blk t).view.emb (ix2 p q) = ix2 (rowOf1 t p) q := by
  obtain ⟨e0, e1, e2, e3, e4, e5, e6, e7⟩ := idx_facts1 t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega
theorem emb1_1 (t : Fin cfg1.N) (u : Fin 1) (q : Fin 128) :
    ((cfg1.win 1).blk t).view.emb (ix2 u q) = ix2 u q := by
  obtain ⟨e0, e1, e2, e3, e4, e5, e6, e7⟩ := idx_facts1 t
  funext a; apply Fin.ext
  match a with
  | ⟨0, _⟩ => show win1_1.index t (0 : Fin 2) * 1 + 1 * u.val = u.val; omega
  | ⟨1, _⟩ => show win1_1.index t (1 : Fin 2) * 128 + 1 * q.val = q.val; omega
theorem emb1_2 (t : Fin cfg1.N) (u : Fin 1) (q : Fin 128) :
    ((cfg1.win 2).blk t).view.emb (ix2 u q) = ix2 u q := by
  obtain ⟨e0, e1, e2, e3, e4, e5, e6, e7⟩ := idx_facts1 t
  funext a; apply Fin.ext
  match a with
  | ⟨0, _⟩ => show win1_2.index t (0 : Fin 2) * 1 + 1 * u.val = u.val; omega
  | ⟨1, _⟩ => show win1_2.index t (1 : Fin 2) * 128 + 1 * q.val = q.val; omega

/-- What point t writes back is block t of G1 of the arrays as the region finds them. -/
theorem flushed1_eq (c : Dev nD) (t : Fin cfg1.N) :
    (dat1 V c).flushed 3 t = ((cfg1.win 3).blk t).view.read (Elt Ideal) (G1 (V c main_v16_0) (V c main_v27) (V c main_v30)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1]
  funext j
  obtain ⟨p, q, rfl⟩ : ∃ (p : Fin 5000) (q : Fin 128), j = ix2 p q := ⟨j 0, j 1, eq_ix2 j⟩
  refine (pay1_apply _ _ _ p q).trans ?_
  show max (rd1 (S := S100000x128) (V c main_v16_0) (((cfg1.win 0).blk t).view.emb (ix2 p q)) * rd1 (S := S1x128) (V c main_v27) (((cfg1.win 1).blk t).view.emb (ix2 (0 : Fin 1) q))
      + rd1 (S := S1x128) (V c main_v30) (((cfg1.win 2).blk t).view.emb (ix2 (0 : Fin 1) q))) 0
    = G1 (V c main_v16_0) (V c main_v27) (V c main_v30) (((cfg1.win 3).blk t).view.emb (ix2 p q))
  rw [emb1_0, emb1_1, emb1_2, emb1_3]
  rfl

theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v31).slice (win1_3.rect t)).set ↔ _
  rw [View.set_slice_whole, Rect.mem_set_unit]
  exact Iff.rfl

/-- Every entry of the array is in the block of the point its row falls in. -/
theorem cover1 (i : S100000x128.Idx) : ∃ t : Fin cfg1.N, (cfg1.win 3).flush t = true ∧ i ∈ ((cfg1.win 3).blk t).view.set := by
  have hi0 : (i 0).val < 100000 := idx2_lt0 i
  have hi1 : (i 1).val < 128 := idx2_lt1 i
  have hN : cfg1.N = 20 := N_1
  let t : Fin cfg1.N := ⟨(i 0).val / 5000, by rw [hN]; omega⟩
  obtain ⟨e0, e1, e2, e3, e4, e5, e6, e7⟩ := idx_facts1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY after the region. -/
theorem final1 (c : Dev nD) : (dat1 V c).arrAt 3 cfg1.N = G1 (V c main_v16_0) (V c main_v27) (V c main_v30) :=
  (dat1 V c).arrAt_eq_of_cover 3 _ (fun t _ => flushed1_eq V c t) (cover1)

end Cert.KernelIdeal.Val

end
-- ==== Proof.KV.BnVal3.lean ====
import proofs.«158753_j48954037240335_1_alg».proof.Proof.KI.Bn3
import Idealize.ShloMosaic.Lib.ValueIdx
import Idealize.ShloMosaic.Lib.ValueLayout
import Idealize.ShloMosaic.Lib.Pipeline.Value
import Idealize.ShloMosaic.PureOps.Ideal.Laws

/-! The affine-and-clamp kernel of pipeline 3 on the extended reals: its output array after the region is, entry by
    entry, max (z · scale + shift) 0 with the scale and the shift read at the entry's column. Point t writes rows
    5000 t … 5000 t + 4999, and the twenty blocks cover the array. -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- An array's contents as a function on its indices. -/
abbrev rd3 {S : Shape} (f : S.Idx → EReal) : S.Idx → EReal := f

/-- The column of an entry of the 100000 × 128 array, as a literal-size coordinate. -/
abbrev colOf3 (i : S100000x128.Idx) : Fin 128 := ⟨(i 1).val, idx2_lt1 i⟩

/-- What the output array ends holding, as one function of the three arrays the kernel reads. -/
def G3 (z : S100000x128.Idx → EReal) (s h : S1x128.Idx → EReal) : S100000x128.Idx → EReal :=
  fun i => max (z i * s (ix2 (0 : Fin 1) (colOf3 i)) + h (ix2 (0 : Fin 1) (colOf3 i))) 0

theorem bn_zero3 : (Scalar.ofBits (F := Ideal) .f32 0x00000000#32 : EReal) = 0 := Ideal.ofBits_zero_f32

/-- The body's payload, entry (p, q) of the block. -/
theorem pay3_apply (x : Vec Ideal S5000x128 .f32) (s h : Vec Ideal S1x128 .f32) (p : Fin 5000) (q : Fin 128) :
    k3_pay1 (F := Ideal) x s h (ix2 p q) = max (x (ix2 p q) * s (ix2 (0 : Fin 1) q) + h (ix2 (0 : Fin 1) q)) 0 := by
  unfold k3_pay1
  simp only [maximumf_apply, addf_apply, mulf_apply, broadcast_apply, broadcastTo_1b_ab_apply, shapeCast_self, bn_zero3]

/-- The printed index maps over the grid: the row windows move with the point, the two row vectors stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of point t's block is row 5000 t + p of the array. -/
def rowOf3 (t : Fin cfg3.N) (p : Fin 5000) : Fin 100000 := ⟨t.val * 5000 + p.val, by
  have ht : t.val < 20 := lt_of_lt_of_eq t.isLt (show cfg3.N = 20 from N_3); have := p.isLt; omega⟩

theorem emb3_0 (t : Fin cfg3.N) (p : Fin 5000) (q : Fin 128) :
    ((cfg3.win 0).blk t).view.emb (ix2 p q) = ix2 (rowOf3 t p) q := by
  obtain ⟨e0, e1, e2, e3, e4, e5, e6, e7⟩ := idx_facts3 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega
theorem emb3_3 (t : Fin cfg3.N) (p : Fin 5000) (q : Fin 128) :
    ((cfg3.win 3).blk t).view.emb (ix2 p q) = ix2 (rowOf3 t p) q := by
  obtain ⟨e0, e1, e2, e3, e4, e5, e6, e7⟩ := idx_facts3 t
  funext a; apply Fin.ext
  match a with
  | ⟨0, _⟩ => show win3_3.index t (0 : Fin 2) * 5000 + 1 * p.val = t.val * 5000 + p.val; omega
  | ⟨1, _⟩ => show win3_3.index t (1 : Fin 2) * 128 + 1 * q.val = q.val; omega
theorem emb3_1 (t : Fin cfg3.N) (u : Fin 1) (q : Fin 128) :
    ((cfg3.win 1).blk t).view.emb (ix2 u q) = ix2 u q := by
  obtain ⟨e0, e1, e2, e3, e4, e5, e6, e7⟩ := idx_facts3 t
  funext a; apply Fin.ext
  match a with
  | ⟨0, _⟩ => show win3_1.index t (0 : Fin 2) * 1 + 1 * u.val = u.val; omega
  | ⟨1, _⟩ => show win3_1.index t (1 : Fin 2) * 128 + 1 * q.val = q.val; omega
theorem emb3_2 (t : Fin cfg3.N) (u : Fin 1) (q : Fin 128) :
    ((cfg3.win 2).blk t).view.emb (ix2 u q) = ix2 u q := by
  obtain ⟨e0, e1, e2, e3, e4, e5, e6, e7⟩ := idx_facts3 t
  funext a; apply Fin.ext
  match a with
  | ⟨0, _⟩ => show win3_2.index t (0 : Fin 2) * 1 + 1 * u.val = u.val; omega
  | ⟨1, _⟩ => show win3_2.index t (1 : Fin 2) * 128 + 1 * q.val = q.val; omega

/-- What point t writes back is block t of G3 of the arrays as the region finds them. -/
theorem flushed3_eq (c : Dev nD) (t : Fin cfg3.N) :
    (dat3 V c).flushed 3 t = ((cfg3.win 3).blk t).view.read (Elt Ideal) (G3 (V c main_v44_0) (V c main_v55) (V c main_v58)) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S1x128) hz3]
  funext j
  obtain ⟨p, q, rfl⟩ : ∃ (p : Fin 5000) (q : Fin 128), j = ix2 p q := ⟨j 0, j 1, eq_ix2 j⟩
  refine (pay3_apply _ _ _ p q).trans ?_
  show max (rd3 (S := S100000x128) (V c main_v44_0) (((cfg3.win 0).blk t).view.emb (ix2 p q)) * rd3 (S := S1x128) (V c main_v55) (((cfg3.win 1).blk t).view.emb (ix2 (0 : Fin 1) q))
      + rd3 (S := S1x128) (V c main_v58) (((cfg3.win 2).blk t).view.emb (ix2 (0 : Fin 1) q))) 0
    = G3 (V c main_v44_0) (V c main_v55) (V c main_v58) (((cfg3.win 3).blk t).view.emb (ix2 p q))
  rw [emb3_0, emb3_1, emb3_2, emb3_3]
  rfl

theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v59).slice (win3_3.rect t)).set ↔ _
  rw [View.set_slice_whole, Rect.mem_set_unit]
  exact Iff.rfl

/-- Every entry of the array is in the block of the point its row falls in. -/
theorem cover3 (i : S100000x128.Idx) : ∃ t : Fin cfg3.N, (cfg3.win 3).flush t = true ∧ i ∈ ((cfg3.win 3).blk t).view.set := by
  have hi0 : (i 0).val < 100000 := idx2_lt0 i
  have hi1 : (i 1).val < 128 := idx2_lt1 i
  have hN : cfg3.N = 20 := N_3
  let t : Fin cfg3.N := ⟨(i 0).val / 5000, by rw [hN]; omega⟩
  obtain ⟨e0, e1, e2, e3, e4, e5, e6, e7⟩ := idx_facts3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE ARRAY after the region. -/
theorem final3 (c : Dev nD) : (dat3 V c).arrAt 3 cfg3.N = G3 (V c main_v44_0) (V c main_v55) (V c main_v58) :=
  (dat3 V c).arrAt_eq_of_cover 3 _ (fun t _ => flushed3_eq V c t) (cover3)

end Cert.KernelIdeal.Val

end
-- ==== Proof.KV.Chain.lean ====
import proofs.«158753_j48954037240335_1_alg».proof.Proof.KI.Run
import proofs.«158753_j48954037240335_1_alg».proof.Proof.KV.Layer
import proofs.«158753_j48954037240335_1_alg».proof.Proof.KV.MlpFin2
import proofs.«158753_j48954037240335_1_alg».proof.Proof.KV.BnVal1
import proofs.«158753_j48954037240335_1_alg».proof.Proof.KV.BnVal3

/-! The kernel's program read through its eight segments on the extended reals: the array the second region leaves is the
    folded layer of the arguments, and the result array is the folded layer of that array. -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first layer's output array: what the second region leaves. -/
def h1K (c : Dev nD) : S100000x128.Idx → EReal := W4 m ρ c (Proc.devRef .tc main_v31)
/-- The program's result array. -/
def outK (c : Dev nD) : S100000x128.Idx → EReal := W8 m ρ c (Proc.devRef .tc main_v59)

/-- The index vectors computed by the first host stretch are still there when the third one reads them. -/
theorem W4_v1 (c : Dev nD) : W4 m ρ c (Proc.devRef .tc main_v1) = srcIdx (m ((c : Thread nD τ).loc main_arg1)) :=
  (W4_keep m ρ c main_v1 (by decide)).trans <| (W3_keep m ρ c main_v1 (by decide)).trans <| (W2_keep m ρ c main_v1 (by decide)).trans (H0_v1 (W0 m ρ c))
theorem W4_v3 (c : Dev nD) : W4 m ρ c (Proc.devRef .tc main_v3) = dstIdx (m ((c : Thread nD τ).loc main_arg1)) :=
  (W4_keep m ρ c main_v3 (by decide)).trans <| (W3_keep m ρ c main_v3 (by decide)).trans <| (W2_keep m ρ c main_v3 (by decide)).trans (H0_v3 (W0 m ρ c))
/-- An argument is as launched at every boundary up to the sixth. -/
theorem W5_arg (c : Dev nD) (r : Ref sig .tc) (h0 : r ∉ hostOps0_W) (h1 : r ∉ ([main_v16_0, main_v16_1, main_v16_2] : List (Ref sig .tc))) (h2 : r ∉ hostOps1_W) (h3 : r ∉ ([main_v31] : List (Ref sig .tc))) (h4 : r ∉ hostOps2_W) :
    W5 m ρ c (Proc.devRef .tc r) = m ((c : Thread nD τ).loc r) :=
  (W5_keep m ρ c r h4).trans <| (W4_keep m ρ c r h3).trans <| (W3_keep m ρ c r h2).trans <| (W2_keep m ρ c r h1).trans <| (W1_keep m ρ c r h0).trans rfl
theorem W6_arg (c : Dev nD) (r : Ref sig .tc) (h0 : r ∉ hostOps0_W) (h1 : r ∉ ([main_v16_0, main_v16_1, main_v16_2] : List (Ref sig .tc))) (h2 : r ∉ hostOps1_W) (h3 : r ∉ ([main_v31] : List (Ref sig .tc))) (h4 : r ∉ hostOps2_W) (h5 : r ∉ ([main_v44_0, main_v44_1, main_v44_2] : List (Ref sig .tc))) :
    W6 m ρ c (Proc.devRef .tc r) = m ((c : Thread nD τ).loc r) :=
  (W6_keep m ρ c r h5).trans (W5_arg m ρ c r h0 h1 h2 h3 h4)
theorem W1_arg (c : Dev nD) (r : Ref sig .tc) (h0 : r ∉ hostOps0_W) : W1 m ρ c (Proc.devRef .tc r) = m ((c : Thread nD τ).loc r) :=
  (W1_keep m ρ c r h0).trans rfl
theorem W2_arg (c : Dev nD) (r : Ref sig .tc) (h0 : r ∉ hostOps0_W) (h1 : r ∉ ([main_v16_0, main_v16_1, main_v16_2] : List (Ref sig .tc))) : W2 m ρ c (Proc.devRef .tc r) = m ((c : Thread nD τ).loc r) :=
  (W2_keep m ρ c r h1).trans (W1_arg m ρ c r h0)

set_option maxHeartbeats 2000000 in
/-- LAYER 1. -/
theorem layer1 (c : Dev nD) (p : Fin 100000) (q : Fin 128) :
    h1K m ρ c (ix2 p q) = Cert.Spec.layerFolded (Ideal.ofBits .f32 0x47C35000#32) (Ideal.ofBits .f32 0x3727C5AC#32)
      (fun p q => rdm (S := S100000x128) (m ((c : Thread nD τ).loc main_arg0)) (ix2 p q)) (fun p q => aggK (m ((c : Thread nD τ).loc main_arg0)) (srcIdx (m ((c : Thread nD τ).loc main_arg1))) (dstIdx (m ((c : Thread nD τ).loc main_arg1))) (ix2 p q))
      (fun j k => rdm (S := S128x128) (m ((c : Thread nD τ).loc main_arg2)) (ix2 j k)) (fun k => rdm (S := S128) (m ((c : Thread nD τ).loc main_arg3)) (ix1 k)) (fun k q => rdm (S := S128x128) (m ((c : Thread nD τ).loc main_arg4)) (ix2 k q)) (fun q => rdm (S := S128) (m ((c : Thread nD τ).loc main_arg5)) (ix1 q))
      (fun q => rdm (S := S128) (m ((c : Thread nD τ).loc main_arg6)) (ix1 q)) (fun q => rdm (S := S128) (m ((c : Thread nD τ).loc main_arg7)) (ix1 q)) p q := by
  have e0 : V1 m ρ c main_arg0 = (m ((c : Thread nD τ).loc main_arg0)) := W1_arg m ρ c main_arg0 (by decide)
  have e2 : V1 m ρ c main_arg2 = (m ((c : Thread nD τ).loc main_arg2)) := W1_arg m ρ c main_arg2 (by decide)
  have e4 : V1 m ρ c main_arg4 = (m ((c : Thread nD τ).loc main_arg4)) := W1_arg m ρ c main_arg4 (by decide)
  have e13 : V1 m ρ c main_v13 = aggK (m ((c : Thread nD τ).loc main_arg0)) (srcIdx (m ((c : Thread nD τ).loc main_arg1))) (dstIdx (m ((c : Thread nD τ).loc main_arg1))) := H0_v13 (W0 m ρ c)
  have e14 : V1 m ρ c main_v14 = row (m ((c : Thread nD τ).loc main_arg3)) := H0_v14 (W0 m ρ c)
  have e15 : V1 m ρ c main_v15 = row (m ((c : Thread nD τ).loc main_arg5)) := H0_v15 (W0 m ρ c)
  have ez : V3 m ρ c main_v16_0 = GZ (m ((c : Thread nD τ).loc main_arg0)) (aggK (m ((c : Thread nD τ).loc main_arg0)) (srcIdx (m ((c : Thread nD τ).loc main_arg1))) (dstIdx (m ((c : Thread nD τ).loc main_arg1)))) (m ((c : Thread nD τ).loc main_arg2)) (row (m ((c : Thread nD τ).loc main_arg3))) (m ((c : Thread nD τ).loc main_arg4)) (row (m ((c : Thread nD τ).loc main_arg5))) := by
    refine (W3_keep m ρ c main_v16_0 (by decide)).trans ((W2_arr m ρ c 6).trans ((final0_6 (V1 m ρ) c).trans ?_))
    rw [e0, e2, e4, e13, e14, e15]
  have es : W2 m ρ c (Proc.devRef .tc main_v16_1) = G0_7 (V1 m ρ) c := (W2_arr m ρ c 7).trans (final0_7 (V1 m ρ) c)
  have ess : W2 m ρ c (Proc.devRef .tc main_v16_2) = G0_8 (V1 m ρ) c := (W2_arr m ρ c 8).trans (final0_8 (V1 m ρ) c)
  have e6 : W2 m ρ c (Proc.devRef .tc main_arg6) = (m ((c : Thread nD τ).loc main_arg6)) := W2_arg m ρ c main_arg6 (by decide) (by decide)
  have e7 : W2 m ρ c (Proc.devRef .tc main_arg7) = (m ((c : Thread nD τ).loc main_arg7)) := W2_arg m ρ c main_arg7 (by decide) (by decide)
  have esc : V3 m ρ c main_v27 = scaleOf (m ((c : Thread nD τ).loc main_arg6)) (G0_7 (V1 m ρ) c) (G0_8 (V1 m ρ) c) := by
    refine (H1_v27 (W2 m ρ c)).trans ?_; rw [e6, es, ess]
  have esh : V3 m ρ c main_v30 = shiftOf (m ((c : Thread nD τ).loc main_arg7)) (m ((c : Thread nD τ).loc main_arg6)) (G0_7 (V1 m ρ) c) (G0_8 (V1 m ρ) c) := by
    refine (H1_v30 (W2 m ρ c)).trans ?_; rw [e6, e7, es, ess]
  have hS : ∀ (u : Fin 1) (q : Fin 128), G0_7 (V1 m ρ) c (ix2 u q) = ∑ p : Fin 100000, zfull (m ((c : Thread nD τ).loc main_arg0)) (aggK (m ((c : Thread nD τ).loc main_arg0)) (srcIdx (m ((c : Thread nD τ).loc main_arg1))) (dstIdx (m ((c : Thread nD τ).loc main_arg1)))) (m ((c : Thread nD τ).loc main_arg2)) (row (m ((c : Thread nD τ).loc main_arg3))) (m ((c : Thread nD τ).loc main_arg4)) (row (m ((c : Thread nD τ).loc main_arg5))) p q := by
    intro u q; refine (G0_7_apply (V1 m ρ) c u q).trans ?_; rw [e0, e2, e4, e13, e14, e15]
  have hSS : ∀ (u : Fin 1) (q : Fin 128), G0_8 (V1 m ρ) c (ix2 u q) = ∑ p : Fin 100000, zfull (m ((c : Thread nD τ).loc main_arg0)) (aggK (m ((c : Thread nD τ).loc main_arg0)) (srcIdx (m ((c : Thread nD τ).loc main_arg1))) (dstIdx (m ((c : Thread nD τ).loc main_arg1)))) (m ((c : Thread nD τ).loc main_arg2)) (row (m ((c : Thread nD τ).loc main_arg3))) (m ((c : Thread nD τ).loc main_arg4)) (row (m ((c : Thread nD τ).loc main_arg5))) p q * zfull (m ((c : Thread nD τ).loc main_arg0)) (aggK (m ((c : Thread nD τ).loc main_arg0)) (srcIdx (m ((c : Thread nD τ).loc main_arg1))) (dstIdx (m ((c : Thread nD τ).loc main_arg1)))) (m ((c : Thread nD τ).loc main_arg2)) (row (m ((c : Thread nD τ).loc main_arg3))) (m ((c : Thread nD τ).loc main_arg4)) (row (m ((c : Thread nD τ).loc main_arg5))) p q := by
    intro u q; refine (G0_8_apply (V1 m ρ) c u q).trans ?_; rw [e0, e2, e4, e13, e14, e15]
  have e31 : h1K m ρ c = G1 (V3 m ρ c main_v16_0) (V3 m ρ c main_v27) (V3 m ρ c main_v30) := (W4_arr m ρ c 3).trans (final1 (V3 m ρ) c)
  rw [e31, ez, esc, esh]
  exact layer_fold _ _ _ _ _ _ _ _ _ _ hS hSS p q

set_option maxHeartbeats 2000000 in
/-- LAYER 2, over the first layer's output. -/
theorem layer2 (c : Dev nD) (p : Fin 100000) (q : Fin 128) :
    outK m ρ c (ix2 p q) = Cert.Spec.layerFolded (Ideal.ofBits .f32 0x47C35000#32) (Ideal.ofBits .f32 0x3727C5AC#32)
      (fun p q => h1K m ρ c (ix2 p q)) (fun p q => aggK (h1K m ρ c) (srcIdx (m ((c : Thread nD τ).loc main_arg1))) (dstIdx (m ((c : Thread nD τ).loc main_arg1))) (ix2 p q))
      (fun j k => rdm (S := S128x128) (m ((c : Thread nD τ).loc main_arg8)) (ix2 j k)) (fun k => rdm (S := S128) (m ((c : Thread nD τ).loc main_arg9)) (ix1 k)) (fun k q => rdm (S := S128x128) (m ((c : Thread nD τ).loc main_arg10)) (ix2 k q)) (fun q => rdm (S := S128) (m ((c : Thread nD τ).loc main_arg11)) (ix1 q))
      (fun q => rdm (S := S128) (m ((c : Thread nD τ).loc main_arg12)) (ix1 q)) (fun q => rdm (S := S128) (m ((c : Thread nD τ).loc main_arg13)) (ix1 q)) p q := by
  have e0 : V5 m ρ c main_v31 = h1K m ρ c := W5_keep m ρ c main_v31 (by decide)
  have e2 : V5 m ρ c main_arg8 = (m ((c : Thread nD τ).loc main_arg8)) := W5_arg m ρ c main_arg8 (by decide) (by decide) (by decide) (by decide) (by decide)
  have e4 : V5 m ρ c main_arg10 = (m ((c : Thread nD τ).loc main_arg10)) := W5_arg m ρ c main_arg10 (by decide) (by decide) (by decide) (by decide) (by decide)
  have e13 : V5 m ρ c main_v41 = aggK (h1K m ρ c) (srcIdx (m ((c : Thread nD τ).loc main_arg1))) (dstIdx (m ((c : Thread nD τ).loc main_arg1))) := by
    refine (H2_v41 (W4 m ρ c)).trans ?_; rw [W4_v1, W4_v3]; rfl
  have e14 : V5 m ρ c main_v42 = row (m ((c : Thread nD τ).loc main_arg9)) := by
    refine (H2_v42 (W4 m ρ c)).trans ?_
    rw [show W4 m ρ c (Proc.devRef .tc main_arg9) = (m ((c : Thread nD τ).loc main_arg9)) from (W4_keep m ρ c main_arg9 (by decide)).trans <| (W3_keep m ρ c main_arg9 (by decide)).trans (W2_arg m ρ c main_arg9 (by decide) (by decide))]
  have e15 : V5 m ρ c main_v43 = row (m ((c : Thread nD τ).loc main_arg11)) := by
    refine (H2_v43 (W4 m ρ c)).trans ?_
    rw [show W4 m ρ c (Proc.devRef .tc main_arg11) = (m ((c : Thread nD τ).loc main_arg11)) from (W4_keep m ρ c main_arg11 (by decide)).trans <| (W3_keep m ρ c main_arg11 (by decide)).trans (W2_arg m ρ c main_arg11 (by decide) (by decide))]
  have ez : V7 m ρ c main_v44_0 = GZ (h1K m ρ c) (aggK (h1K m ρ c) (srcIdx (m ((c : Thread nD τ).loc main_arg1))) (dstIdx (m ((c : Thread nD τ).loc main_arg1)))) (m ((c : Thread nD τ).loc main_arg8)) (row (m ((c : Thread nD τ).loc main_arg9))) (m ((c : Thread nD τ).loc main_arg10)) (row (m ((c : Thread nD τ).loc main_arg11))) := by
    refine (W7_keep m ρ c main_v44_0 (by decide)).trans ((W6_arr m ρ c 6).trans ((final2_6 (V5 m ρ) c).trans ?_))
    rw [e0, e2, e4, e13, e14, e15]
  have es : W6 m ρ c (Proc.devRef .tc main_v44_1) = G2_7 (V5 m ρ) c := (W6_arr m ρ c 7).trans (final2_7 (V5 m ρ) c)
  have ess : W6 m ρ c (Proc.devRef .tc main_v44_2) = G2_8 (V5 m ρ) c := (W6_arr m ρ c 8).trans (final2_8 (V5 m ρ) c)
  have e6 : W6 m ρ c (Proc.devRef .tc main_arg12) = (m ((c : Thread nD τ).loc main_arg12)) := W6_arg m ρ c main_arg12 (by decide) (by decide) (by decide) (by decide) (by decide) (by decide)
  have e7 : W6 m ρ c (Proc.devRef .tc main_arg13) = (m ((c : Thread nD τ).loc main_arg13)) := W6_arg m ρ c main_arg13 (by decide) (by decide) (by decide) (by decide) (by decide) (by decide)
  have esc : V7 m ρ c main_v55 = scaleOf (m ((c : Thread nD τ).loc main_arg12)) (G2_7 (V5 m ρ) c) (G2_8 (V5 m ρ) c) := by
    refine (H3_v55 (W6 m ρ c)).trans ?_; rw [e6, es, ess]
  have esh : V7 m ρ c main_v58 = shiftOf (m ((c : Thread nD τ).loc main_arg13)) (m ((c : Thread nD τ).loc main_arg12)) (G2_7 (V5 m ρ) c) (G2_8 (V5 m ρ) c) := by
    refine (H3_v58 (W6 m ρ c)).trans ?_; rw [e6, e7, es, ess]
  have hS : ∀ (u : Fin 1) (q : Fin 128), G2_7 (V5 m ρ) c (ix2 u q) = ∑ p : Fin 100000, zfull (h1K m ρ c) (aggK (h1K m ρ c) (srcIdx (m ((c : Thread nD τ).loc main_arg1))) (dstIdx (m ((c : Thread nD τ).loc main_arg1)))) (m ((c : Thread nD τ).loc main_arg8)) (row (m ((c : Thread nD τ).loc main_arg9))) (m ((c : Thread nD τ).loc main_arg10)) (row (m ((c : Thread nD τ).loc main_arg11))) p q := by
    intro u q; refine (G2_7_apply (V5 m ρ) c u q).trans ?_; rw [e0, e2, e4, e13, e14, e15]
  have hSS : ∀ (u : Fin 1) (q : Fin 128), G2_8 (V5 m ρ) c (ix2 u q) = ∑ p : Fin 100000, zfull (h1K m ρ c) (aggK (h1K m ρ c) (srcIdx (m ((c : Thread nD τ).loc main_arg1))) (dstIdx (m ((c : Thread nD τ).loc main_arg1)))) (m ((c : Thread nD τ).loc main_arg8)) (row (m ((c : Thread nD τ).loc main_arg9))) (m ((c : Thread nD τ).loc main_arg10)) (row (m ((c : Thread nD τ).loc main_arg11))) p q * zfull (h1K m ρ c) (aggK (h1K m ρ c) (srcIdx (m ((c : Thread nD τ).loc main_arg1))) (dstIdx (m ((c : Thread nD τ).loc main_arg1)))) (m ((c : Thread nD τ).loc main_arg8)) (row (m ((c : Thread nD τ).loc main_arg9))) (m ((c : Thread nD τ).loc main_arg10)) (row (m ((c : Thread nD τ).loc main_arg11))) p q := by
    intro u q; refine (G2_8_apply (V5 m ρ) c u q).trans ?_; rw [e0, e2, e4, e13, e14, e15]
  have e59 : outK m ρ c = G3 (V7 m ρ c main_v44_0) (V7 m ρ c main_v55) (V7 m ρ c main_v58) := (W8_arr m ρ c 3).trans (final3 (V7 m ρ) c)
  rw [e59, ez, esc, esh]
  exact layer_fold _ _ _ _ _ _ _ _ _ _ hS hSS p q

end Cert.KernelIdeal.Val

end
-- ==== Proof.Ref.Finite.lean ====
import proofs.«158753_j48954037240335_1_alg».proof.Proof.Gen.Pre_finite_inputs
import proofs.«158753_j48954037240335_1_alg».proof.Proof.LibEReal
import Idealize.ShloMosaic.Lib.ReduceAll
import Idealize.ShloMosaic.Lib.ValueIdx
import Idealize.ShloMosaic.PureOps.Ideal.Laws

/-! From the precondition to real entries.

    The precondition is the conjunction, over the thirteen float arguments, of "every entry x has |x| < +∞", each
    conjunct a reduction by ∧ of the entrywise comparisons against the pattern of +∞. An extended real x with
    max x (−x) < ⊤ is neither ⊤ nor ⊥, so it is a real number. -/

noncomputable section

open Idealize.ShloMosaic

namespace Cert.ReferenceIdeal.RefValue

/-- The pattern 0x7F800000 denotes +∞. -/
theorem ofBits_inf : Ideal.ofBits .f32 0x7F800000#32 = ⊤ := by
  simp [Ideal.ofBits, Ideal.ieee]

/-- An extended real whose absolute value max x (−x) compares below +∞ is a real number. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : Cert.Spec.IsReal x := by
  rw [Ideal.ofBits_def, ofBits_inf, Ideal.hostAbsf_def, Ideal.absf_def, Ideal.cmpf_def] at h
  induction x using EReal.rec with
  | bot => simp [Ideal.cmp] at h
  | coe r => exact ⟨r, rfl⟩
  | top => simp [Ideal.cmp] at h

/-- An array all of whose entries compare below +∞ in absolute value (the reduction by ∧ of the comparisons is 1) has
    real entries. -/
theorem all_isReal {s : Shape} {axes : List (Fin s.rank)} (x : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel) (j : Cert.Pre_finite_inputs.S_.Idx)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu j = 1#1) (i : s.Idx) : Cert.Spec.IsReal (x i) :=
  -- the scalar shape has one index
  haveI : Subsingleton Cert.Pre_finite_inputs.S_.Idx := ⟨fun a b => funext fun d => d.elim0⟩
  isReal_of_abs_lt_inf (x i) (Host.reduce_andi_all _ _ hr hu j e i)

/-- Under the precondition every float argument has real entries. -/
theorem finite_of_pre
    (a0 : FVec Ideal Cert.Pre_finite_inputs.S100000x128 .f32)
    (a1 : IVec Cert.Pre_finite_inputs.S2x1600000 32)
    (a2 : FVec Ideal Cert.Pre_finite_inputs.S128x128 .f32)
    (a3 : FVec Ideal Cert.Pre_finite_inputs.S128 .f32)
    (a4 : FVec Ideal Cert.Pre_finite_inputs.S128x128 .f32)
    (a5 : FVec Ideal Cert.Pre_finite_inputs.S128 .f32)
    (a6 : FVec Ideal Cert.Pre_finite_inputs.S128 .f32)
    (a7 : FVec Ideal Cert.Pre_finite_inputs.S128 .f32)
    (a8 : FVec Ideal Cert.Pre_finite_inputs.S128x128 .f32)
    (a9 : FVec Ideal Cert.Pre_finite_inputs.S128 .f32)
    (a10 : FVec Ideal Cert.Pre_finite_inputs.S128x128 .f32)
    (a11 : FVec Ideal Cert.Pre_finite_inputs.S128 .f32)
    (a12 : FVec Ideal Cert.Pre_finite_inputs.S128 .f32)
    (a13 : FVec Ideal Cert.Pre_finite_inputs.S128 .f32)
    (h : Cert.Pre_finite_inputs.fn (F := Ideal) a0 a1 a2 a3 a4 a5 a6 a7 a8 a9 a10 a11 a12 a13 = fun _ => 1#1) :
    (∀ i, Cert.Spec.IsReal (a0 i)) ∧ (∀ i, Cert.Spec.IsReal (a2 i)) ∧ (∀ i, Cert.Spec.IsReal (a3 i)) ∧ (∀ i, Cert.Spec.IsReal (a4 i)) ∧ (∀ i, Cert.Spec.IsReal (a5 i)) ∧ (∀ i, Cert.Spec.IsReal (a6 i)) ∧ (∀ i, Cert.Spec.IsReal (a7 i)) ∧ (∀ i, Cert.Spec.IsReal (a8 i)) ∧ (∀ i, Cert.Spec.IsReal (a9 i)) ∧ (∀ i, Cert.Spec.IsReal (a10 i)) ∧ (∀ i, Cert.Spec.IsReal (a11 i)) ∧ (∀ i, Cert.Spec.IsReal (a12 i)) ∧ (∀ i, Cert.Spec.IsReal (a13 i)) := by
  have h0 := congrFun h ValueIdx.ix0
  dsimp only [Cert.Pre_finite_inputs.fn, Cert.Pre_finite_inputs.fn_part1, Cert.Pre_finite_inputs.fn_part2, Cert.Pre_finite_inputs.fn_part3, andi] at h0
  simp only [IntOp.andi_eq_one] at h0
  obtain ⟨⟨⟨⟨⟨⟨⟨⟨⟨⟨⟨⟨e0, e2⟩, e3⟩, e4⟩, e5⟩, e6⟩, e7⟩, e8⟩, e9⟩, e10⟩, e11⟩, e12⟩, e13⟩ := h0
  exact ⟨all_isReal a0 _ _ _ _ e0, all_isReal a2 _ _ _ _ e2, all_isReal a3 _ _ _ _ e3, all_isReal a4 _ _ _ _ e4,
    all_isReal a5 _ _ _ _ e5, all_isReal a6 _ _ _ _ e6, all_isReal a7 _ _ _ _ e7, all_isReal a8 _ _ _ _ e8,
    all_isReal a9 _ _ _ _ e9, all_isReal a10 _ _ _ _ e10, all_isReal a11 _ _ _ _ e11, all_isReal a12 _ _ _ _ e12,
    all_isReal a13 _ _ _ _ e13⟩

end Cert.ReferenceIdeal.RefValue

end
-- ==== Proof.Ref.Consts.lean ====
import Idealize.ShloMosaic.PureOps.Ideal

/-! The float constants the reference spells, as the extended reals their patterns denote: the number of rows
    100000, and the batch normalisation's ε = 10995116 / 2^40 (the single-precision number nearest 1e-5), which is
    positive. No program is imported. -/

noncomputable section

open Idealize.ShloMosaic

namespace Cert.ReferenceIdeal.RefValue

/-- The pattern 0x47C35000 denotes the real 100000. -/
theorem ofBits_rows : Ideal.ofBits .f32 0x47C35000#32 = ((100000 : ℝ) : EReal) := by
  simp [Ideal.ofBits, Ideal.ieee, -EReal.coe_mul]; norm_num

/-- The pattern 0x3727C5AC denotes the real 10995116 / 2^40. -/
theorem ofBits_eps : Ideal.ofBits .f32 0x3727C5AC#32 = ((10995116 / 2 ^ 40 : ℝ) : EReal) := by
  simp [Ideal.ofBits, Ideal.ieee, -EReal.coe_mul]; norm_num

/-- ε is positive. -/
theorem eps_pos : (0 : ℝ) < 10995116 / 2 ^ 40 := by norm_num

/-- The number of rows as the cast of the natural number. -/
theorem rows_cast : ((100000 : ℕ) : ℝ) = 100000 := by norm_num

end Cert.ReferenceIdeal.RefValue

end
-- ==== Proof.Ref.Layer.lean ====
import proofs.«158753_j48954037240335_1_alg».proof.Proof.Gen.ReferenceIdeal.Read
import proofs.«158753_j48954037240335_1_alg».proof.Proof.GinSpec
import proofs.«158753_j48954037240335_1_alg».proof.Proof.Ref.Consts

/-! One layer of the reference, read index by index.

    With x the layer's input array (100000 × 128), agg the aggregation stage's array, W₁, b₁, W₂, b₂, γ, β the layer's
    parameters, the reference computes h = x + agg, z = max (h · W₁ + b₁) 0 · W₂ + b₂, the column mean
    μ = (0 + Σ_rows z) / 100000, the column variance σ² = (0 + Σ_rows (z − μ)²) / 100000 and
    max ((z − μ) · rsqrt (σ² + ε) · γ + β) 0. Read at row p and column q this is the layer function of the
    specification, with the batch normalisation stated directly, at N = 100000 and ε = 10995116 / 2^40.
    The statement is over an arbitrary input array, so it serves both layers. -/

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

namespace Cert.ReferenceIdeal.RefValue

/-- A 100000 × 128 array of extended reals as a matrix. -/
def toMat (v : S100000x128.Idx → EReal) : Cert.Spec.Mat 100000 128 := fun p q => v (ix2 p q)
/-- A 128 × 128 array as a matrix. -/
def toMat2 (v : S128x128.Idx → EReal) : Cert.Spec.Mat 128 128 := fun j k => v (ix2 j k)
/-- A 128-array as a vector. -/
def toVec (v : S128.Idx → EReal) : Fin 128 → EReal := fun q => v (ix1 q)

@[simp] theorem toMat_apply (v : S100000x128.Idx → EReal) (p : Fin 100000) (q : Fin 128) : toMat v p q = v (ix2 p q) := rfl
@[simp] theorem toMat2_apply (v : S128x128.Idx → EReal) (j k : Fin 128) : toMat2 v j k = v (ix2 j k) := rfl
@[simp] theorem toVec_apply (v : S128.Idx → EReal) (q : Fin 128) : toVec v q = v (ix1 q) := rfl

section Layer
variable (a0 : (⟨S100000x128, .f32⟩ : BufTy).Contents (Elt Ideal)) (a1 : (⟨S2x1600000, .i32⟩ : BufTy).Contents (Elt Ideal))
  (a2 : (⟨S128x128, .f32⟩ : BufTy).Contents (Elt Ideal)) (a3 : (⟨S128, .f32⟩ : BufTy).Contents (Elt Ideal))
  (a4 : (⟨S128x128, .f32⟩ : BufTy).Contents (Elt Ideal)) (a5 a6 a7 : (⟨S128, .f32⟩ : BufTy).Contents (Elt Ideal))

/-! ### A vector broadcast along the rows, read at (p, q): the vector at q -/

theorem v17_at (p : Fin 100000) (q : Fin 128) : val_main_v17 (F := Ideal) a3 (ix2 p q) = a3 (ix1 q) := by
  rw [val_main_v17_apply, val_main_v16_apply]
  exact congrArg a3 (funext fun a => by match a with | ⟨0, _⟩ => rfl)

theorem v22_at (p : Fin 100000) (q : Fin 128) : val_main_v22 (F := Ideal) a5 (ix2 p q) = a5 (ix1 q) := by
  rw [val_main_v22_apply, val_main_v21_apply]
  exact congrArg a5 (funext fun a => by match a with | ⟨0, _⟩ => rfl)

theorem v28_at (p : Fin 100000) (q : Fin 128) :
    val_main_v28 (F := Ideal) a0 a1 a2 a3 a4 a5 (ix2 p q) = val_main_v26 (F := Ideal) a0 a1 a2 a3 a4 a5 (ix1 q) := by
  rw [val_main_v28_apply, val_main_v27_apply]
  exact congrArg _ (funext fun a => by match a with | ⟨0, _⟩ => rfl)

theorem v35_at (p : Fin 100000) (q : Fin 128) :
    val_main_v35 (F := Ideal) a0 a1 a2 a3 a4 a5 (ix2 p q) = val_main_v26 (F := Ideal) a0 a1 a2 a3 a4 a5 (ix1 q) := by
  rw [val_main_v35_apply, val_main_v34_apply]
  exact congrArg _ (funext fun a => by match a with | ⟨0, _⟩ => rfl)

theorem v41_at (p : Fin 100000) (q : Fin 128) :
    val_main_v41 (F := Ideal) a0 a1 a2 a3 a4 a5 (ix2 p q) = val_main_v39 (F := Ideal) a0 a1 a2 a3 a4 a5 (ix1 q) := by
  rw [val_main_v41_apply, val_main_v40_apply]
  exact congrArg _ (funext fun a => by match a with | ⟨0, _⟩ => rfl)

theorem v44_at (p : Fin 100000) (q : Fin 128) : val_main_v44 (F := Ideal) a6 (ix2 p q) = a6 (ix1 q) := by
  rw [val_main_v44_apply, val_main_v43_apply]
  exact congrArg a6 (funext fun a => by match a with | ⟨0, _⟩ => rfl)

theorem v47_at (p : Fin 100000) (q : Fin 128) : val_main_v47 (F := Ideal) a7 (ix2 p q) = a7 (ix1 q) := by
  rw [val_main_v47_apply, val_main_v46_apply]
  exact congrArg a7 (funext fun a => by match a with | ⟨0, _⟩ => rfl)

/-! ### The constants -/

theorem relu0_at (i : S100000x128.Idx) : val_main_call0_v0 (F := Ideal) i = 0 := by
  rw [val_main_call0_v0_apply, val_main_call0_cst_apply]; exact Ideal.ofBits_zero_f32
theorem relu1_at (i : S100000x128.Idx) : val_main_call1_v0 (F := Ideal) i = 0 := by
  rw [val_main_call1_v0_apply, val_main_call1_cst_apply]; exact Ideal.ofBits_zero_f32
theorem cst1_at (i : S_.Idx) : val_main_cst_1 (F := Ideal) i = 0 := by
  rw [val_main_cst_1_apply]; exact Ideal.ofBits_zero_f32
theorem cst3_at (i : S_.Idx) : val_main_cst_3 (F := Ideal) i = 0 := by
  rw [val_main_cst_3_apply]; exact Ideal.ofBits_zero_f32
theorem v25_at (i : S128.Idx) : val_main_v25 (F := Ideal) i = ((100000 : ℝ) : EReal) := by
  rw [val_main_v25_apply, val_main_cst_2_apply]; exact ofBits_rows
theorem v32_at (i : S128.Idx) : val_main_v32 (F := Ideal) i = ((100000 : ℝ) : EReal) := by
  rw [val_main_v32_apply, val_main_cst_4_apply]; exact ofBits_rows
theorem v37_at (i : S128.Idx) : val_main_v37 (F := Ideal) i = ((10995116 / 2 ^ 40 : ℝ) : EReal) := by
  rw [val_main_v37_apply, val_main_cst_5_apply]; exact ofBits_eps

/-! ### The two contractions and the two column sums, read with coordinate indices -/

theorem v15_at (p : Fin 100000) (q : Fin 128) :
    val_main_v15 (F := Ideal) a0 a1 a2 (ix2 p q)
      = ∑ k : Fin 128, val_main_v14 (F := Ideal) a0 a1 (ix2 p k) * a2 (ix2 k q) := by
  rw [val_main_v15_apply]
  refine Finset.sum_congr rfl fun k _ => ?_
  have el : lidx_main_v15 (ix2 p q) k = ix2 p k := funext fun a => by match a with | ⟨0, _⟩ => rfl | ⟨1, _⟩ => rfl
  have er : ridx_main_v15 (ix2 p q) k = ix2 k q := funext fun a => by match a with | ⟨0, _⟩ => rfl | ⟨1, _⟩ => rfl
  rw [el, er]

theorem v20_at (p : Fin 100000) (q : Fin 128) :
    val_main_v20 (F := Ideal) a0 a1 a2 a3 a4 (ix2 p q)
      = ∑ k : Fin 128, val_main_v19 (F := Ideal) a0 a1 a2 a3 (ix2 p k) * a4 (ix2 k q) := by
  rw [val_main_v20_apply]
  refine Finset.sum_congr rfl fun k _ => ?_
  have el : lidx_main_v20 (ix2 p q) k = ix2 p k := funext fun a => by match a with | ⟨0, _⟩ => rfl | ⟨1, _⟩ => rfl
  have er : ridx_main_v20 (ix2 p q) k = ix2 k q := funext fun a => by match a with | ⟨0, _⟩ => rfl | ⟨1, _⟩ => rfl
  rw [el, er]

theorem v24_at (q : Fin 128) :
    val_main_v24 (F := Ideal) a0 a1 a2 a3 a4 a5 (ix1 q)
      = ∑ r : Fin 100000, val_main_v23 (F := Ideal) a0 a1 a2 a3 a4 a5 (ix2 r q) := by
  rw [val_main_v24_apply, cst1_at, zero_add]
  refine Finset.sum_congr rfl fun r _ => ?_
  exact congrArg _ (funext fun a => by match a with | ⟨0, _⟩ => rfl | ⟨1, _⟩ => rfl)

/-! ### The perceptron -/

theorem v23_at (p : Fin 100000) (q : Fin 128) :
    val_main_v23 (F := Ideal) a0 a1 a2 a3 a4 a5 (ix2 p q)
      = Cert.Spec.mlp (fun p q => toMat a0 p q + toMat (val_main_v13 (F := Ideal) a0 a1) p q)
          (toMat2 a2) (toVec a3) (toMat2 a4) (toVec a5) p q := by
  rw [val_main_v23_apply, v22_at, v20_at]
  simp only [val_main_v19_apply, val_main_v18_apply, v17_at, v15_at, val_main_v14_apply, relu0_at,
    Ideal.addf_def, Ideal.maximumf_def]
  rfl

/-! ### The batch normalisation -/

theorem v26_at (q : Fin 128) :
    val_main_v26 (F := Ideal) a0 a1 a2 a3 a4 a5 (ix1 q)
      = Ideal.div (∑ r : Fin 100000, val_main_v23 (F := Ideal) a0 a1 a2 a3 a4 a5 (ix2 r q)) ((100000 : ℝ) : EReal) := by
  rw [val_main_v26_apply, v25_at, v24_at, Ideal.hostDivf_def]

theorem v31_at (q : Fin 128) :
    val_main_v31 (F := Ideal) a0 a1 a2 a3 a4 a5 (ix1 q)
      = ∑ r : Fin 100000,
          (val_main_v23 (F := Ideal) a0 a1 a2 a3 a4 a5 (ix2 r q) - val_main_v26 (F := Ideal) a0 a1 a2 a3 a4 a5 (ix1 q))
          * (val_main_v23 (F := Ideal) a0 a1 a2 a3 a4 a5 (ix2 r q) - val_main_v26 (F := Ideal) a0 a1 a2 a3 a4 a5 (ix1 q)) := by
  rw [val_main_v31_apply, cst3_at, zero_add]
  refine Finset.sum_congr rfl fun r _ => ?_
  have e : idx_main_v31 (ix1 q) r = ix2 r q := funext fun a => by match a with | ⟨0, _⟩ => rfl | ⟨1, _⟩ => rfl
  rw [e, val_main_v30_apply, val_main_v29_apply, v28_at, Ideal.mulf_def, Ideal.subf_def]

theorem v33_at (q : Fin 128) :
    val_main_v33 (F := Ideal) a0 a1 a2 a3 a4 a5 (ix1 q)
      = Ideal.div (∑ r : Fin 100000,
          (val_main_v23 (F := Ideal) a0 a1 a2 a3 a4 a5 (ix2 r q) - val_main_v26 (F := Ideal) a0 a1 a2 a3 a4 a5 (ix1 q))
          * (val_main_v23 (F := Ideal) a0 a1 a2 a3 a4 a5 (ix2 r q) - val_main_v26 (F := Ideal) a0 a1 a2 a3 a4 a5 (ix1 q)))
          ((100000 : ℝ) : EReal) := by
  rw [val_main_v33_apply, v32_at, v31_at, Ideal.hostDivf_def]

theorem v49_at (p : Fin 100000) (q : Fin 128) :
    val_main_v49 (F := Ideal) a0 a1 a2 a3 a4 a5 a6 a7 (ix2 p q)
      = Cert.Spec.bnDirect ((100000 : ℝ) : EReal) ((10995116 / 2 ^ 40 : ℝ) : EReal)
          (fun p q => val_main_v23 (F := Ideal) a0 a1 a2 a3 a4 a5 (ix2 p q)) (toVec a6) (toVec a7) p q := by
  rw [val_main_v49_apply, relu1_at, val_main_v48_apply, v47_at, val_main_v45_apply, v44_at, val_main_v42_apply, v41_at,
    val_main_v39_apply, val_main_v38_apply, v37_at, v33_at, val_main_v36_apply, v35_at, v26_at]
  simp only [Ideal.addf_def, Ideal.mulf_def, Ideal.subf_def, Ideal.maximumf_def, Ideal.hostUnary_rsqrt_def]
  rfl

/-- One layer of the reference, from its input array: the layer function of the input, of the aggregation stage, and of
    the parameters. -/
theorem layer_at (p : Fin 100000) (q : Fin 128) :
    val_main_v49 (F := Ideal) a0 a1 a2 a3 a4 a5 a6 a7 (ix2 p q)
      = Cert.Spec.layerDirect ((100000 : ℝ) : EReal) ((10995116 / 2 ^ 40 : ℝ) : EReal)
          (toMat a0) (toMat (val_main_v13 (F := Ideal) a0 a1)) (toMat2 a2) (toVec a3) (toMat2 a4) (toVec a5)
          (toVec a6) (toVec a7) p q := by
  rw [v49_at]
  have hz : (fun p q => val_main_v23 (F := Ideal) a0 a1 a2 a3 a4 a5 (ix2 p q))
      = Cert.Spec.mlp (fun p q => toMat a0 p q + toMat (val_main_v13 (F := Ideal) a0 a1) p q)
          (toMat2 a2) (toVec a3) (toMat2 a4) (toVec a5) :=
    funext fun p => funext fun q => v23_at a0 a1 a2 a3 a4 a5 p q
  rw [hz]
  rfl

end Layer

end Cert.ReferenceIdeal.RefValue

end
-- ==== Proof.Ref.Value.lean ====
import proofs.«158753_j48954037240335_1_alg».proof.Proof.Ref.Layer

/-! What the reference computes: the layer function of the specification applied twice.

    The reference reads the edges' source rows (row 0 of the edge index, a negative number wrapped by adding 100000) and
    destination rows (row 1), gathers the input's rows at the sources and adds them into a zero array at the
    destinations: the aggregation, named here as one function of the input array and the edge index and never opened.
    Its first layer maps the input x to h₁ = layer (x, agg x), its second maps h₁ to layer (h₁, agg h₁) with the second
    set of parameters and the same edge index; the run's result is the second layer's output. -/

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

namespace Cert.ReferenceIdeal.RefValue

/-- The aggregation as the reference computes it: with src the edge index's row 0 (a negative entry wrapped by adding
    100000) and dst its row 1, the rows of x gathered at src and added into a zero array at dst. -/
def aggRef (x : FVec Ideal S100000x128 .f32) (ei : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0
        (select
          (cmpi .slt (shapeCast S1600000 (extractStridedSlice S1x1600000 ![0, 0] ei slices_S2x1600000_S1x1600000_0_0) shapeCasts_S1x1600000_S1600000) (broadcastInDim S1600000 ![] bcast_S_S1600000 (constantI S_ 32 0#32)))
          (addi (shapeCast S1600000 (extractStridedSlice S1x1600000 ![0, 0] ei slices_S2x1600000_S1x1600000_0_0) shapeCasts_S1x1600000_S1600000) (broadcastInDim S1600000 ![] bcast_S_S1600000 (constantI S_ 32 100000#32)))
          (shapeCast S1600000 (extractStridedSlice S1x1600000 ![0, 0] ei slices_S2x1600000_S1x1600000_0_0) shapeCasts_S1x1600000_S1600000))))

/-- The aggregation is the reference's aggregation stage. -/
theorem aggRef_eq_stage (x : FVec Ideal S100000x128 .f32) (ei : IVec S2x1600000 32) :
    aggRef x ei = val_main_v13 (F := Ideal) x ei := rfl

section Run
variable (a0 : (⟨S100000x128, .f32⟩ : BufTy).Contents (Elt Ideal)) (a1 : (⟨S2x1600000, .i32⟩ : BufTy).Contents (Elt Ideal))
  (a2 : (⟨S128x128, .f32⟩ : BufTy).Contents (Elt Ideal)) (a3 : (⟨S128, .f32⟩ : BufTy).Contents (Elt Ideal))
  (a4 : (⟨S128x128, .f32⟩ : BufTy).Contents (Elt Ideal)) (a5 a6 a7 : (⟨S128, .f32⟩ : BufTy).Contents (Elt Ideal))
  (a8 : (⟨S128x128, .f32⟩ : BufTy).Contents (Elt Ideal)) (a9 : (⟨S128, .f32⟩ : BufTy).Contents (Elt Ideal))
  (a10 : (⟨S128x128, .f32⟩ : BufTy).Contents (Elt Ideal)) (a11 a12 a13 : (⟨S128, .f32⟩ : BufTy).Contents (Elt Ideal))

/-- The first layer's output, as an array. -/
def h1v : FVec Ideal S100000x128 .f32 := val_main_v49 (F := Ideal) a0 a1 a2 a3 a4 a5 a6 a7

/-- The first layer: its output at (p, q) is the layer function of the input, its aggregation and the first
    parameters. -/
theorem h1v_at (p : Fin 100000) (q : Fin 128) :
    h1v a0 a1 a2 a3 a4 a5 a6 a7 (ix2 p q)
      = Cert.Spec.layerDirect ((100000 : ℝ) : EReal) ((10995116 / 2 ^ 40 : ℝ) : EReal)
          (toMat a0) (toMat (aggRef a0 a1)) (toMat2 a2) (toVec a3) (toMat2 a4) (toVec a5) (toVec a6) (toVec a7) p q := by
  rw [aggRef_eq_stage]
  exact layer_at a0 a1 a2 a3 a4 a5 a6 a7 p q

/-- The second layer's stages are the first layer's stages applied to the first layer's output, the same edge index and
    the second parameters. -/
theorem out_eq_twice :
    val_main_v95 (F := Ideal) a0 a1 a2 a3 a4 a5 a6 a7 a8 a9 a10 a11 a12 a13
      = val_main_v49 (F := Ideal) (h1v a0 a1 a2 a3 a4 a5 a6 a7) a1 a8 a9 a10 a11 a12 a13 := rfl

/-- The second layer: the reference's output at (p, q) is the layer function of the first layer's output, its
    aggregation and the second parameters. -/
theorem out_at (p : Fin 100000) (q : Fin 128) :
    val_main_v95 (F := Ideal) a0 a1 a2 a3 a4 a5 a6 a7 a8 a9 a10 a11 a12 a13 (ix2 p q)
      = Cert.Spec.layerDirect ((100000 : ℝ) : EReal) ((10995116 / 2 ^ 40 : ℝ) : EReal)
          (toMat (h1v a0 a1 a2 a3 a4 a5 a6 a7)) (toMat (aggRef (h1v a0 a1 a2 a3 a4 a5 a6 a7) a1)) (toMat2 a8) (toVec a9) (toMat2 a10) (toVec a11)
          (toVec a12) (toVec a13) p q := by
  rw [out_eq_twice, aggRef_eq_stage]
  exact layer_at (h1v a0 a1 a2 a3 a4 a5 a6 a7) a1 a8 a9 a10 a11 a12 a13 p q

end Run

/-- The run's result: for any launch contents m, on every device, the result array of the reference's run (its composed
    term of the argument arrays) read at (p, q) is the layer function applied twice to the argument arrays. -/
theorem res_at (m : (ℓ : Loc nD τ sig) → Buf (Elt Ideal) ℓ) (c : Dev nD) (p : Fin 100000) (q : Fin 128) :
    (Cert.ReferenceIdeal.Value.res_main_v95 (F := Ideal) m c : S100000x128.Idx → EReal) (ix2 p q)
      = Cert.Spec.layerDirect ((100000 : ℝ) : EReal) ((10995116 / 2 ^ 40 : ℝ) : EReal)
          (toMat (h1v (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))))
          (toMat (aggRef (h1v (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))))
          (toMat2 (m ((c.tc : Thread nD τ).loc main_arg8))) (toVec (m ((c.tc : Thread nD τ).loc main_arg9))) (toMat2 (m ((c.tc : Thread nD τ).loc main_arg10))) (toVec (m ((c.tc : Thread nD τ).loc main_arg11)))
          (toVec (m ((c.tc : Thread nD τ).loc main_arg12))) (toVec (m ((c.tc : Thread nD τ).loc main_arg13))) p q :=
  (congrFun (val_main_v95_eq (F := Ideal) m c) (ix2 p q)).trans
    (out_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) p q)

end Cert.ReferenceIdeal.RefValue

end
-- ==== Proof.LibAggReal.lean ====
import Idealize.ShloMosaic.PureOps.Ideal
import proofs.«158753_j48954037240335_1_alg».proof.Proof.LibEReal

/-! Gathers and accumulating scatters keep real entries. No program is imported.

    At the ideal instance a float is an extended real. A gather reads each entry of its result off the operand at a
    computed index, so an operand of real entries gives a result of real entries. An accumulating scatter makes each
    entry of its result the operand's entry plus the finite sum of the update entries whose target is that entry
    (an update aimed outside the operand adds nothing), so a real operand and real updates give real entries.
    Both hold for every dimension record and every array of integer indices. -/

noncomputable section

open Idealize.ShloMosaic

namespace Cert.Spec

/-- Every entry of a gather out of real entries is real: it is one of the operand's entries. -/
theorem gather_isReal {s si so : Shape} (d : GatherDims s si so) {w : ℕ} (x : s.Idx → EReal) (idx : IVec si w)
    (hx : ∀ i, IsReal (x i)) (j : so.Idx) : IsReal (Host.gather d x idx j) :=
  hx (d.operandIdx j idx)

/-- Every entry of an accumulating scatter of real updates into a real operand is real: it is the operand's entry
    plus a finite sum of update entries. -/
theorem scatterAdd_isReal {φ : FTy} {s si su : Shape} (d : ScatterDims s si su) {w : ℕ} (x : s.Idx → EReal)
    (idx : IVec si w) (u : su.Idx → EReal) (hx : ∀ i, IsReal (x i)) (hu : ∀ i, IsReal (u i)) (j : s.Idx) :
    IsReal (Host.scatterAdd (F := Ideal) (φ := φ) d x idx u j) :=
  (hx j).add (IsReal.sum _ _ hu)

end Cert.Spec

end
-- ==== Proof.Ref.TwoLayers.lean ====
import proofs.«158753_j48954037240335_1_alg».proof.Proof.Ref.Value
import proofs.«158753_j48954037240335_1_alg».proof.Proof.LibAggReal

/-! The folded arrangement applied twice is the reference's result, on real inputs.

    On real entries the two arrangements of the batch normalisation agree, so the layer with the folded normalisation is
    the layer with the direct one. A layer keeps real entries: the aggregation of a real array is real (each entry is
    0 plus a finite sum of gathered entries), the perceptron of real arrays is real, and the direct normalisation of a
    real matrix with N = 100000 ≠ 0 rows and ε > 0 is real. So an array that is the folded layer of the arguments is the
    reference's first-layer output, and the folded layer of that array with the second parameters is the reference's
    result. -/

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read Cert.Spec

namespace Cert.ReferenceIdeal.RefValue

/-- The aggregation of an array of real entries has real entries. -/
theorem aggRef_isReal (x : FVec Ideal S100000x128 .f32) (ei : IVec S2x1600000 32) (hx : ∀ i, IsReal (x i))
    (i : S100000x128.Idx) : IsReal (aggRef x ei i) := by
  unfold aggRef
  refine scatterAdd_isReal _ _ _ _ (fun j => ?_) (fun j => gather_isReal _ _ _ hx j) i
  exact ⟨0, Ideal.ofBits_zero_f32⟩

section Law
variable (x agg : Mat 100000 128) (w1 : Mat 128 128) (b1 : Fin 128 → EReal) (w2 : Mat 128 128) (b2 g b : Fin 128 → EReal)
  (hx : ∀ p q, IsReal (x p q)) (hagg : ∀ p q, IsReal (agg p q)) (hw1 : ∀ j k, IsReal (w1 j k)) (hb1 : ∀ k, IsReal (b1 k))
  (hw2 : ∀ k q, IsReal (w2 k q)) (hb2 : ∀ q, IsReal (b2 q)) (hg : ∀ q, IsReal (g q)) (hb : ∀ q, IsReal (b q))

include hx hagg hw1 hb1 hw2 hb2 in
/-- On real arguments the perceptron's output mlp (x + agg) is real. -/
theorem mlp_sum_isReal (p : Fin 100000) (q : Fin 128) :
    IsReal (mlp (fun p q => x p q + agg p q) w1 b1 w2 b2 p q) :=
  mlp_isReal _ _ _ _ _ (fun p q => (hx p q).add (hagg p q)) hw1 hb1 hw2 hb2 p q

include hx hagg hw1 hb1 hw2 hb2 hg hb

/-- On real arguments, with N = 100000 and ε = 10995116 / 2^40, the layer with the folded normalisation is the layer with
    the direct one. -/
theorem layerFolded_eq_layerDirect :
    layerFolded ((100000 : ℝ) : EReal) ((10995116 / 2 ^ 40 : ℝ) : EReal) x agg w1 b1 w2 b2 g b = layerDirect ((100000 : ℝ) : EReal) ((10995116 / 2 ^ 40 : ℝ) : EReal) x agg w1 b1 w2 b2 g b := by
  unfold layerFolded layerDirect
  exact bnFolded_eq_bnDirect rows_cast (by norm_num) eps_pos _ g b
    (mlp_sum_isReal x agg w1 b1 w2 b2 hx hagg hw1 hb1 hw2 hb2) hg hb

/-- On real arguments the layer's output is real. -/
theorem layerDirect_isReal (p : Fin 100000) (q : Fin 128) :
    IsReal (layerDirect ((100000 : ℝ) : EReal) ((10995116 / 2 ^ 40 : ℝ) : EReal) x agg w1 b1 w2 b2 g b p q) := by
  unfold layerDirect
  exact bnDirect_isReal rows_cast (by norm_num) eps_pos _ g b
    (mlp_sum_isReal x agg w1 b1 w2 b2 hx hagg hw1 hb1 hw2 hb2) hg hb p q

end Law

/-- On real arguments: an array h₁ that is the folded layer of the arguments, and an array that is the folded layer of
    h₁ with the second parameters, is the reference's result. -/
theorem two_layers
    (a0 : (⟨S100000x128, .f32⟩ : BufTy).Contents (Elt Ideal))
    (a1 : (⟨S2x1600000, .i32⟩ : BufTy).Contents (Elt Ideal))
    (a2 : (⟨S128x128, .f32⟩ : BufTy).Contents (Elt Ideal))
    (a3 : (⟨S128, .f32⟩ : BufTy).Contents (Elt Ideal))
    (a4 : (⟨S128x128, .f32⟩ : BufTy).Contents (Elt Ideal))
    (a5 : (⟨S128, .f32⟩ : BufTy).Contents (Elt Ideal))
    (a6 : (⟨S128, .f32⟩ : BufTy).Contents (Elt Ideal))
    (a7 : (⟨S128, .f32⟩ : BufTy).Contents (Elt Ideal))
    (a8 : (⟨S128x128, .f32⟩ : BufTy).Contents (Elt Ideal))
    (a9 : (⟨S128, .f32⟩ : BufTy).Contents (Elt Ideal))
    (a10 : (⟨S128x128, .f32⟩ : BufTy).Contents (Elt Ideal))
    (a11 : (⟨S128, .f32⟩ : BufTy).Contents (Elt Ideal))
    (a12 : (⟨S128, .f32⟩ : BufTy).Contents (Elt Ideal))
    (a13 : (⟨S128, .f32⟩ : BufTy).Contents (Elt Ideal))
    (hfin : (∀ i, Cert.Spec.IsReal (a0 i)) ∧ (∀ i, Cert.Spec.IsReal (a2 i)) ∧ (∀ i, Cert.Spec.IsReal (a3 i)) ∧ (∀ i, Cert.Spec.IsReal (a4 i)) ∧ (∀ i, Cert.Spec.IsReal (a5 i)) ∧ (∀ i, Cert.Spec.IsReal (a6 i)) ∧ (∀ i, Cert.Spec.IsReal (a7 i)) ∧ (∀ i, Cert.Spec.IsReal (a8 i)) ∧ (∀ i, Cert.Spec.IsReal (a9 i)) ∧ (∀ i, Cert.Spec.IsReal (a10 i)) ∧ (∀ i, Cert.Spec.IsReal (a11 i)) ∧ (∀ i, Cert.Spec.IsReal (a12 i)) ∧ (∀ i, Cert.Spec.IsReal (a13 i)))
    (h1K : S100000x128.Idx → EReal)
    (hh1 : ∀ (p : Fin 100000) (q : Fin 128), h1K (ix2 p q)
      = layerFolded ((100000 : ℝ) : EReal) ((10995116 / 2 ^ 40 : ℝ) : EReal) (toMat a0) (toMat (aggRef a0 a1)) (toMat2 a2) (toVec a3) (toMat2 a4) (toVec a5)
          (toVec a6) (toVec a7) p q)
    (KV : S100000x128.Idx → EReal)
    (hKV : ∀ (p : Fin 100000) (q : Fin 128), KV (ix2 p q)
      = layerFolded ((100000 : ℝ) : EReal) ((10995116 / 2 ^ 40 : ℝ) : EReal) (toMat h1K) (toMat (aggRef h1K a1)) (toMat2 a8) (toVec a9) (toMat2 a10) (toVec a11)
          (toVec a12) (toVec a13) p q) :
    KV = val_main_v95 (F := Ideal) a0 a1 a2 a3 a4 a5 a6 a7 a8 a9 a10 a11 a12 a13 := by
  obtain ⟨f0, f2, f3, f4, f5, f6, f7, f8, f9, f10, f11, f12, f13⟩ := hfin
  -- the first layer: h₁ is the reference's first-layer output, and it is real
  have e1 : h1K = h1v a0 a1 a2 a3 a4 a5 a6 a7 := by
    funext i
    obtain ⟨p, q, rfl⟩ : ∃ (p : Fin 100000) (q : Fin 128), i = ix2 p q := ⟨i 0, i 1, eq_ix2 i⟩
    rw [hh1, h1v_at]
    exact congrFun (congrFun (layerFolded_eq_layerDirect _ _ _ _ _ _ _ _ (fun p q => f0 _) (fun p q => aggRef_isReal a0 a1 f0 _)
      (fun j k => f2 _) (fun k => f3 _) (fun k q => f4 _) (fun q => f5 _) (fun q => f6 _) (fun q => f7 _)) p) q
  have r1 : ∀ i, IsReal (h1v a0 a1 a2 a3 a4 a5 a6 a7 i) := by
    intro i
    obtain ⟨p, q, rfl⟩ : ∃ (p : Fin 100000) (q : Fin 128), i = ix2 p q := ⟨i 0, i 1, eq_ix2 i⟩
    rw [h1v_at]
    exact layerDirect_isReal _ _ _ _ _ _ _ _ (fun p q => f0 _) (fun p q => aggRef_isReal a0 a1 f0 _)
      (fun j k => f2 _) (fun k => f3 _) (fun k q => f4 _) (fun q => f5 _) (fun q => f6 _) (fun q => f7 _) p q
  subst e1
  -- the second layer
  funext i
  obtain ⟨p, q, rfl⟩ : ∃ (p : Fin 100000) (q : Fin 128), i = ix2 p q := ⟨i 0, i 1, eq_ix2 i⟩
  rw [hKV, out_at]
  exact congrFun (congrFun (layerFolded_eq_layerDirect _ _ _ _ _ _ _ _ (fun p q => r1 _) (fun p q => aggRef_isReal _ a1 r1 _)
    (fun j k => f8 _) (fun k => f9 _) (fun k q => f10 _) (fun q => f11 _) (fun q => f12 _) (fun q => f13 _)) p) q

end Cert.ReferenceIdeal.RefValue

end
-- ==== Proof.lean ====
import proofs.«158753_j48954037240335_1_alg».proof.Defs
import proofs.«158753_j48954037240335_1_alg».proof.Proof.Gen.Kernel
import proofs.«158753_j48954037240335_1_alg».proof.Proof.Gen.KernelIdeal
import proofs.«158753_j48954037240335_1_alg».proof.Proof.Gen.ReferenceIdeal
import proofs.«158753_j48954037240335_1_alg».proof.Proof.Gen.Pre_finite_inputs
import proofs.«158753_j48954037240335_1_alg».proof.Proof.K.Frame
import proofs.«158753_j48954037240335_1_alg».proof.Proof.KI.Frame
import proofs.«158753_j48954037240335_1_alg».proof.Proof.KV.Chain
import proofs.«158753_j48954037240335_1_alg».proof.Proof.Ref.Finite
import proofs.«158753_j48954037240335_1_alg».proof.Proof.Ref.TwoLayers
import Idealize.ShloMosaic.Adequacy
import Idealize.ShloMosaic.Init

/-! Two graph-isomorphism layers — neighbour sum, a two-layer perceptron, batch normalisation over the 100000 rows, a clamp
    at 0 — computed by four kernel regions between host operations, against the same computed by host operations alone.

    The kernel normalises with the variance taken as E[z²] − (E z)² from column sums accumulated block by block over
    twenty grid points, folded into one multiply-add per entry (scale = γ · rsqrt (var + ε), shift = β − mean · scale); the
    reference subtracts the mean, takes the mean squared deviation, and multiplies through. On finite inputs every
    intermediate entry is a real number (the gathered rows are rows of x, the scattered sums are finite sums), the two
    variances agree, var + ε > 0, and the two affine forms are one polynomial identity; so the two results are equal
    entry by entry on the extended reals. Each program's frame: the kernel's from its run through the eight segments, the
    reference's from its run read back. The idealisation rewrote nothing, so its preservation claim is trivial. -/

noncomputable section

namespace Cert.Proof

open Idealize.ShloMosaic Idealize.ShloMosaic.TcCoe Idealize.ShloMosaic.ValueIdx Idealize.SL.Sem
open Cert.ReferenceIdeal.RefValue

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's neighbour sum and the reference's are one function of the features and the edge list. -/
theorem aggK_eq_aggRef (x : FVec Ideal Cert.KernelIdeal.S100000x128 .f32) (ei : IVec Cert.KernelIdeal.S2x1600000 32) :
    Cert.KernelIdeal.Val.aggK x (Cert.KernelIdeal.Val.srcIdx ei) (Cert.KernelIdeal.Val.dstIdx ei) = aggRef x ei := rfl

set_option maxHeartbeats 4000000 in
/-- The kernel's result array is the reference's result term of the same arguments. -/
theorem result_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal (hPre_finite_inputs := Cert.Pre_finite_inputs.Gen.facts) m) (c : Dev Cert.KernelIdeal.nD) :
    Cert.KernelIdeal.Val.outK m ρ c = Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  refine two_layers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (finite_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)) (Cert.KernelIdeal.Val.h1K m ρ c) (fun p q => ?_) (Cert.KernelIdeal.Val.outK m ρ c) (fun p q => ?_)
  · rw [Cert.KernelIdeal.Val.layer1 m ρ c p q, ofBits_rows, ofBits_eps]
    rfl
  · rw [Cert.KernelIdeal.Val.layer2 m ρ c p q, ofBits_rows, ofBits_eps]
    rfl

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Val.outK m ρ c, ?_, ?_⟩
  · refine (θ_run Cert.KernelIdeal.defs _ _).mono (fun r h c => ⟨h c _ (Cert.KernelIdeal.Hand.mem_uc Cert.KernelIdeal.main_v59 (by decide)), ?_⟩) (Cert.KernelIdeal.Hand.run_all m ρ)
    exact ⟨(h c _ (Cert.KernelIdeal.Hand.mem_uc Cert.KernelIdeal.main_arg0 (by decide))).trans (Cert.KernelIdeal.Hand.W8_launch m ρ c Cert.KernelIdeal.main_arg0 (by decide) (by decide) (by decide) (by decide) (by decide) (by decide) (by decide) (by decide)),
      (h c _ (Cert.KernelIdeal.Hand.mem_uc Cert.KernelIdeal.main_arg1 (by decide))).trans (Cert.KernelIdeal.Hand.W8_launch m ρ c Cert.KernelIdeal.main_arg1 (by decide) (by decide) (by decide) (by decide) (by decide) (by decide) (by decide) (by decide)),
      (h c _ (Cert.KernelIdeal.Hand.mem_uc Cert.KernelIdeal.main_arg2 (by decide))).trans (Cert.KernelIdeal.Hand.W8_launch m ρ c Cert.KernelIdeal.main_arg2 (by decide) (by decide) (by decide) (by decide) (by decide) (by decide) (by decide) (by decide)),
      (h c _ (Cert.KernelIdeal.Hand.mem_uc Cert.KernelIdeal.main_arg3 (by decide))).trans (Cert.KernelIdeal.Hand.W8_launch m ρ c Cert.KernelIdeal.main_arg3 (by decide) (by decide) (by decide) (by decide) (by decide) (by decide) (by decide) (by decide)),
      (h c _ (Cert.KernelIdeal.Hand.mem_uc Cert.KernelIdeal.main_arg4 (by decide))).trans (Cert.KernelIdeal.Hand.W8_launch m ρ c Cert.KernelIdeal.main_arg4 (by decide) (by decide) (by decide) (by decide) (by decide) (by decide) (by decide) (by decide)),
      (h c _ (Cert.KernelIdeal.Hand.mem_uc Cert.KernelIdeal.main_arg5 (by decide))).trans (Cert.KernelIdeal.Hand.W8_launch m ρ c Cert.KernelIdeal.main_arg5 (by decide) (by decide) (by decide) (by decide) (by decide) (by decide) (by decide) (by decide)),
      (h c _ (Cert.KernelIdeal.Hand.mem_uc Cert.KernelIdeal.main_arg6 (by decide))).trans (Cert.KernelIdeal.Hand.W8_launch m ρ c Cert.KernelIdeal.main_arg6 (by decide) (by decide) (by decide) (by decide) (by decide) (by decide) (by decide) (by decide)),
      (h c _ (Cert.KernelIdeal.Hand.mem_uc Cert.KernelIdeal.main_arg7 (by decide))).trans (Cert.KernelIdeal.Hand.W8_launch m ρ c Cert.KernelIdeal.main_arg7 (by decide) (by decide) (by decide) (by decide) (by decide) (by decide) (by decide) (by decide)),
      (h c _ (Cert.KernelIdeal.Hand.mem_uc Cert.KernelIdeal.main_arg8 (by decide))).trans (Cert.KernelIdeal.Hand.W8_launch m ρ c Cert.KernelIdeal.main_arg8 (by decide) (by decide) (by decide) (by decide) (by decide) (by decide) (by decide) (by decide)),
      (h c _ (Cert.KernelIdeal.Hand.mem_uc Cert.KernelIdeal.main_arg9 (by decide))).trans (Cert.KernelIdeal.Hand.W8_launch m ρ c Cert.KernelIdeal.main_arg9 (by decide) (by decide) (by decide) (by decide) (by decide) (by decide) (by decide) (by decide)),
      (h c _ (Cert.KernelIdeal.Hand.mem_uc Cert.KernelIdeal.main_arg10 (by decide))).trans (Cert.KernelIdeal.Hand.W8_launch m ρ c Cert.KernelIdeal.main_arg10 (by decide) (by decide) (by decide) (by decide) (by decide) (by decide) (by decide) (by decide)),
      (h c _ (Cert.KernelIdeal.Hand.mem_uc Cert.KernelIdeal.main_arg11 (by decide))).trans (Cert.KernelIdeal.Hand.W8_launch m ρ c Cert.KernelIdeal.main_arg11 (by decide) (by decide) (by decide) (by decide) (by decide) (by decide) (by decide) (by decide)),
      (h c _ (Cert.KernelIdeal.Hand.mem_uc Cert.KernelIdeal.main_arg12 (by decide))).trans (Cert.KernelIdeal.Hand.W8_launch m ρ c Cert.KernelIdeal.main_arg12 (by decide) (by decide) (by decide) (by decide) (by decide) (by decide) (by decide) (by decide)),
      (h c _ (Cert.KernelIdeal.Hand.mem_uc Cert.KernelIdeal.main_arg13 (by decide))).trans (Cert.KernelIdeal.Hand.W8_launch m ρ c Cert.KernelIdeal.main_arg13 (by decide) (by decide) (by decide) (by decide) (by decide) (by decide) (by decide) (by decide))⟩
  · refine (θ_run Cert.ReferenceIdeal.defs _ _).mono (fun r h c => ⟨(h c).1.trans ?_, (h c).2⟩) (Cert.ReferenceIdeal.Value.run (F := Ideal) m' ρ')
    rw [Cert.ReferenceIdeal.Read.val_main_v95_eq m' c]
    obtain ⟨g0, g1, g2, g3, g4, g5, g6, g7, g8, g9, g10, g11, g12, g13⟩ := hagree c
    rw [g0, g1, g2, g3, g4, g5, g6, g7, g8, g9, g10, g11, g12, g13]
    exact (result_eq m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
